-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x2048x768 .f32) (main_arg1 : FVec F S2304x768 .f32) (main_arg2 : FVec F S2304 .f32) (main_arg3 : FVec F S768x768 .f32) (main_arg4 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S4x2048x768 : Shape := ⟨3, ![4, 2048, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S768x2304 : Shape := ⟨2, ![768, 2304]⟩
abbrev S1x2304 : Shape := ⟨2, ![1, 2304]⟩
abbrev S1x512x768 : Shape := ⟨3, ![1, 512, 768]⟩
abbrev S512x768 : Shape := ⟨2, ![512, 768]⟩
abbrev S512x2304 : Shape := ⟨2, ![512, 2304]⟩
abbrev S1x768 : Shape := ⟨2, ![1, 768]⟩
abbrev S1x128x768 : Shape := ⟨3, ![1, 128, 768]⟩
abbrev S12x512x1 : Shape := ⟨3, ![12, 512, 1]⟩
abbrev S12x512x64 : Shape := ⟨3, ![12, 512, 64]⟩
abbrev S512x12x64 : Shape := ⟨3, ![512, 12, 64]⟩
abbrev S128x768 : Shape := ⟨2, ![128, 768]⟩
abbrev S128x12x64 : Shape := ⟨3, ![128, 12, 64]⟩
abbrev S12x128x64 : Shape := ⟨3, ![12, 128, 64]⟩
abbrev S12x512x128 : Shape := ⟨3, ![12, 512, 128]⟩
abbrev S12x512 : Shape := ⟨2, ![12, 512]⟩

abbrev nBuf : Space → Nat
  | .hbm => 15
  | .vmem => 23
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768x2304, .f32⟩
  | .hbm, ⟨6, _⟩ => ⟨S768x2304, .bf16⟩
  | .hbm, ⟨7, _⟩ => ⟨S1x2304, .f32⟩
  | .hbm, ⟨8, _⟩ => ⟨S4x2048x768, .bf16⟩
  | .hbm, ⟨9, _⟩ => ⟨S4x2048x768, .bf16⟩
  | .hbm, ⟨10, _⟩ => ⟨S4x2048x768, .bf16⟩
  | .hbm, ⟨11, _⟩ => ⟨S768x768, .f32⟩
  | .hbm, ⟨12, _⟩ => ⟨S768x768, .bf16⟩
  | .hbm, ⟨13, _⟩ => ⟨S1x768, .f32⟩
  | .hbm, ⟨14, _⟩ => ⟨S4x2048x768, .f32⟩
  | .local _ .vmem, ⟨0, _⟩ => ⟨S1x512x768, .f32⟩
  | .local _ .vmem, ⟨1, _⟩ => ⟨S1x512x768, .f32⟩
  | .local _ .vmem, ⟨2, _⟩ => ⟨S768x2304, .bf16⟩
  | .local _ .vmem, ⟨3, _⟩ => ⟨S1x2304, .f32⟩
  | .local _ .vmem, ⟨4, _⟩ => ⟨S1x512x768, .bf16⟩
  | .local _ .vmem, ⟨5, _⟩ => ⟨S1x512x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x512x768, .bf16⟩
  | .local _ .vmem, ⟨9, _⟩ => ⟨S1x512x768, .bf16⟩
  | .local _ .vmem, ⟨10, _⟩ => ⟨S1x512x768, .bf16⟩
  | .local _ .vmem, ⟨11, _⟩ => ⟨S1x512x768, .bf16⟩
  | .local _ .vmem, ⟨12, _⟩ => ⟨S1x128x768, .bf16⟩
  | .local _ .vmem, ⟨13, _⟩ => ⟨S1x128x768, .bf16⟩
  | .local _ .vmem, ⟨14, _⟩ => ⟨S1x128x768, .bf16⟩
  | .local _ .vmem, ⟨15, _⟩ => ⟨S1x128x768, .bf16⟩
  | .local _ .vmem, ⟨16, _⟩ => ⟨S768x768, .bf16⟩
  | .local _ .vmem, ⟨17, _⟩ => ⟨S1x768, .f32⟩
  | .local _ .vmem, ⟨18, _⟩ => ⟨S1x512x768, .f32⟩
  | .local _ .vmem, ⟨19, _⟩ => ⟨S1x512x768, .f32⟩
  | .local _ .vmem, ⟨20, _⟩ => ⟨S12x512x1, .f32⟩
  | .local _ .vmem, ⟨21, _⟩ => ⟨S12x512x1, .f32⟩
  | .local _ .vmem, ⟨22, _⟩ => ⟨S12x512x64, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![4, 4, 16], ![false, false, false]⟩

def k1_cond2 (i : grid1.Coords) : BitVec 1 :=
  let arg2 : BitVec 32 := BitVec.ofNat 32 (i 2).val
  let c15_i32 : BitVec 32 := 15#32
  let v48 : BitVec 1 := Scalar.cmpi .eq arg2 c15_i32
  let v49 : BitVec 32 := Scalar.extui v48
  let c0_i32_34 : BitVec 32 := 0#32
  let v50 : BitVec 1 := Scalar.cmpi .ne v49 c0_i32_34
  v50

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x128x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  transposes_S2304x768_S768x2304_1_0 : S2304x768.Transposes [1, 0] S768x2304
  bitsLt_bf16_f32 : FTy.bits .bf16 < FTy.bits .f32
  shapeCasts_S2304_S1x2304 : S2304.ShapeCasts S1x2304
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S512x2304 : S1x2304.Broadcasts S512x2304
  slices_S512x2304_o0_0_S512x768 : S512x2304.Slices ![0, 0] S512x768
  shapeCasts_S512x768_S1x512x768 : S512x768.ShapeCasts S1x512x768
  packedbf16_S1x512x768_S1x512x768_0_0_0 : (Rect.unit (s := S1x512x768) ![0, 0, 0] S1x512x768.size inb_S1x512x768_S1x512x768_0_0_0).PackedRows (EltTy.packing .bf16)
  slices_S512x2304_o0_768_S512x768 : S512x2304.Slices ![0, 768] S512x768
  slices_S512x2304_o0_1536_S512x768 : S512x2304.Slices ![0, 1536] S512x768
  transposes_S768x768_S768x768_1_0 : S768x768.Transposes [1, 0] S768x768
  shapeCasts_S768_S1x768 : S768.ShapeCasts S1x768
  inb_S12x512x1_S12x512x1_0_0_0 : ∀ a, (![0, 0, 0] : Fin 3 → Nat) a + S12x512x1.size a ≤ S12x512x1.size a
  h_S12x512x1 : 0 < S12x512x1.numel
  shapeCasts_S12x512x1_S12x512x1 : S12x512x1.ShapeCasts S12x512x1
  inb_S12x512x64_S12x512x64_0_0_0 : ∀ a, (![0, 0, 0] : Fin 3 → Nat) a + S12x512x64.size a ≤ S12x512x64.size a
  h_S12x512x64 : 0 < S12x512x64.numel
  shapeCasts_S12x512x64_S12x512x64 : S12x512x64.ShapeCasts S12x512x64
  shapeCasts_S512x768_S512x12x64 : S512x768.ShapeCasts S512x12x64
  transposes_S512x12x64_p1_0_2_S12x512x64 : S512x12x64.Transposes [1, 0, 2] S12x512x64
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  shapeCasts_S128x768_S128x12x64 : S128x768.ShapeCasts S128x12x64
  transposes_S128x12x64_p1_0_2_S12x128x64 : S128x12x64.Transposes [1, 0, 2] S12x128x64
  reduces_S12x512x128_S12x512 : S12x512x128.Reduces [2] S12x512
  shapeCasts_S12x512_S12x512x1 : S12x512.ShapeCasts S12x512x1
  broadcasts_S12x512x1_S12x512x128 : S12x512x1.Broadcasts S12x512x128
  broadcasts_S12x512x1_S12x512x64 : S12x512x1.Broadcasts S12x512x64
  transposes_S12x512x64_p1_0_2_S512x12x64 : S12x512x64.Transposes [1, 0, 2] S512x12x64
  shapeCasts_S512x12x64_S512x768 : S512x12x64.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  dot_S512x768_S768x2304_S512x2304_1_0_0_1_n_n_wf : DotDims.WF S512x768 S768x2304 S512x2304 [1] [0] [0] [1] [] []
  dot_S12x512x64_S12x128x64_S12x512x128_2_2_1_1_0_0_wf : DotDims.WF S12x512x64 S12x128x64 S12x512x128 [2] [2] [1] [1] [0] [0]
  dot_S12x512x128_S12x128x64_S12x512x64_2_1_1_2_0_0_wf : DotDims.WF S12x512x128 S12x128x64 S12x512x64 [2] [1] [1] [2] [0] [0]
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x2048x768.size a
  hwx0_0 : ∀ i : grid0.Coords, EltTy.bits .f32 = 32 ∨ (Rect.block (s := S4x2048x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x768.size a ≤ S4x2048x768.size a
  hwx0_3 : ∀ i : grid0.Coords, EltTy.bits .bf16 = 32 ∨ (Rect.block (s := S4x2048x768) S1x512x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x768.size a ≤ S4x2048x768.size a
  hwx0_4 : ∀ i : grid0.Coords, EltTy.bits .bf16 = 32 ∨ (Rect.block (s := S4x2048x768) S1x512x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x768.size a ≤ S4x2048x768.size a
  hwx0_5 : ∀ i : grid0.Coords, EltTy.bits .bf16 = 32 ∨ (Rect.block (s := S4x2048x768) S1x512x768.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x768.size a ≤ S4x2048x768.size a
  hwx1_0 : ∀ i : grid1.Coords, EltTy.bits .bf16 = 32 ∨ (Rect.block (s := S4x2048x768) S1x512x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x768.size a ≤ S4x2048x768.size a
  hwx1_1 : ∀ i : grid1.Coords, EltTy.bits .bf16 = 32 ∨ (Rect.block (s := S4x2048x768) S1x128x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x768.size a ≤ S4x2048x768.size a
  hwx1_2 : ∀ i : grid1.Coords, EltTy.bits .bf16 = 32 ∨ (Rect.block (s := S4x2048x768) S1x128x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x768.size a ≤ S768x768.size a
  hwx1_3 : ∀ i : grid1.Coords, EltTy.bits .bf16 = 32 ∨ (Rect.block (s := S768x768) S768x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x768.size a ≤ S4x2048x768.size a
  hwx1_5 : ∀ i : grid1.Coords, EltTy.bits .f32 = 32 ∨ (Rect.block (s := S4x2048x768) S1x512x768.size (cc1_transform_5 i) (hinb1_5 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S12x512x64_S12x128x64_S12x512x128_2_2_1_1_0_0 : DotDims S12x512x64 S12x128x64 S12x512x128 where
  lhsContracting := [2]
  rhsContracting := [2]
  lhsNonContracting := [1]
  rhsNonContracting := [1]
  lhsBatch := [0]
  rhsBatch := [0]
  wf := dot_S12x512x64_S12x128x64_S12x512x128_2_2_1_1_0_0_wf
def dot_S12x512x128_S12x128x64_S12x512x64_2_1_1_2_0_0 : DotDims S12x512x128 S12x128x64 S12x512x64 where
  lhsContracting := [2]
  rhsContracting := [1]
  lhsNonContracting := [1]
  rhsNonContracting := [2]
  lhsBatch := [0]
  rhsBatch := [0]
  wf := dot_S12x512x128_S12x128x64_S12x512x64_2_1_1_2_0_0_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x512x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1x512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S1x128x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S1x128x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S768x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x512x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x768 : Shape := ⟨3, ![4, 2048, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S4x2048x2304 : Shape := ⟨3, ![4, 2048, 2304]⟩
abbrev S1x1x2304 : Shape := ⟨3, ![1, 1, 2304]⟩
abbrev S4x2048x12x64 : Shape := ⟨4, ![4, 2048, 12, 64]⟩
abbrev S4x12x2048x64 : Shape := ⟨4, ![4, 12, 2048, 64]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩
abbrev S1x1x768 : Shape := ⟨3, ![1, 1, 768]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S4x2048x2304, .f32⟩
  | .hbm, ⟨6, _⟩ => ⟨S1x1x2304, .f32⟩
  | .hbm, ⟨7, _⟩ => ⟨S4x2048x2304, .f32⟩
  | .hbm, ⟨8, _⟩ => ⟨S4x2048x2304, .f32⟩
  | .hbm, ⟨9, _⟩ => ⟨S4x2048x768, .f32⟩
  | .hbm, ⟨10, _⟩ => ⟨S4x2048x768, .f32⟩
  | .hbm, ⟨11, _⟩ => ⟨S4x2048x768, .f32⟩
  | .hbm, ⟨12, _⟩ => ⟨S4x2048x12x64, .f32⟩
  | .hbm, ⟨13, _⟩ => ⟨S4x12x2048x64, .f32⟩
  | .hbm, ⟨14, _⟩ => ⟨S4x2048x12x64, .f32⟩
  | .hbm, ⟨15, _⟩ => ⟨S4x12x2048x64, .f32⟩
  | .hbm, ⟨16, _⟩ => ⟨S4x2048x12x64, .f32⟩
  | .hbm, ⟨17, _⟩ => ⟨S4x12x2048x64, .f32⟩
  | .hbm, ⟨18, _⟩ => ⟨S4x12x2048x2048, .f32⟩
  | .hbm, ⟨19, _⟩ => ⟨S_, .f32⟩
  | .hbm, ⟨20, _⟩ => ⟨S_, .f32⟩
  | .hbm, ⟨21, _⟩ => ⟨S4x12x2048x2048, .f32⟩
  | .hbm, ⟨22, _⟩ => ⟨S4x12x2048x2048, .f32⟩
  | .hbm, ⟨23, _⟩ => ⟨S_, .f32⟩
  | .hbm, ⟨24, _⟩ => ⟨S4x12x2048, .f32⟩
  | .hbm, ⟨25, _⟩ => ⟨S_, .f32⟩
  | .hbm, ⟨26, _⟩ => ⟨S4x12x2048, .f32⟩
  | .hbm, ⟨27, _⟩ => ⟨S4x12x2048, .f32⟩
  | .hbm, ⟨28, _⟩ => ⟨S4x12x2048x1, .f32⟩
  | .hbm, ⟨29, _⟩ => ⟨S4x12x2048x2048, .f32⟩
  | .hbm, ⟨30, _⟩ => ⟨S4x12x2048x2048, .f32⟩
  | .hbm, ⟨31, _⟩ => ⟨S4x12x2048x2048, .f32⟩
  | .hbm, ⟨32, _⟩ => ⟨S_, .f32⟩
  | .hbm, ⟨33, _⟩ => ⟨S4x12x2048, .f32⟩
  | .hbm, ⟨34, _⟩ => ⟨S4x12x2048x1, .f32⟩
  | .hbm, ⟨35, _⟩ => ⟨S4x12x2048x2048, .f32⟩
  | .hbm, ⟨36, _⟩ => ⟨S4x12x2048x2048, .f32⟩
  | .hbm, ⟨37, _⟩ => ⟨S4x12x2048x64, .f32⟩
  | .hbm, ⟨38, _⟩ => ⟨S4x2048x12x64, .f32⟩
  | .hbm, ⟨39, _⟩ => ⟨S4x2048x768, .f32⟩
  | .hbm, ⟨40, _⟩ => ⟨S4x2048x768, .f32⟩
  | .hbm, ⟨41, _⟩ => ⟨S1x1x768, .f32⟩
  | .hbm, ⟨42, _⟩ => ⟨S4x2048x768, .f32⟩
  | .hbm, ⟨43, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S4x2048x2304_0_1_2 : S1x1x2304.BroadcastsInDim S4x2048x2304 (![0, 1, 2] : Fin 3 → Fin S4x2048x2304.rank)
  slices_S4x2048x2304_S4x2048x768_0_0_0 : S4x2048x2304.Slices ![0, 0, 0] S4x2048x768
  slices_S4x2048x2304_S4x2048x768_0_0_768 : S4x2048x2304.Slices ![0, 0, 768] S4x2048x768
  slices_S4x2048x2304_S4x2048x768_0_0_1536 : S4x2048x2304.Slices ![0, 0, 1536] S4x2048x768
  shapeCasts_S4x2048x768_S4x2048x12x64 : S4x2048x768.ShapeCasts S4x2048x12x64
  transposes_S4x2048x12x64_S4x12x2048x64_0_2_1_3 : S4x2048x12x64.Transposes [0, 2, 1, 3] S4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S2304x768_S4x2048x2304_2_1_01_0_n_n_wf : DotDims.WF S4x2048x768 S2304x768 S4x2048x2304 [2] [1] [0, 1] [0] [] []
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.K.R0.lean ====
import proofs.«144252_j90228672955012_2_alg».proof.Proof.Gen.Kernel.Launch
import proofs.«144252_j90228672955012_2_alg».proof.Proof.Gen.Kernel.Skeleton
import proofs.«144252_j90228672955012_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the first pipeline is entered: everything below is stated at it
variable (V : (c : Dev nD) → (b : Ref sig .tc) → Buf (Elt F) ((c : Thread nD τ).loc b))

/-! # The projection kernel (the first pipeline), at the entry contents `V`

The body reads three blocks whole — a 512-row slab of the activations, the whole transposed weight matrix and the
whole bias row —, forms one 512 x 2304 product-plus-bias, and writes its three 768-column thirds, each with ONE store
that fills the whole block of its output window. Each output buffer is also read once before it is written; the value
read is used by nothing. -/

/-! ## The windows' blocks -/

/-- Block `t` of window `w`, read off the window's array as it stands when the pipeline starts. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body finds in the activations' buffer is block `t`, for any proof data over `V`'s array whose body
    leaves that block where it found it. The window moves with both grid axes and is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight matrix. Its block index does not depend on the grid point, so it is fetched once, at the
    first point; at every later point the buffer still holds what the body left there, which is the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias row, also fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is of a whole buffer -/

/-- The whole 1 x 512 x 768 block. -/
abbrev rX : Rect S1x512x768 := Rect.unit (s := S1x512x768) ![0, 0, 0] S1x512x768.size inb_S1x512x768_S1x512x768_0_0_0
/-- The whole 768 x 2304 matrix. -/
abbrev rW : Rect S768x2304 := Rect.unit (s := S768x2304) ![0, 0] S768x2304.size inb_S768x2304_S768x2304_0_0
/-- The whole 1 x 2304 row. -/
abbrev rB : Rect S1x2304 := Rect.unit (s := S1x2304) ![0, 0] S1x2304.size inb_S1x2304_S1x2304_0_0

theorem zX : (![0, 0, 0] : Fin S1x512x768.rank → Nat) = fun _ => 0 := funext fun a => by fin_cases a <;> rfl
theorem zW : (![0, 0] : Fin S768x2304.rank → Nat) = fun _ => 0 := funext fun a => by fin_cases a <;> rfl
theorem zB : (![0, 0] : Fin S1x2304.rank → Nat) = fun _ => 0 := funext fun a => by fin_cases a <;> rfl

/-- A read through the whole-buffer rectangle is the buffer. -/
theorem ldX {e : EltTy} (x : S1x512x768.Idx → Elt F e) : View.ld x rX = x := View.ld_unit_zero zX _ x
theorem ldW {e : EltTy} (x : S768x2304.Idx → Elt F e) : View.ld x rW = x := View.ld_unit_zero zW _ x
theorem ldB {e : EltTy} (x : S1x2304.Idx → Elt F e) : View.ld x rB = x := View.ld_unit_zero zB _ x

/-- What a whole-buffer load reads of a buffer is the buffer's contents. -/
theorem rdX {κ : Kind} {sp : Space} {e : EltTy} (v : View sig κ sp S1x512x768 e) (f : v.ty.Contents (Elt F)) :
    v.readAt (Elt F) rX.toLoadRect f = v.read (Elt F) f := (View.readAt_eq_ld v f rX).trans (ldX _)
theorem rdW {κ : Kind} {sp : Space} {e : EltTy} (v : View sig κ sp S768x2304 e) (f : v.ty.Contents (Elt F)) :
    v.readAt (Elt F) rW.toLoadRect f = v.read (Elt F) f := (View.readAt_eq_ld v f rW).trans (ldW _)
theorem rdB {κ : Kind} {sp : Space} {e : EltTy} (v : View sig κ sp S1x2304 e) (f : v.ty.Contents (Elt F)) :
    v.readAt (Elt F) rB.toLoadRect f = v.read (Elt F) f := (View.readAt_eq_ld v f rB).trans (ldB _)

/-- One store through the whole-buffer rectangle covers the buffer, -/
theorem coverX {e : EltTy} (p : S1x512x768.Idx → Elt F e) (y : S1x512x768.Idx) :
    ∃ pc ∈ ([⟨rX, p⟩] : List (View.Piece (Elt F) S1x512x768 e)), y ∈ pc.1.set :=
  ⟨_, List.mem_singleton_self _, View.mem_set_unit_zero zX inb_S1x512x768_S1x512x768_0_0_0 y⟩

/-- and leaves its payload there, whatever the buffer held. -/
theorem storeX {κ : Kind} {sp : Space} {e : EltTy} (v : View sig κ sp S1x512x768 e) (f : v.ty.Contents (Elt F)) (p : S1x512x768.Idx → Elt F e) :
    v.read (Elt F) (v.writes (Elt F) f [⟨rX, p⟩]) = p :=
  (View.read_writes_eq_canon v f _ (coverX p)).trans (View.canon_unit_zero zX _ p)

/-! ## The body's triple -/

set_option maxHeartbeats 1000000 in
/-- The body on six whole buffers, the three inputs' at read contents `x0`, `x1`, `x2` and the three outputs' at
    anything, runs to the continuation with the inputs' as they were and the outputs' at the three thirds of the
    product-plus-bias of `x0`, `x1`, `x2` (the payloads of its three stores, kept folded). -/
theorem sound_kernel0 (c : Dev nD) (E : Set ℕ) (i : grid0.Coords)
    (arg2 : Memref sig .tc .vmem S1x512x768 .f32) (harg2 : arg2.IsWhole)
    (arg3 : Memref sig .tc .vmem S768x2304 .bf16) (harg3 : arg3.IsWhole)
    (arg4 : Memref sig .tc .vmem S1x2304 .f32) (harg4 : arg4.IsWhole)
    (arg5 : Memref sig .tc .vmem S1x512x768 .bf16) (harg5 : arg5.IsWhole)
    (arg6 : Memref sig .tc .vmem S1x512x768 .bf16) (harg6 : arg6.IsWhole)
    (arg7 : Memref sig .tc .vmem S1x512x768 .bf16) (harg7 : arg7.IsWhole)
    (x0 : Vec F S1x512x768 .f32) (x1 : Vec F S768x2304 .bf16) (x2 : Vec F S1x2304 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 x2) ∗ owns (c : Thread nD τ) arg6 fullShare (k0_pay3 x0 x1 x2)
            ∗ owns (c : Thread nD τ) arg7 fullShare (k0_pay4 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (storeX _ _ _).trans (by rw [rdX, rdW, rdB])
  isplitl [H4]
  · iexists _; isplitr
    swap; · iexact H4
    ipureintro
    exact (storeX _ _ _).trans (by rw [rdX, rdW, rdB])
  iexists _; isplitr
  swap; · iexact H5
  ipureintro
  exact (storeX _ _ _).trans (by rw [rdX, rdW, rdB])

/-! ## The pipeline's proof data -/

/-- The proof data of the first pipeline on core `c`. The arrays are `V`'s. After the body at point `t` each input
    buffer still holds its block, and the three output buffers hold the three thirds of the product-plus-bias of the
    three input blocks. The invariant is that of a body touching nothing but its windows' buffers; nothing is owed;
    every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (iblk0 V c 0 t) (iblk0 V c 1 t) (iblk0 V c 2 t)
    | ⟨4, _⟩ => k0_pay3 (iblk0 V c 0 t) (iblk0 V c 1 t) (iblk0 V c 2 t)
    | ⟨5, _⟩ => k0_pay4 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (iblk0 V c 0 t) (iblk0 V c 1 t) (iblk0 V c 2 t) := by dsimp only [dat0]
theorem after0_4 (c : Dev nD) (t : Fin cfg0.N) : (dat0 V c).after 4 t = k0_pay3 (iblk0 V c 0 t) (iblk0 V c 1 t) (iblk0 V c 2 t) := by dsimp only [dat0]
theorem after0_5 (c : Dev nD) (t : Fin cfg0.N) : (dat0 V c).after 5 t = k0_pay4 (iblk0 V c 0 t) (iblk0 V c 1 t) (iblk0 V c 2 t) := by dsimp only [dat0]

/-- Each input buffer holds its block when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and the six current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the three input buffers hold their blocks, so the body's triple applies at those blocks;
    the invariant and the dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
import proofs.«144252_j90228672955012_2_alg».proof.Proof.Gen.Kernel.Launch
import proofs.«144252_j90228672955012_2_alg».proof.Proof.Gen.Kernel.Skeleton
import proofs.«144252_j90228672955012_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
-- the contents of the core's buffers when the region is entered: everything below is stated at them
variable (V : (c : Dev nD) → (b : Ref sig .tc) → Buf (Elt F) ((c : Thread nD τ).loc b))

-- each closed form below is a statement about all 256 points of the grid 4 x 4 x 16
set_option Elab.async false

/-! # REGION 1: the online-softmax step over the grid 4 x 4 x 16, at the entry contents `V`

## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## One point's step on the carried triple (running maximum, running denominator, running numerator) -/

/-- The new running maximum: the old one against the row maxima of the scaled scores of the `q` block against the `k` block. -/
def stepM (q : Vec F S1x512x768 .bf16) (k : Vec F S1x128x768 .bf16) (m0 : Vec F S12x512x1 .f32) : Vec F S12x512x1 .f32 :=
  k1_pay3 (k1_pay10 q k m0)
/-- The new running denominator: the old one rescaled by `exp (m0 - m)`, plus the row sums of `exp (s - m)`. -/
def stepL (q : Vec F S1x512x768 .bf16) (k : Vec F S1x128x768 .bf16) (m0 l0 : Vec F S12x512x1 .f32) : Vec F S12x512x1 .f32 :=
  k1_pay1 (k1_pay13 q k m0 m0 l0) (k1_pay14 q k m0)
/-- The new running numerator: the old one rescaled by `exp (m0 - m)`, plus `exp (s - m)` times the `v` block. -/
def stepA (q : Vec F S1x512x768 .bf16) (k v : Vec F S1x128x768 .bf16) (m0 : Vec F S12x512x1 .f32) (a0 : Vec F S12x512x64 .f32) : Vec F S12x512x64 .f32 :=
  k1_pay2 (k1_pay8 v) (k1_pay11 q k m0 m0) (k1_pay12 q k m0) a0
/-- The output block: numerator over denominator, heads merged, projected and biased. -/
def outO (a : Vec F S12x512x64 .f32) (l : Vec F S12x512x1 .f32) (pw : Vec F S768x768 .bf16) (pb : Vec F S1x768 .f32) : Vec F S1x512x768 .f32 :=
  k1_pay4 a l pw pb

/-! ## The body's two branch conditions, in closed form over the grid -/

/-- The first conditional's condition (grid coordinate 2 is zero: the carried triple is reset), from the coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The second conditional's condition (grid coordinate 2 is fifteen: the output block is stored). -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The five input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the points ≡ 15 (mod 16) the output window is idle: the body stores nothing into it, -/
theorem idleAt1_5 : ∀ t : Fin cfg1.N, ¬cond1_1 (grid1.coords t) → cfg1.idle 5 (grid1.coords t) = true := by decide +kernel
/-- and its block is not written back there. -/
theorem noFlush1_5 : ∀ t : Fin cfg1.N, ¬cond1_1 (grid1.coords t) → (cfg1.win 5).flush t = false := by decide +kernel
/-- At the points ≡ 15 (mod 16) it is live. -/
theorem liveAt1_5 : ∀ t : Fin cfg1.N, cond1_1 (grid1.coords t) → cfg1.idle 5 (grid1.coords t) = false := by decide +kernel

/-! ## The scratch operands and the region's invariant -/

/-- The three scratch operands: whole scoped buffers of the kernel's own, passed beside the windows. -/
abbrev scM1_0 : Memref sig .tc .vmem S12x512x1 .f32 := Memref.whole cc1_scratch0
abbrev scM1_1 : Memref sig .tc .vmem S12x512x1 .f32 := Memref.whole cc1_scratch1
abbrev scM1_2 : Memref sig .tc .vmem S12x512x64 .f32 := Memref.whole cc1_scratch2

/-- The ten scoped buffers the body never touches, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The pipeline's entry invariant hands over the untouched scoped buffers, the three scratch operands as memrefs owned at
    some contents, and the generator register at some state; -/
theorem PhiA1_in (c : Dev nD) :
    (Pipeline.ΦA spec1 c : sProp 𝕄)
      ⊢ iprop((rest1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; unfold rest1
  simp only [scM1_0, scM1_1, scM1_2, owns_whole]
  iintro ⟨⟨H0, H1, H2, H3, H4, H5, H6, H7, H8, H9, HS0, HS1, HS2⟩, Hg⟩
  isplitl [H0 H1 H2 H3 H4 H5 H6 H7 H8 H9 HS0 HS1 HS2]
  · isplitl [H0 H1 H2 H3 H4 H5 H6 H7 H8 H9]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS0]; · iexact HS0
    isplitl [HS1]; · iexact HS1
    iexact HS2
  iexact Hg

/-- and takes them back. -/
theorem PhiA1_out (c : Dev nD) :
    iprop((rest1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r))
      ⊢ (Pipeline.ΦA spec1 c : sProp 𝕄) := by
  unfold Pipeline.ΦA; rw [scopedRest1_eq]; unfold rest1
  simp only [scM1_0, scM1_1, scM1_2, owns_whole]
  iintro ⟨⟨⟨H0, H1, H2, H3, H4, H5, H6, H7, H8, H9⟩, HS0, HS1, HS2⟩, Hg⟩
  isplitl [H0 H1 H2 H3 H4 H5 H6 H7 H8 H9 HS0 HS1 HS2]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iexact Hg

/-! ## Whole loads and whole stores -/

theorem hz3 : (![0, 0, 0] : Fin 3 → Nat) = fun _ => 0 := funext fun a => by fin_cases a <;> rfl
theorem hz2 : (![0, 0] : Fin 2 → Nat) = fun _ => 0 := funext fun a => by fin_cases a <;> rfl

/-- A buffer whose LAST store covered it whole reads that store's payload, whatever it held and whatever was stored before. -/
theorem read_writes_whole {κ : Kind} {sp : Space} {s : Shape} {e : EltTy} (v : View sig κ sp s e) (f : v.ty.Contents (Elt F))
    {off : Fin s.rank → Nat} (hz : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w :=
  (View.read_writes_eq_canon v f _ (fun y => ⟨_, List.mem_cons_self, View.mem_set_unit_zero hz inb y⟩)).trans
    (View.canon_cons_unit_zero hz inb w L)

end Cert.Kernel.Hand
end
-- ==== Proof.K.R1Run.lean ====
import proofs.«144252_j90228672955012_2_alg».proof.Proof.K.R1Runs
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

/-! # The body's triple, case by case

On whole memrefs — the five inputs' at their contents, the output's, the three scratch operands' — the body runs to the
continuation holding the inputs' as they were and the scratch operands' at one step of the carried triple from what
they held (from the reset values at a first point); the output's is handed back untouched away from the last points and
holds the output block of the NEW numerator and denominator at a last point. Every load and every store is of a whole
buffer, so a load after a store reads the stored payload. -/

set_option maxHeartbeats 1000000 in
/-- FIRST points (coordinate 2 is zero, not fifteen): the scratch operands, at anything, are reset and stepped once. -/
theorem kernelRun1_A (c : Dev nD) (i : grid1.Coords) (arg3 : Memref sig .tc .vmem S1x512x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x512x768 .f32) (harg8 : arg8.IsWhole) (arg9 : Memref sig .tc .vmem S12x512x1 .f32) (harg9 : arg9.IsWhole) (arg10 : Memref sig .tc .vmem S12x512x1 .f32) (harg10 : arg10.IsWhole) (arg11 : Memref sig .tc .vmem S12x512x64 .f32) (harg11 : arg11.IsWhole) (hc0 : cond1_0 i) (hc1 : ¬cond1_1 i)
    (x0 : Vec F S1x512x768 .bf16) (x1 x2 : Vec F S1x128x768 .bf16) (x3 : Vec F S768x768 .bf16) (x4 : Vec F S1x768 .f32) (xi5 : Vec F S1x512x768 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xi5
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xi5
            ∗ owns (c : Thread nD τ) arg9 fullShare (stepM x0 x1 k1_pay5) ∗ owns (c : Thread nD τ) arg10 fullShare (stepL x0 x1 k1_pay5 k1_pay6)
            ∗ owns (c : Thread nD τ) arg11 fullShare (stepA x0 x1 x2 k1_pay5 k1_pay7)) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton, k1_part1_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [HS0]
  · iexists _; isplitr
    swap; · iexact HS0
    ipureintro
    refine (read_writes_whole _ _ hz3 _ _ _).trans ?_
    sl_unfold_run_names
    unfold stepM
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  isplitl [HS1]
  · iexists _; isplitr
    swap; · iexact HS1
    ipureintro
    refine (read_writes_whole _ _ hz3 _ _ _).trans ?_
    sl_unfold_run_names
    unfold stepL
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  iexists _; isplitr
  swap; · iexact HS2
  ipureintro
  refine (read_writes_whole _ _ hz3 _ _ _).trans ?_
  sl_unfold_run_names
  unfold stepA
  simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]

set_option maxHeartbeats 1000000 in
/-- MIDDLE points (coordinate 2 neither zero nor fifteen): the scratch operands are stepped from what they held. -/
theorem kernelRun1_B (c : Dev nD) (i : grid1.Coords) (arg3 : Memref sig .tc .vmem S1x512x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x512x768 .f32) (harg8 : arg8.IsWhole) (arg9 : Memref sig .tc .vmem S12x512x1 .f32) (harg9 : arg9.IsWhole) (arg10 : Memref sig .tc .vmem S12x512x1 .f32) (harg10 : arg10.IsWhole) (arg11 : Memref sig .tc .vmem S12x512x64 .f32) (harg11 : arg11.IsWhole) (hc0 : ¬cond1_0 i) (hc1 : ¬cond1_1 i)
    (x0 : Vec F S1x512x768 .bf16) (x1 x2 : Vec F S1x128x768 .bf16) (x3 : Vec F S768x768 .bf16) (x4 : Vec F S1x768 .f32) (m0 l0 : Vec F S12x512x1 .f32) (a0 : Vec F S12x512x64 .f32) (xi5 : Vec F S1x512x768 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xi5
        ∗ owns (c : Thread nD τ) arg9 fullShare m0 ∗ owns (c : Thread nD τ) arg10 fullShare l0 ∗ owns (c : Thread nD τ) arg11 fullShare a0
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xi5
            ∗ owns (c : Thread nD τ) arg9 fullShare (stepM x0 x1 m0) ∗ owns (c : Thread nD τ) arg10 fullShare (stepL x0 x1 m0 l0)
            ∗ owns (c : Thread nD τ) arg11 fullShare (stepA x0 x1 x2 m0 a0)) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton, k1_part1_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [HS0]
  · iexists _; isplitr
    swap; · iexact HS0
    ipureintro
    refine (read_writes_whole _ _ hz3 _ _ _).trans ?_
    sl_unfold_run_names
    unfold stepM
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  isplitl [HS1]
  · iexists _; isplitr
    swap; · iexact HS1
    ipureintro
    refine (read_writes_whole _ _ hz3 _ _ _).trans ?_
    sl_unfold_run_names
    unfold stepL
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  iexists _; isplitr
  swap; · iexact HS2
  ipureintro
  refine (read_writes_whole _ _ hz3 _ _ _).trans ?_
  sl_unfold_run_names
  unfold stepA
  simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]

set_option maxHeartbeats 1000000 in
/-- LAST points (coordinate 2 is fifteen, not zero): the scratch operands are stepped from what they held, and the
    output's memref, at anything, is stored the output block of the new numerator and denominator. -/
theorem kernelRun1_C (c : Dev nD) (i : grid1.Coords) (arg3 : Memref sig .tc .vmem S1x512x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x512x768 .f32) (harg8 : arg8.IsWhole) (arg9 : Memref sig .tc .vmem S12x512x1 .f32) (harg9 : arg9.IsWhole) (arg10 : Memref sig .tc .vmem S12x512x1 .f32) (harg10 : arg10.IsWhole) (arg11 : Memref sig .tc .vmem S12x512x64 .f32) (harg11 : arg11.IsWhole) (hc0 : ¬cond1_0 i) (hc1 : cond1_1 i)
    (x0 : Vec F S1x512x768 .bf16) (x1 x2 : Vec F S1x128x768 .bf16) (x3 : Vec F S768x768 .bf16) (x4 : Vec F S1x768 .f32) (m0 l0 : Vec F S12x512x1 .f32) (a0 : Vec F S12x512x64 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare m0 ∗ owns (c : Thread nD τ) arg10 fullShare l0 ∗ owns (c : Thread nD τ) arg11 fullShare a0
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare (outO (stepA x0 x1 x2 m0 a0) (stepL x0 x1 m0 l0) x3 x4)
            ∗ owns (c : Thread nD τ) arg9 fullShare (stepM x0 x1 m0) ∗ owns (c : Thread nD τ) arg10 fullShare (stepL x0 x1 m0 l0)
            ∗ owns (c : Thread nD τ) arg11 fullShare (stepA x0 x1 x2 m0 a0)) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton, k1_part1_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hf3; obtain rfl := harg7.eq_unread hf4
  obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (read_writes_whole _ _ hz3 _ _ _).trans ?_
    sl_unfold_run_names
    unfold outO stepA stepL
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  isplitl [HS0]
  · iexists _; isplitr
    swap; · iexact HS0
    ipureintro
    refine (read_writes_whole _ _ hz3 _ _ _).trans ?_
    sl_unfold_run_names
    unfold stepM
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  isplitl [HS1]
  · iexists _; isplitr
    swap; · iexact HS1
    ipureintro
    refine (read_writes_whole _ _ hz3 _ _ _).trans ?_
    sl_unfold_run_names
    unfold stepL
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  iexists _; isplitr
  swap; · iexact HS2
  ipureintro
  refine (read_writes_whole _ _ hz3 _ _ _).trans ?_
  sl_unfold_run_names
  unfold stepA
  simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]

end Cert.Kernel.Hand
end
-- ==== Proof.K.R1.lean ====
import proofs.«144252_j90228672955012_2_alg».proof.Proof.K.R1Run
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
-- the contents of the core's buffers when the region is entered: everything below is stated at them
variable (V : (c : Dev nD) → (b : Ref sig .tc) → Buf (Elt F) ((c : Thread nD τ).loc b))

/-! # REGION 1: the carried triple point by point, the proof data, the body obligation -/

/-! ## What the three scratch buffers hold after each point -/

/-- (m, l, acc) in the three scratch buffers after the body at position `n`. At a point with `n % 16 = 0` the body first
    resets them to `k1_pay5`, `k1_pay6`, `k1_pay7` and steps from those; at any other point it steps from what position
    `n - 1` left. -/
def scr1 (c : Dev nD) : (n : ℕ) → n < cfg1.N → Vec F S12x512x1 .f32 × Vec F S12x512x1 .f32 × Vec F S12x512x64 .f32
  | 0, hn => (stepM (iblk1 V c 0 ⟨0, hn⟩) (iblk1 V c 1 ⟨0, hn⟩) k1_pay5, stepL (iblk1 V c 0 ⟨0, hn⟩) (iblk1 V c 1 ⟨0, hn⟩) k1_pay5 k1_pay6, stepA (iblk1 V c 0 ⟨0, hn⟩) (iblk1 V c 1 ⟨0, hn⟩) (iblk1 V c 2 ⟨0, hn⟩) k1_pay5 k1_pay7)
  | n + 1, hn =>
    if h0 : (n + 1) % 16 = 0 then
      (stepM (iblk1 V c 0 ⟨n + 1, hn⟩) (iblk1 V c 1 ⟨n + 1, hn⟩) k1_pay5, stepL (iblk1 V c 0 ⟨n + 1, hn⟩) (iblk1 V c 1 ⟨n + 1, hn⟩) k1_pay5 k1_pay6, stepA (iblk1 V c 0 ⟨n + 1, hn⟩) (iblk1 V c 1 ⟨n + 1, hn⟩) (iblk1 V c 2 ⟨n + 1, hn⟩) k1_pay5 k1_pay7)
    else
      (stepM (iblk1 V c 0 ⟨n + 1, hn⟩) (iblk1 V c 1 ⟨n + 1, hn⟩) (scr1 c n (Nat.lt_of_succ_lt hn)).1, stepL (iblk1 V c 0 ⟨n + 1, hn⟩) (iblk1 V c 1 ⟨n + 1, hn⟩) (scr1 c n (Nat.lt_of_succ_lt hn)).1 (scr1 c n (Nat.lt_of_succ_lt hn)).2.1, stepA (iblk1 V c 0 ⟨n + 1, hn⟩) (iblk1 V c 1 ⟨n + 1, hn⟩) (iblk1 V c 2 ⟨n + 1, hn⟩) (scr1 c n (Nat.lt_of_succ_lt hn)).1 (scr1 c n (Nat.lt_of_succ_lt hn)).2.2)

theorem scr1_first (c : Dev nD) (t : Fin cfg1.N) (h : t.val % 16 = 0) : scr1 V c t.val t.isLt =
    (stepM (iblk1 V c 0 t) (iblk1 V c 1 t) k1_pay5, stepL (iblk1 V c 0 t) (iblk1 V c 1 t) k1_pay5 k1_pay6, stepA (iblk1 V c 0 t) (iblk1 V c 1 t) (iblk1 V c 2 t) k1_pay5 k1_pay7) := by
  obtain ⟨n, hn⟩ := t
  cases n with
  | zero => exact rfl
  | succ n => exact (dif_pos h).trans rfl

theorem scr1_next (c : Dev nD) (t : Fin cfg1.N) (h : ¬ t.val % 16 = 0) : scr1 V c t.val t.isLt =
    (stepM (iblk1 V c 0 t) (iblk1 V c 1 t) (scr1 V c (t.val - 1) (by omega)).1, stepL (iblk1 V c 0 t) (iblk1 V c 1 t) (scr1 V c (t.val - 1) (by omega)).1 (scr1 V c (t.val - 1) (by omega)).2.1, stepA (iblk1 V c 0 t) (iblk1 V c 1 t) (iblk1 V c 2 t) (scr1 V c (t.val - 1) (by omega)).1 (scr1 V c (t.val - 1) (by omega)).2.2) := by
  obtain ⟨n, hn⟩ := t
  cases n with
  | zero => exact (by exfalso; (try dsimp only at h); exact absurd (Nat.zero_mod _) h)
  | succ n => exact (dif_neg h).trans rfl

/-! ## The region's invariant -/

/-- Before the first point the pipeline's entry invariant (every scoped buffer at anything, the generator register at some
    state); before any later point the untouched scoped buffers at anything, the three scratch memrefs owned at what
    the point before left (`scr1`'s components), and the generator register at some state. -/
def PhiS1 (c : Dev nD) : (n : ℕ) → n ≤ cfg1.N → sProp 𝕄
  | 0, _ => Pipeline.ΦA spec1 c
  | n + 1, hn => iprop((rest1 (F := F) c ∗ owns (c : Thread nD τ) scM1_0 fullShare (scr1 V c n hn).1
      ∗ owns (c : Thread nD τ) scM1_1 fullShare (scr1 V c n hn).2.1 ∗ owns (c : Thread nD τ) scM1_2 fullShare (scr1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((rest1 (F := F) c ∗ owns (c : Thread nD τ) scM1_0 fullShare (scr1 V c n hn).1
      ∗ owns (c : Thread nD τ) scM1_1 fullShare (scr1 V c n hn).2.1 ∗ owns (c : Thread nD τ) scM1_2 fullShare (scr1 V c n hn).2.2) ∗ (∃ r, prngReg c r)) := rfl

theorem PhiS1_pos (c : Dev nD) (n : ℕ) (h : n ≤ cfg1.N) (hz : n ≠ 0) :
    PhiS1 V c n h = iprop((rest1 (F := F) c ∗ owns (c : Thread nD τ) scM1_0 fullShare (scr1 V c (n - 1) (by omega)).1
      ∗ owns (c : Thread nD τ) scM1_1 fullShare (scr1 V c (n - 1) (by omega)).2.1 ∗ owns (c : Thread nD τ) scM1_2 fullShare (scr1 V c (n - 1) (by omega)).2.2) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at the output block of the carried numerator and denominator
    (consulted at the points ≡ 15 (mod 16) only: elsewhere the window is idle); the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outO (scr1 V c t.val t.isLt).2.2 (scr1 V c t.val t.isLt).2.1 (iblk1 V c 3 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outO (scr1 V c t.val t.isLt).2.2 (scr1 V c t.val t.isLt).2.1 (iblk1 V c 3 t) (iblk1 V c 4 t) := by dsimp only [dat1]

/-! ## What the body finds in each input window's buffer: its block, fetched at the point or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- An input window is never idle: the body leaves its buffer at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the closed forms say which case the point is in. At a
    point ≡ 0 (mod 16) the scratch operands, at anything (the first point) or at what the point before left, are reset
    and stepped; elsewhere they are stepped from what the point before left; at a point ≡ 15 (mod 16) the output's
    memref is stored the output block, elsewhere handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 256 := lt_of_lt_of_eq t.isLt (show cfg1.N = 256 from N_1)
  by_cases h0 : t.val % 16 = 0
  · have h1 : ¬ t.val % 16 = 15 := by omega
    rw [Dat.leavesExact_idle (dat1 V c) 5 t (idleAt1_5 t (fun h => h1 ((hcond1_1 t).mp h))) (noFlush1_5 t (fun h => h1 ((hcond1_1 t).mp h)))]
    rw [scr1_first V c t h0]; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA1_in (F := F) c) $$ HΦ
      icases HΦ' with ⟨⟨Hr, HS0, HS1, HS2⟩, Hg⟩
      iapply (kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [Hr HS0 HS1 HS2 Hg]
      · isplitl [Hr HS0 HS1 HS2]
        · isplitl [Hr]; · iexact Hr
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨Hr, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, HS0, HS1, HS2⟩
      isplitl [Hr HS0 HS1 HS2 Hg]
      · isplitl [Hr HS0 HS1 HS2]
        · isplitl [Hr]; · iexact Hr
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [scr1_next V c t h0]; (try dsimp only)
    rw [PhiS1_castSucc V c t, PhiS1_pos V c _ _ hz]
    by_cases h1 : t.val % 16 = 15
    · rw [show (dat1 V c).leavesExact 5 t = owns (c : Thread nD τ) (st1_5 t) fullShare ((dat1 V c).after 5 t) from by
        unfold Dat.leavesExact; rw [liveAt1_5 t ((hcond1_1 t).mpr h1)], after1_5]
      rw [scr1_next V c t h0]; (try dsimp only)
      iintro ⟨⟨⟨Hr, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [Hr HS0 HS1 HS2 Hg]
      · isplitl [Hr HS0 HS1 HS2]
        · isplitl [Hr]; · iexact Hr
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      iintro ⟨⟨⟨Hr, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [Hr HS0 HS1 HS2 Hg]
      · isplitl [Hr HS0 HS1 HS2]
        · isplitl [Hr]; · iexact Hr
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the pipeline's entry invariant back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨⟨Hr, HS0, HS1, HS2⟩, Hg⟩
  iapply (PhiA1_out (F := F) c)
  isplitl [Hr HS0 HS1 HS2]
  · isplitl [Hr]; · iexact Hr
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.Kernel.Hand
end
-- ==== Proof.K.Frame.lean ====
/-
  The run of the whole program: two kernel regions with a short stretch of layout operations before each.

  Between two items of the program a core holds every unscoped buffer at known contents: the launch contents, then
  what each stretch of layout operations computes from them, then — after a region — the region's output arrays at
  what its pipeline wrote back, block by block, and every other buffer unchanged. Each region is entered from such
  contents and left at the next; its staging buffers and, for the second region, the three accumulators it carries
  from one grid point to the next, live inside the region and are forgotten at its exit. Reading the last contents
  against the final memory gives the result array and shows every argument array unchanged.
-/
import proofs.«144252_j90228672955012_2_alg».proof.Proof.Gen.Kernel.Regions
import proofs.«144252_j90228672955012_2_alg».proof.Proof.K.R0
import proofs.«144252_j90228672955012_2_alg».proof.Proof.K.R1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Region 0 is entered from the launch contents after the first host stretch. -/
abbrev E1 : (c : Dev nD) → (b : Ref sig .tc) → Buf (Elt F) ((c : Thread nD τ).loc b) := fun c b => Gen.V1 m c b

/-- Core `c`'s buffers when region 0 returns: its three output arrays at what the pipeline wrote back, every other
    buffer as the region found it. -/
def W2 (c : Dev nD) : Valuation τ sig (Elt F) :=
  Pipeline.withArrays spec0 c (Gen.V1 m c) fun w => (dat0 (E1 m) c).arrAt w cfg0.N

/-- What region 0 leaves, as the unknowns of the generated valuations: constant in the item number. -/
def outs0 : Gen.Outs (F := F) := fun _ r c => W2 m c r

/-- Region 1 is entered from those contents after the second host stretch. -/
abbrev E3 : (c : Dev nD) → (b : Ref sig .tc) → Buf (Elt F) ((c : Thread nD τ).loc b) := fun c b => Gen.V3 m (outs0 m) c b

/-- Core `c`'s buffers when region 1 returns. -/
def W4 (c : Dev nD) : Valuation τ sig (Elt F) :=
  Pipeline.withArrays spec1 c (Gen.V3 m (outs0 m) c) fun w => (dat1 (E3 m) c).arrAt w cfg1.N

/-- What the two regions leave: item 4's unknowns are region 1's, the others region 0's. -/
def outs : Gen.Outs (F := F) := fun j r c => if j = 4 then W4 m c r else W2 m c r

theorem outs_two (r : Ref sig .tc) (c : Dev nD) : outs m 2 r c = outs0 m 2 r c := if_neg (by decide)
theorem V2_outs (c : Dev nD) : Gen.V2 m (outs m) c = Gen.V2 m (outs0 m) c := by
  unfold Gen.V2; simp only [outs_two]
theorem V3_outs (c : Dev nD) : Gen.V3 m (outs m) c = Gen.V3 m (outs0 m) c := by
  unfold Gen.V3; rw [V2_outs]
theorem outs_four (r : Ref sig .tc) (c : Dev nD) : outs m 4 r c = W4 m c r := if_pos rfl

/-! ## The proof data of both pipelines, and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
abbrev L : GSem nD τ sig → Finset Unit := fun _ => ∅
abbrev lv : GSem nD τ sig → Unit → ℕ := fun _ _ => 0
/-- Beside the buffers every segment carries the generator register at some state and the core owing nothing. -/
abbrev R (c : Dev nD) : sProp 𝕄 := iprop((∃ r, prngReg c r) ∗ ∃ W, owes (c : Thread nD τ) (0 : CellTallies nD τ sig Unit) W)

/-! ## Region 0's exit contents are the generated valuation after item 1 -/

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb

theorem V2_v3_0 (c : Dev nD) : Gen.V2 m (outs m) c main_v3_0 = W2 m c main_v3_0 := by
  rw [V2_outs]
  simp only [Gen.V2, Function.update_of_ne (StableHlo.devRef_ne_of_ne (by decide) : (Proc.devRef .tc main_v3_0 : DevRef τ sig) ≠ Proc.devRef .tc main_v3_2),
    Function.update_of_ne (StableHlo.devRef_ne_of_ne (by decide) : (Proc.devRef .tc main_v3_0 : DevRef τ sig) ≠ Proc.devRef .tc main_v3_1), Function.update_self]
  rfl
theorem V2_v3_1 (c : Dev nD) : Gen.V2 m (outs m) c main_v3_1 = W2 m c main_v3_1 := by
  rw [V2_outs]
  simp only [Gen.V2, Function.update_of_ne (StableHlo.devRef_ne_of_ne (by decide) : (Proc.devRef .tc main_v3_1 : DevRef τ sig) ≠ Proc.devRef .tc main_v3_2), Function.update_self]
  rfl
theorem V2_v3_2 (c : Dev nD) : Gen.V2 m (outs m) c main_v3_2 = W2 m c main_v3_2 := by
  rw [V2_outs]
  simp only [Gen.V2, Function.update_self]
  rfl

/-- At region 0's exit each of its arrays holds what the pipeline leaves: an input as entered, an output its write-backs. -/
theorem hF0 (c : Dev nD) (w : Fin cfg0.W) :
    (dat0 (E1 m) c).arrAt w cfg0.N = (fun b : Ref sig .tc => Gen.V2 m (outs m) c b) (Pipeline.arrRef spec0 w) := by
  fin_cases w
  · exact ((dat0 (E1 m) c).arrAt_in 0 rfl _).trans ((A_eq0 (E1 m) c 0).trans (Gen.V2_of m (outs m) c main_arg0 (by decide)).symm)
  · exact ((dat0 (E1 m) c).arrAt_in 1 rfl _).trans ((A_eq0 (E1 m) c 1).trans (Gen.V2_of m (outs m) c main_v1 (by decide)).symm)
  · exact ((dat0 (E1 m) c).arrAt_in 2 rfl _).trans ((A_eq0 (E1 m) c 2).trans (Gen.V2_of m (outs m) c main_v2 (by decide)).symm)
  · exact (W2_arr m c 3).symm.trans (V2_v3_0 m c).symm
  · exact (W2_arr m c 4).symm.trans (V2_v3_1 m c).symm
  · exact (W2_arr m c 5).symm.trans (V2_v3_2 m c).symm
/-- Every other unscoped buffer holds what it held at entry. -/
theorem hrest0 (c : Dev nD) : ∀ b : Ref sig .tc, b ∉ Finset.univ.image (Pipeline.arrRef spec0) →
    (fun b : Ref sig .tc => Gen.V2 m (outs m) c b) b = E1 m c b := fun b hb =>
  Gen.V2_of m (outs m) c b (by
    simp only [List.mem_cons, List.mem_nil_iff, or_false]
    rintro (rfl | rfl | rfl)
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩))

/-! ## Region 1's exit contents are the generated valuation after item 3 -/

theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem V4_v7 (c : Dev nD) : Gen.V4 m (outs m) c main_v7 = (dat1 (E3 m) c).arrAt 5 cfg1.N := by
  simp only [Gen.V4, Function.update_self]
  exact (outs_four m main_v7 c).trans (W4_arr m c 5)
theorem E3_eq (c : Dev nD) (b : Ref sig .tc) : Gen.V3 m (outs m) c b = E3 m c b := by rw [V3_outs]
theorem hF1 (c : Dev nD) (w : Fin cfg1.W) :
    (dat1 (E3 m) c).arrAt w cfg1.N = (fun b : Ref sig .tc => Gen.V4 m (outs m) c b) (Pipeline.arrRef spec1 w) := by
  fin_cases w
  · exact ((dat1 (E3 m) c).arrAt_in 0 rfl _).trans ((A_eq1 (E3 m) c 0).trans ((E3_eq m c main_v3_0).symm.trans (Gen.V4_of m (outs m) c main_v3_0 (by decide)).symm))
  · exact ((dat1 (E3 m) c).arrAt_in 1 rfl _).trans ((A_eq1 (E3 m) c 1).trans ((E3_eq m c main_v3_1).symm.trans (Gen.V4_of m (outs m) c main_v3_1 (by decide)).symm))
  · exact ((dat1 (E3 m) c).arrAt_in 2 rfl _).trans ((A_eq1 (E3 m) c 2).trans ((E3_eq m c main_v3_2).symm.trans (Gen.V4_of m (outs m) c main_v3_2 (by decide)).symm))
  · exact ((dat1 (E3 m) c).arrAt_in 3 rfl _).trans ((A_eq1 (E3 m) c 3).trans ((E3_eq m c main_v5).symm.trans (Gen.V4_of m (outs m) c main_v5 (by decide)).symm))
  · exact ((dat1 (E3 m) c).arrAt_in 4 rfl _).trans ((A_eq1 (E3 m) c 4).trans ((E3_eq m c main_v6).symm.trans (Gen.V4_of m (outs m) c main_v6 (by decide)).symm))
  · exact (V4_v7 m c).symm
theorem hrest1 (c : Dev nD) : ∀ b : Ref sig .tc, b ∉ Finset.univ.image (Pipeline.arrRef spec1) →
    (fun b : Ref sig .tc => Gen.V4 m (outs m) c b) b = E3 m c b := fun b hb =>
  (Gen.V4_of m (outs m) c b (by
    simp only [List.mem_cons, List.mem_nil_iff, or_false]
    rintro rfl
    exact hb (Finset.mem_image.mpr ⟨5, Finset.mem_univ _, rfl⟩))).trans (E3_eq m c b)

/-! ## The regions as segments -/

set_option backward.isDefEq.respectTransparency.types false in
/-- REGION 0 over the thread state: entered from every unscoped buffer at the contents after the first host stretch,
    left at those contents with its three output arrays at what the pipeline wrote back. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the contents after the second host stretch, left with its output
    array at what the pipeline wrote back. Its invariant carries the three scratch buffers between points; at the two
    ends it is the scoped rest and the generator register, like region 0's. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_outs]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (Gen.adm (F := F) 1).1 ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h.trans (hin1 (E3 m) c)
  hout c := by
    rw [Pipeline.ownSems0_none]
    have h : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (E3 m) c).trans h
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (fun b : Ref sig .tc => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run: @main's four segments from the launch to the return -/

abbrev Es : Fin 3 → Dev nD → sProp 𝕄 := fun _ c => R c

-- the launch theorem, applied at this conclusion
set_option backward.isDefEq.respectTransparency.types false in
/-- Every weakly fair execution of @main from memory `m` with zero counters terminates without a fault; the result
    array ends at what region 1's pipeline wrote back, block by block, and every argument array as launched. -/
theorem run : θ_run defs (onTc (τ := τ) (main (F := F))) ⟨m, fun _ => 0, ρ⟩ (fun r => ∀ c : Dev nD,
      r.2.mem ((c.tc : Thread nD τ).loc main_v7) = (dat1 (E3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm (pdats m) () cellOf_inj emb₁ defs₀ 𝒱₀ L lv m ρ main
    (Gen.segs m (outs m) 𝒱₀ L lv (Es (F := F)) () (pdats m) (reg0 m) (reg1 m))
    (fun c Q => by
      rewrite [main_chain c, Pipeline.Seg.run_eq_chain,
        show (Gen.segs m (outs m) 𝒱₀ L lv (Es (F := F)) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v7) = (dat1 (E3 m) c).arrAt 5 cfg1.N
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨(h (Proc.devRef .tc main_v7) (Finset.mem_filter.mpr ⟨StableHlo.devRef_mem_tcRefs main_v7, by decide⟩)).trans (V4_v7 m c),
      (h (Proc.devRef .tc main_arg0) (Finset.mem_filter.mpr ⟨StableHlo.devRef_mem_tcRefs main_arg0, by decide⟩)).trans (Gen.V4_main_arg0 m (outs m) c),
      (h (Proc.devRef .tc main_arg1) (Finset.mem_filter.mpr ⟨StableHlo.devRef_mem_tcRefs main_arg1, by decide⟩)).trans (Gen.V4_main_arg1 m (outs m) c),
      (h (Proc.devRef .tc main_arg2) (Finset.mem_filter.mpr ⟨StableHlo.devRef_mem_tcRefs main_arg2, by decide⟩)).trans (Gen.V4_main_arg2 m (outs m) c),
      (h (Proc.devRef .tc main_arg3) (Finset.mem_filter.mpr ⟨StableHlo.devRef_mem_tcRefs main_arg3, by decide⟩)).trans (Gen.V4_main_arg3 m (outs m) c),
      (h (Proc.devRef .tc main_arg4) (Finset.mem_filter.mpr ⟨StableHlo.devRef_mem_tcRefs main_arg4, by decide⟩)).trans (Gen.V4_main_arg4 m (outs m) c)⟩
  · iexact HSI

/-- The frame claim's post: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.Kernel.Hand

end
-- ==== Proof.KI.R0.lean ====
import proofs.«144252_j90228672955012_2_alg».proof.Proof.Gen.KernelIdeal.Launch
import proofs.«144252_j90228672955012_2_alg».proof.Proof.Gen.KernelIdeal.Skeleton
import proofs.«144252_j90228672955012_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the first pipeline is entered: everything below is stated at it
variable (V : (c : Dev nD) → (b : Ref sig .tc) → Buf (Elt F) ((c : Thread nD τ).loc b))

/-! # The projection kernel (the first pipeline), at the entry contents `V`

The body reads three blocks whole — a 512-row slab of the activations, the whole transposed weight matrix and the
whole bias row —, forms one 512 x 2304 product-plus-bias, and writes its three 768-column thirds, each with ONE store
that fills the whole block of its output window. Each output buffer is also read once before it is written; the value
read is used by nothing. -/

/-! ## The windows' blocks -/

/-- Block `t` of window `w`, read off the window's array as it stands when the pipeline starts. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body finds in the activations' buffer is block `t`, for any proof data over `V`'s array whose body
    leaves that block where it found it. The window moves with both grid axes and is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the weight matrix. Its block index does not depend on the grid point, so it is fetched once, at the
    first point; at every later point the buffer still holds what the body left there, which is the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias row, also fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is of a whole buffer -/

/-- The whole 1 x 512 x 768 block. -/
abbrev rX : Rect S1x512x768 := Rect.unit (s := S1x512x768) ![0, 0, 0] S1x512x768.size inb_S1x512x768_S1x512x768_0_0_0
/-- The whole 768 x 2304 matrix. -/
abbrev rW : Rect S768x2304 := Rect.unit (s := S768x2304) ![0, 0] S768x2304.size inb_S768x2304_S768x2304_0_0
/-- The whole 1 x 2304 row. -/
abbrev rB : Rect S1x2304 := Rect.unit (s := S1x2304) ![0, 0] S1x2304.size inb_S1x2304_S1x2304_0_0

theorem zX : (![0, 0, 0] : Fin S1x512x768.rank → Nat) = fun _ => 0 := funext fun a => by fin_cases a <;> rfl
theorem zW : (![0, 0] : Fin S768x2304.rank → Nat) = fun _ => 0 := funext fun a => by fin_cases a <;> rfl
theorem zB : (![0, 0] : Fin S1x2304.rank → Nat) = fun _ => 0 := funext fun a => by fin_cases a <;> rfl

/-- A read through the whole-buffer rectangle is the buffer. -/
theorem ldX {e : EltTy} (x : S1x512x768.Idx → Elt F e) : View.ld x rX = x := View.ld_unit_zero zX _ x
theorem ldW {e : EltTy} (x : S768x2304.Idx → Elt F e) : View.ld x rW = x := View.ld_unit_zero zW _ x
theorem ldB {e : EltTy} (x : S1x2304.Idx → Elt F e) : View.ld x rB = x := View.ld_unit_zero zB _ x

/-- What a whole-buffer load reads of a buffer is the buffer's contents. -/
theorem rdX {κ : Kind} {sp : Space} {e : EltTy} (v : View sig κ sp S1x512x768 e) (f : v.ty.Contents (Elt F)) :
    v.readAt (Elt F) rX.toLoadRect f = v.read (Elt F) f := (View.readAt_eq_ld v f rX).trans (ldX _)
theorem rdW {κ : Kind} {sp : Space} {e : EltTy} (v : View sig κ sp S768x2304 e) (f : v.ty.Contents (Elt F)) :
    v.readAt (Elt F) rW.toLoadRect f = v.read (Elt F) f := (View.readAt_eq_ld v f rW).trans (ldW _)
theorem rdB {κ : Kind} {sp : Space} {e : EltTy} (v : View sig κ sp S1x2304 e) (f : v.ty.Contents (Elt F)) :
    v.readAt (Elt F) rB.toLoadRect f = v.read (Elt F) f := (View.readAt_eq_ld v f rB).trans (ldB _)

/-- One store through the whole-buffer rectangle covers the buffer, -/
theorem coverX {e : EltTy} (p : S1x512x768.Idx → Elt F e) (y : S1x512x768.Idx) :
    ∃ pc ∈ ([⟨rX, p⟩] : List (View.Piece (Elt F) S1x512x768 e)), y ∈ pc.1.set :=
  ⟨_, List.mem_singleton_self _, View.mem_set_unit_zero zX inb_S1x512x768_S1x512x768_0_0_0 y⟩

/-- and leaves its payload there, whatever the buffer held. -/
theorem storeX {κ : Kind} {sp : Space} {e : EltTy} (v : View sig κ sp S1x512x768 e) (f : v.ty.Contents (Elt F)) (p : S1x512x768.Idx → Elt F e) :
    v.read (Elt F) (v.writes (Elt F) f [⟨rX, p⟩]) = p :=
  (View.read_writes_eq_canon v f _ (coverX p)).trans (View.canon_unit_zero zX _ p)

/-! ## The body's triple -/

set_option maxHeartbeats 1000000 in
/-- The body on six whole buffers, the three inputs' at read contents `x0`, `x1`, `x2` and the three outputs' at
    anything, runs to the continuation with the inputs' as they were and the outputs' at the three thirds of the
    product-plus-bias of `x0`, `x1`, `x2` (the payloads of its three stores, kept folded). -/
theorem sound_kernel0 (c : Dev nD) (E : Set ℕ) (i : grid0.Coords)
    (arg2 : Memref sig .tc .vmem S1x512x768 .f32) (harg2 : arg2.IsWhole)
    (arg3 : Memref sig .tc .vmem S768x2304 .bf16) (harg3 : arg3.IsWhole)
    (arg4 : Memref sig .tc .vmem S1x2304 .f32) (harg4 : arg4.IsWhole)
    (arg5 : Memref sig .tc .vmem S1x512x768 .bf16) (harg5 : arg5.IsWhole)
    (arg6 : Memref sig .tc .vmem S1x512x768 .bf16) (harg6 : arg6.IsWhole)
    (arg7 : Memref sig .tc .vmem S1x512x768 .bf16) (harg7 : arg7.IsWhole)
    (x0 : Vec F S1x512x768 .f32) (x1 : Vec F S768x2304 .bf16) (x2 : Vec F S1x2304 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 x1 x2) ∗ owns (c : Thread nD τ) arg6 fullShare (k0_pay3 x0 x1 x2)
            ∗ owns (c : Thread nD τ) arg7 fullShare (k0_pay4 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (storeX _ _ _).trans (by rw [rdX, rdW, rdB])
  isplitl [H4]
  · iexists _; isplitr
    swap; · iexact H4
    ipureintro
    exact (storeX _ _ _).trans (by rw [rdX, rdW, rdB])
  iexists _; isplitr
  swap; · iexact H5
  ipureintro
  exact (storeX _ _ _).trans (by rw [rdX, rdW, rdB])

/-! ## The pipeline's proof data -/

/-- The proof data of the first pipeline on core `c`. The arrays are `V`'s. After the body at point `t` each input
    buffer still holds its block, and the three output buffers hold the three thirds of the product-plus-bias of the
    three input blocks. The invariant is that of a body touching nothing but its windows' buffers; nothing is owed;
    every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (iblk0 V c 0 t) (iblk0 V c 1 t) (iblk0 V c 2 t)
    | ⟨4, _⟩ => k0_pay3 (iblk0 V c 0 t) (iblk0 V c 1 t) (iblk0 V c 2 t)
    | ⟨5, _⟩ => k0_pay4 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (iblk0 V c 0 t) (iblk0 V c 1 t) (iblk0 V c 2 t) := by dsimp only [dat0]
theorem after0_4 (c : Dev nD) (t : Fin cfg0.N) : (dat0 V c).after 4 t = k0_pay3 (iblk0 V c 0 t) (iblk0 V c 1 t) (iblk0 V c 2 t) := by dsimp only [dat0]
theorem after0_5 (c : Dev nD) (t : Fin cfg0.N) : (dat0 V c).after 5 t = k0_pay4 (iblk0 V c 0 t) (iblk0 V c 1 t) (iblk0 V c 2 t) := by dsimp only [dat0]

/-- Each input buffer holds its block when the body is called, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's dues, and the six current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the three input buffers hold their blocks, so the body's triple applies at those blocks;
    the invariant and the dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
import proofs.«144252_j90228672955012_2_alg».proof.Proof.Gen.KernelIdeal.Launch
import proofs.«144252_j90228672955012_2_alg».proof.Proof.Gen.KernelIdeal.Skeleton
import proofs.«144252_j90228672955012_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
-- the contents of the core's buffers when the region is entered: everything below is stated at them
variable (V : (c : Dev nD) → (b : Ref sig .tc) → Buf (Elt F) ((c : Thread nD τ).loc b))

-- each closed form below is a statement about all 256 points of the grid 4 x 4 x 16
set_option Elab.async false

/-! # REGION 1: the online-softmax step over the grid 4 x 4 x 16, at the entry contents `V`

## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## One point's step on the carried triple (running maximum, running denominator, running numerator) -/

/-- The new running maximum: the old one against the row maxima of the scaled scores of the `q` block against the `k` block. -/
def stepM (q : Vec F S1x512x768 .bf16) (k : Vec F S1x128x768 .bf16) (m0 : Vec F S12x512x1 .f32) : Vec F S12x512x1 .f32 :=
  k1_pay3 (k1_pay10 q k m0)
/-- The new running denominator: the old one rescaled by `exp (m0 - m)`, plus the row sums of `exp (s - m)`. -/
def stepL (q : Vec F S1x512x768 .bf16) (k : Vec F S1x128x768 .bf16) (m0 l0 : Vec F S12x512x1 .f32) : Vec F S12x512x1 .f32 :=
  k1_pay1 (k1_pay13 q k m0 m0 l0) (k1_pay14 q k m0)
/-- The new running numerator: the old one rescaled by `exp (m0 - m)`, plus `exp (s - m)` times the `v` block. -/
def stepA (q : Vec F S1x512x768 .bf16) (k v : Vec F S1x128x768 .bf16) (m0 : Vec F S12x512x1 .f32) (a0 : Vec F S12x512x64 .f32) : Vec F S12x512x64 .f32 :=
  k1_pay2 (k1_pay8 v) (k1_pay11 q k m0 m0) (k1_pay12 q k m0) a0
/-- The output block: numerator over denominator, heads merged, projected and biased. -/
def outO (a : Vec F S12x512x64 .f32) (l : Vec F S12x512x1 .f32) (pw : Vec F S768x768 .bf16) (pb : Vec F S1x768 .f32) : Vec F S1x512x768 .f32 :=
  k1_pay4 a l pw pb

/-! ## The body's two branch conditions, in closed form over the grid -/

/-- The first conditional's condition (grid coordinate 2 is zero: the carried triple is reset), from the coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The second conditional's condition (grid coordinate 2 is fifteen: the output block is stored). -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The five input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the points ≡ 15 (mod 16) the output window is idle: the body stores nothing into it, -/
theorem idleAt1_5 : ∀ t : Fin cfg1.N, ¬cond1_1 (grid1.coords t) → cfg1.idle 5 (grid1.coords t) = true := by decide +kernel
/-- and its block is not written back there. -/
theorem noFlush1_5 : ∀ t : Fin cfg1.N, ¬cond1_1 (grid1.coords t) → (cfg1.win 5).flush t = false := by decide +kernel
/-- At the points ≡ 15 (mod 16) it is live. -/
theorem liveAt1_5 : ∀ t : Fin cfg1.N, cond1_1 (grid1.coords t) → cfg1.idle 5 (grid1.coords t) = false := by decide +kernel

/-! ## The scratch operands and the region's invariant -/

/-- The three scratch operands: whole scoped buffers of the kernel's own, passed beside the windows. -/
abbrev scM1_0 : Memref sig .tc .vmem S12x512x1 .f32 := Memref.whole cc1_scratch0
abbrev scM1_1 : Memref sig .tc .vmem S12x512x1 .f32 := Memref.whole cc1_scratch1
abbrev scM1_2 : Memref sig .tc .vmem S12x512x64 .f32 := Memref.whole cc1_scratch2

/-- The ten scoped buffers the body never touches, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The pipeline's entry invariant hands over the untouched scoped buffers, the three scratch operands as memrefs owned at
    some contents, and the generator register at some state; -/
theorem PhiA1_in (c : Dev nD) :
    (Pipeline.ΦA spec1 c : sProp 𝕄)
      ⊢ iprop((rest1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA; rw [scopedRest1_eq]; unfold rest1
  simp only [scM1_0, scM1_1, scM1_2, owns_whole]
  iintro ⟨⟨H0, H1, H2, H3, H4, H5, H6, H7, H8, H9, HS0, HS1, HS2⟩, Hg⟩
  isplitl [H0 H1 H2 H3 H4 H5 H6 H7 H8 H9 HS0 HS1 HS2]
  · isplitl [H0 H1 H2 H3 H4 H5 H6 H7 H8 H9]
    ·
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS0]; · iexact HS0
    isplitl [HS1]; · iexact HS1
    iexact HS2
  iexact Hg

/-- and takes them back. -/
theorem PhiA1_out (c : Dev nD) :
    iprop((rest1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r))
      ⊢ (Pipeline.ΦA spec1 c : sProp 𝕄) := by
  unfold Pipeline.ΦA; rw [scopedRest1_eq]; unfold rest1
  simp only [scM1_0, scM1_1, scM1_2, owns_whole]
  iintro ⟨⟨⟨H0, H1, H2, H3, H4, H5, H6, H7, H8, H9⟩, HS0, HS1, HS2⟩, Hg⟩
  isplitl [H0 H1 H2 H3 H4 H5 H6 H7 H8 H9 HS0 HS1 HS2]
  ·
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iexact HS2
  iexact Hg

/-! ## Whole loads and whole stores -/

theorem hz3 : (![0, 0, 0] : Fin 3 → Nat) = fun _ => 0 := funext fun a => by fin_cases a <;> rfl
theorem hz2 : (![0, 0] : Fin 2 → Nat) = fun _ => 0 := funext fun a => by fin_cases a <;> rfl

/-- A buffer whose LAST store covered it whole reads that store's payload, whatever it held and whatever was stored before. -/
theorem read_writes_whole {κ : Kind} {sp : Space} {s : Shape} {e : EltTy} (v : View sig κ sp s e) (f : v.ty.Contents (Elt F))
    {off : Fin s.rank → Nat} (hz : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w :=
  (View.read_writes_eq_canon v f _ (fun y => ⟨_, List.mem_cons_self, View.mem_set_unit_zero hz inb y⟩)).trans
    (View.canon_cons_unit_zero hz inb w L)

end Cert.KernelIdeal.Hand
end
-- ==== Proof.KI.R1Run.lean ====
import proofs.«144252_j90228672955012_2_alg».proof.Proof.KI.R1Runs
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

/-! # The body's triple, case by case

On whole memrefs — the five inputs' at their contents, the output's, the three scratch operands' — the body runs to the
continuation holding the inputs' as they were and the scratch operands' at one step of the carried triple from what
they held (from the reset values at a first point); the output's is handed back untouched away from the last points and
holds the output block of the NEW numerator and denominator at a last point. Every load and every store is of a whole
buffer, so a load after a store reads the stored payload. -/

set_option maxHeartbeats 1000000 in
/-- FIRST points (coordinate 2 is zero, not fifteen): the scratch operands, at anything, are reset and stepped once. -/
theorem kernelRun1_A (c : Dev nD) (i : grid1.Coords) (arg3 : Memref sig .tc .vmem S1x512x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x512x768 .f32) (harg8 : arg8.IsWhole) (arg9 : Memref sig .tc .vmem S12x512x1 .f32) (harg9 : arg9.IsWhole) (arg10 : Memref sig .tc .vmem S12x512x1 .f32) (harg10 : arg10.IsWhole) (arg11 : Memref sig .tc .vmem S12x512x64 .f32) (harg11 : arg11.IsWhole) (hc0 : cond1_0 i) (hc1 : ¬cond1_1 i)
    (x0 : Vec F S1x512x768 .bf16) (x1 x2 : Vec F S1x128x768 .bf16) (x3 : Vec F S768x768 .bf16) (x4 : Vec F S1x768 .f32) (xi5 : Vec F S1x512x768 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xi5
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xi5
            ∗ owns (c : Thread nD τ) arg9 fullShare (stepM x0 x1 k1_pay5) ∗ owns (c : Thread nD τ) arg10 fullShare (stepL x0 x1 k1_pay5 k1_pay6)
            ∗ owns (c : Thread nD τ) arg11 fullShare (stepA x0 x1 x2 k1_pay5 k1_pay7)) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton, k1_part1_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [HS0]
  · iexists _; isplitr
    swap; · iexact HS0
    ipureintro
    refine (read_writes_whole _ _ hz3 _ _ _).trans ?_
    sl_unfold_run_names
    unfold stepM
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  isplitl [HS1]
  · iexists _; isplitr
    swap; · iexact HS1
    ipureintro
    refine (read_writes_whole _ _ hz3 _ _ _).trans ?_
    sl_unfold_run_names
    unfold stepL
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  iexists _; isplitr
  swap; · iexact HS2
  ipureintro
  refine (read_writes_whole _ _ hz3 _ _ _).trans ?_
  sl_unfold_run_names
  unfold stepA
  simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]

set_option maxHeartbeats 1000000 in
/-- MIDDLE points (coordinate 2 neither zero nor fifteen): the scratch operands are stepped from what they held. -/
theorem kernelRun1_B (c : Dev nD) (i : grid1.Coords) (arg3 : Memref sig .tc .vmem S1x512x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x512x768 .f32) (harg8 : arg8.IsWhole) (arg9 : Memref sig .tc .vmem S12x512x1 .f32) (harg9 : arg9.IsWhole) (arg10 : Memref sig .tc .vmem S12x512x1 .f32) (harg10 : arg10.IsWhole) (arg11 : Memref sig .tc .vmem S12x512x64 .f32) (harg11 : arg11.IsWhole) (hc0 : ¬cond1_0 i) (hc1 : ¬cond1_1 i)
    (x0 : Vec F S1x512x768 .bf16) (x1 x2 : Vec F S1x128x768 .bf16) (x3 : Vec F S768x768 .bf16) (x4 : Vec F S1x768 .f32) (m0 l0 : Vec F S12x512x1 .f32) (a0 : Vec F S12x512x64 .f32) (xi5 : Vec F S1x512x768 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xi5
        ∗ owns (c : Thread nD τ) arg9 fullShare m0 ∗ owns (c : Thread nD τ) arg10 fullShare l0 ∗ owns (c : Thread nD τ) arg11 fullShare a0
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare xi5
            ∗ owns (c : Thread nD τ) arg9 fullShare (stepM x0 x1 m0) ∗ owns (c : Thread nD τ) arg10 fullShare (stepL x0 x1 m0 l0)
            ∗ owns (c : Thread nD τ) arg11 fullShare (stepA x0 x1 x2 m0 a0)) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton, k1_part1_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [HS0]
  · iexists _; isplitr
    swap; · iexact HS0
    ipureintro
    refine (read_writes_whole _ _ hz3 _ _ _).trans ?_
    sl_unfold_run_names
    unfold stepM
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  isplitl [HS1]
  · iexists _; isplitr
    swap; · iexact HS1
    ipureintro
    refine (read_writes_whole _ _ hz3 _ _ _).trans ?_
    sl_unfold_run_names
    unfold stepL
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  iexists _; isplitr
  swap; · iexact HS2
  ipureintro
  refine (read_writes_whole _ _ hz3 _ _ _).trans ?_
  sl_unfold_run_names
  unfold stepA
  simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]

set_option maxHeartbeats 1000000 in
/-- LAST points (coordinate 2 is fifteen, not zero): the scratch operands are stepped from what they held, and the
    output's memref, at anything, is stored the output block of the new numerator and denominator. -/
theorem kernelRun1_C (c : Dev nD) (i : grid1.Coords) (arg3 : Memref sig .tc .vmem S1x512x768 .bf16) (harg3 : arg3.IsWhole) (arg4 : Memref sig .tc .vmem S1x128x768 .bf16) (harg4 : arg4.IsWhole) (arg5 : Memref sig .tc .vmem S1x128x768 .bf16) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x512x768 .f32) (harg8 : arg8.IsWhole) (arg9 : Memref sig .tc .vmem S12x512x1 .f32) (harg9 : arg9.IsWhole) (arg10 : Memref sig .tc .vmem S12x512x1 .f32) (harg10 : arg10.IsWhole) (arg11 : Memref sig .tc .vmem S12x512x64 .f32) (harg11 : arg11.IsWhole) (hc0 : ¬cond1_0 i) (hc1 : cond1_1 i)
    (x0 : Vec F S1x512x768 .bf16) (x1 x2 : Vec F S1x128x768 .bf16) (x3 : Vec F S768x768 .bf16) (x4 : Vec F S1x768 .f32) (m0 l0 : Vec F S12x512x1 .f32) (a0 : Vec F S12x512x64 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare m0 ∗ owns (c : Thread nD τ) arg10 fullShare l0 ∗ owns (c : Thread nD τ) arg11 fullShare a0
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare (outO (stepA x0 x1 x2 m0 a0) (stepL x0 x1 m0 l0) x3 x4)
            ∗ owns (c : Thread nD τ) arg9 fullShare (stepM x0 x1 m0) ∗ owns (c : Thread nD τ) arg10 fullShare (stepL x0 x1 m0 l0)
            ∗ owns (c : Thread nD τ) arg11 fullShare (stepA x0 x1 x2 m0 a0)) -∗ K ⟨⟩))
      ⊢ wp frame (wpE (defs₀ (F := F)) Variants.none c none) E (cc1__flash_kernel i arg3 harg3 arg4 harg4 arg5 harg5 arg6 harg6 arg7 harg7 arg8 harg8 arg9 harg9 arg10 harg10 arg11 harg11) K := by
  simp only [cc1__flash_kernel_eq_skeleton, k1_part1_eq_skeleton]; unfold cc1__flash_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hf3; obtain rfl := harg7.eq_unread hf4
  obtain rfl := harg9.eq_unread hfs0; obtain rfl := harg10.eq_unread hfs1; obtain rfl := harg11.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    refine (read_writes_whole _ _ hz3 _ _ _).trans ?_
    sl_unfold_run_names
    unfold outO stepA stepL
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  isplitl [HS0]
  · iexists _; isplitr
    swap; · iexact HS0
    ipureintro
    refine (read_writes_whole _ _ hz3 _ _ _).trans ?_
    sl_unfold_run_names
    unfold stepM
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  isplitl [HS1]
  · iexists _; isplitr
    swap; · iexact HS1
    ipureintro
    refine (read_writes_whole _ _ hz3 _ _ _).trans ?_
    sl_unfold_run_names
    unfold stepL
    simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]
  iexists _; isplitr
  swap; · iexact HS2
  ipureintro
  refine (read_writes_whole _ _ hz3 _ _ _).trans ?_
  sl_unfold_run_names
  unfold stepA
  simp only [View.readAt_eq_ld, harg3.read_unread, harg4.read_unread, harg5.read_unread, harg6.read_unread, harg7.read_unread,
      harg9.read_unread, harg10.read_unread, harg11.read_unread, View.readCov_cons_toLoadRect,
      View.ld_unit_zero (S := S1x512x768) hz3, View.ld_unit_zero (S := S1x128x768) hz3, View.ld_unit_zero (S := S12x512x1) hz3,
      View.ld_unit_zero (S := S12x512x64) hz3, View.ld_unit_zero (S := S768x768) hz2, View.ld_unit_zero (S := S1x768) hz2]

end Cert.KernelIdeal.Hand
end
-- ==== Proof.KI.R1.lean ====
import proofs.«144252_j90228672955012_2_alg».proof.Proof.KI.R1Run
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
-- the contents of the core's buffers when the region is entered: everything below is stated at them
variable (V : (c : Dev nD) → (b : Ref sig .tc) → Buf (Elt F) ((c : Thread nD τ).loc b))

/-! # REGION 1: the carried triple point by point, the proof data, the body obligation -/

/-! ## What the three scratch buffers hold after each point -/

/-- (m, l, acc) in the three scratch buffers after the body at position `n`. At a point with `n % 16 = 0` the body first
    resets them to `k1_pay5`, `k1_pay6`, `k1_pay7` and steps from those; at any other point it steps from what position
    `n - 1` left. -/
def scr1 (c : Dev nD) : (n : ℕ) → n < cfg1.N → Vec F S12x512x1 .f32 × Vec F S12x512x1 .f32 × Vec F S12x512x64 .f32
  | 0, hn => (stepM (iblk1 V c 0 ⟨0, hn⟩) (iblk1 V c 1 ⟨0, hn⟩) k1_pay5, stepL (iblk1 V c 0 ⟨0, hn⟩) (iblk1 V c 1 ⟨0, hn⟩) k1_pay5 k1_pay6, stepA (iblk1 V c 0 ⟨0, hn⟩) (iblk1 V c 1 ⟨0, hn⟩) (iblk1 V c 2 ⟨0, hn⟩) k1_pay5 k1_pay7)
  | n + 1, hn =>
    if h0 : (n + 1) % 16 = 0 then
      (stepM (iblk1 V c 0 ⟨n + 1, hn⟩) (iblk1 V c 1 ⟨n + 1, hn⟩) k1_pay5, stepL (iblk1 V c 0 ⟨n + 1, hn⟩) (iblk1 V c 1 ⟨n + 1, hn⟩) k1_pay5 k1_pay6, stepA (iblk1 V c 0 ⟨n + 1, hn⟩) (iblk1 V c 1 ⟨n + 1, hn⟩) (iblk1 V c 2 ⟨n + 1, hn⟩) k1_pay5 k1_pay7)
    else
      (stepM (iblk1 V c 0 ⟨n + 1, hn⟩) (iblk1 V c 1 ⟨n + 1, hn⟩) (scr1 c n (Nat.lt_of_succ_lt hn)).1, stepL (iblk1 V c 0 ⟨n + 1, hn⟩) (iblk1 V c 1 ⟨n + 1, hn⟩) (scr1 c n (Nat.lt_of_succ_lt hn)).1 (scr1 c n (Nat.lt_of_succ_lt hn)).2.1, stepA (iblk1 V c 0 ⟨n + 1, hn⟩) (iblk1 V c 1 ⟨n + 1, hn⟩) (iblk1 V c 2 ⟨n + 1, hn⟩) (scr1 c n (Nat.lt_of_succ_lt hn)).1 (scr1 c n (Nat.lt_of_succ_lt hn)).2.2)

theorem scr1_first (c : Dev nD) (t : Fin cfg1.N) (h : t.val % 16 = 0) : scr1 V c t.val t.isLt =
    (stepM (iblk1 V c 0 t) (iblk1 V c 1 t) k1_pay5, stepL (iblk1 V c 0 t) (iblk1 V c 1 t) k1_pay5 k1_pay6, stepA (iblk1 V c 0 t) (iblk1 V c 1 t) (iblk1 V c 2 t) k1_pay5 k1_pay7) := by
  obtain ⟨n, hn⟩ := t
  cases n with
  | zero => exact rfl
  | succ n => exact (dif_pos h).trans rfl

theorem scr1_next (c : Dev nD) (t : Fin cfg1.N) (h : ¬ t.val % 16 = 0) : scr1 V c t.val t.isLt =
    (stepM (iblk1 V c 0 t) (iblk1 V c 1 t) (scr1 V c (t.val - 1) (by omega)).1, stepL (iblk1 V c 0 t) (iblk1 V c 1 t) (scr1 V c (t.val - 1) (by omega)).1 (scr1 V c (t.val - 1) (by omega)).2.1, stepA (iblk1 V c 0 t) (iblk1 V c 1 t) (iblk1 V c 2 t) (scr1 V c (t.val - 1) (by omega)).1 (scr1 V c (t.val - 1) (by omega)).2.2) := by
  obtain ⟨n, hn⟩ := t
  cases n with
  | zero => exact (by exfalso; (try dsimp only at h); exact absurd (Nat.zero_mod _) h)
  | succ n => exact (dif_neg h).trans rfl

/-! ## The region's invariant -/

/-- Before the first point the pipeline's entry invariant (every scoped buffer at anything, the generator register at some
    state); before any later point the untouched scoped buffers at anything, the three scratch memrefs owned at what
    the point before left (`scr1`'s components), and the generator register at some state. -/
def PhiS1 (c : Dev nD) : (n : ℕ) → n ≤ cfg1.N → sProp 𝕄
  | 0, _ => Pipeline.ΦA spec1 c
  | n + 1, hn => iprop((rest1 (F := F) c ∗ owns (c : Thread nD τ) scM1_0 fullShare (scr1 V c n hn).1
      ∗ owns (c : Thread nD τ) scM1_1 fullShare (scr1 V c n hn).2.1 ∗ owns (c : Thread nD τ) scM1_2 fullShare (scr1 V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((rest1 (F := F) c ∗ owns (c : Thread nD τ) scM1_0 fullShare (scr1 V c n hn).1
      ∗ owns (c : Thread nD τ) scM1_1 fullShare (scr1 V c n hn).2.1 ∗ owns (c : Thread nD τ) scM1_2 fullShare (scr1 V c n hn).2.2) ∗ (∃ r, prngReg c r)) := rfl

theorem PhiS1_pos (c : Dev nD) (n : ℕ) (h : n ≤ cfg1.N) (hz : n ≠ 0) :
    PhiS1 V c n h = iprop((rest1 (F := F) c ∗ owns (c : Thread nD τ) scM1_0 fullShare (scr1 V c (n - 1) (by omega)).1
      ∗ owns (c : Thread nD τ) scM1_1 fullShare (scr1 V c (n - 1) (by omega)).2.1 ∗ owns (c : Thread nD τ) scM1_2 fullShare (scr1 V c (n - 1) (by omega)).2.2) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at the output block of the carried numerator and denominator
    (consulted at the points ≡ 15 (mod 16) only: elsewhere the window is idle); the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outO (scr1 V c t.val t.isLt).2.2 (scr1 V c t.val t.isLt).2.1 (iblk1 V c 3 t) (iblk1 V c 4 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outO (scr1 V c t.val t.isLt).2.2 (scr1 V c t.val t.isLt).2.1 (iblk1 V c 3 t) (iblk1 V c 4 t) := by dsimp only [dat1]

/-! ## What the body finds in each input window's buffer: its block, fetched at the point or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- An input window is never idle: the body leaves its buffer at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the closed forms say which case the point is in. At a
    point ≡ 0 (mod 16) the scratch operands, at anything (the first point) or at what the point before left, are reset
    and stepped; elsewhere they are stepped from what the point before left; at a point ≡ 15 (mod 16) the output's
    memref is stored the output block, elsewhere handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 256 := lt_of_lt_of_eq t.isLt (show cfg1.N = 256 from N_1)
  by_cases h0 : t.val % 16 = 0
  · have h1 : ¬ t.val % 16 = 15 := by omega
    rw [Dat.leavesExact_idle (dat1 V c) 5 t (idleAt1_5 t (fun h => h1 ((hcond1_1 t).mp h))) (noFlush1_5 t (fun h => h1 ((hcond1_1 t).mp h)))]
    rw [scr1_first V c t h0]; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA1_in (F := F) c) $$ HΦ
      icases HΦ' with ⟨⟨Hr, HS0, HS1, HS2⟩, Hg⟩
      iapply (kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [Hr HS0 HS1 HS2 Hg]
      · isplitl [Hr HS0 HS1 HS2]
        · isplitl [Hr]; · iexact Hr
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨Hr, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, HS0, HS1, HS2⟩
      isplitl [Hr HS0 HS1 HS2 Hg]
      · isplitl [Hr HS0 HS1 HS2]
        · isplitl [Hr]; · iexact Hr
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [scr1_next V c t h0]; (try dsimp only)
    rw [PhiS1_castSucc V c t, PhiS1_pos V c _ _ hz]
    by_cases h1 : t.val % 16 = 15
    · rw [show (dat1 V c).leavesExact 5 t = owns (c : Thread nD τ) (st1_5 t) fullShare ((dat1 V c).after 5 t) from by
        unfold Dat.leavesExact; rw [liveAt1_5 t ((hcond1_1 t).mpr h1)], after1_5]
      rw [scr1_next V c t h0]; (try dsimp only)
      iintro ⟨⟨⟨Hr, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [Hr HS0 HS1 HS2 Hg]
      · isplitl [Hr HS0 HS1 HS2]
        · isplitl [Hr]; · iexact Hr
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      iintro ⟨⟨⟨Hr, HS0, HS1, HS2⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [Hr HS0 HS1 HS2 Hg]
      · isplitl [Hr HS0 HS1 HS2]
        · isplitl [Hr]; · iexact Hr
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the pipeline's entry invariant back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨⟨Hr, HS0, HS1, HS2⟩, Hg⟩
  iapply (PhiA1_out (F := F) c)
  isplitl [Hr HS0 HS1 HS2]
  · isplitl [Hr]; · iexact Hr
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Hand
end
-- ==== Proof.KI.Frame.lean ====
/-
  The run of the whole program: two kernel regions with a short stretch of layout operations before each.

  Between two items of the program a core holds every unscoped buffer at known contents: the launch contents, then
  what each stretch of layout operations computes from them, then — after a region — the region's output arrays at
  what its pipeline wrote back, block by block, and every other buffer unchanged. Each region is entered from such
  contents and left at the next; its staging buffers and, for the second region, the three accumulators it carries
  from one grid point to the next, live inside the region and are forgotten at its exit. Reading the last contents
  against the final memory gives the result array and shows every argument array unchanged.
-/
import proofs.«144252_j90228672955012_2_alg».proof.Proof.Gen.KernelIdeal.Regions
import proofs.«144252_j90228672955012_2_alg».proof.Proof.KI.R0
import proofs.«144252_j90228672955012_2_alg».proof.Proof.KI.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- Region 0 is entered from the launch contents after the first host stretch. -/
abbrev E1 : (c : Dev nD) → (b : Ref sig .tc) → Buf (Elt F) ((c : Thread nD τ).loc b) := fun c b => Gen.V1 m c b

/-- Core `c`'s buffers when region 0 returns: its three output arrays at what the pipeline wrote back, every other
    buffer as the region found it. -/
def W2 (c : Dev nD) : Valuation τ sig (Elt F) :=
  Pipeline.withArrays spec0 c (Gen.V1 m c) fun w => (dat0 (E1 m) c).arrAt w cfg0.N

/-- What region 0 leaves, as the unknowns of the generated valuations: constant in the item number. -/
def outs0 : Gen.Outs (F := F) := fun _ r c => W2 m c r

/-- Region 1 is entered from those contents after the second host stretch. -/
abbrev E3 : (c : Dev nD) → (b : Ref sig .tc) → Buf (Elt F) ((c : Thread nD τ).loc b) := fun c b => Gen.V3 m (outs0 m) c b

/-- Core `c`'s buffers when region 1 returns. -/
def W4 (c : Dev nD) : Valuation τ sig (Elt F) :=
  Pipeline.withArrays spec1 c (Gen.V3 m (outs0 m) c) fun w => (dat1 (E3 m) c).arrAt w cfg1.N

/-- What the two regions leave: item 4's unknowns are region 1's, the others region 0's. -/
def outs : Gen.Outs (F := F) := fun j r c => if j = 4 then W4 m c r else W2 m c r

theorem outs_two (r : Ref sig .tc) (c : Dev nD) : outs m 2 r c = outs0 m 2 r c := if_neg (by decide)
theorem V2_outs (c : Dev nD) : Gen.V2 m (outs m) c = Gen.V2 m (outs0 m) c := by
  unfold Gen.V2; simp only [outs_two]
theorem V3_outs (c : Dev nD) : Gen.V3 m (outs m) c = Gen.V3 m (outs0 m) c := by
  unfold Gen.V3; rw [V2_outs]
theorem outs_four (r : Ref sig .tc) (c : Dev nD) : outs m 4 r c = W4 m c r := if_pos rfl

/-! ## The proof data of both pipelines, and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
abbrev L : GSem nD τ sig → Finset Unit := fun _ => ∅
abbrev lv : GSem nD τ sig → Unit → ℕ := fun _ _ => 0
/-- Beside the buffers every segment carries the generator register at some state and the core owing nothing. -/
abbrev R (c : Dev nD) : sProp 𝕄 := iprop((∃ r, prngReg c r) ∗ ∃ W, owes (c : Thread nD τ) (0 : CellTallies nD τ sig Unit) W)

/-! ## Region 0's exit contents are the generated valuation after item 1 -/

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = Gen.V1 m c (Proc.devRef .tc b) := by
  unfold W2; exact Pipeline.withArrays_of_ne spec0 c _ _ b hb

theorem V2_v3_0 (c : Dev nD) : Gen.V2 m (outs m) c main_v3_0 = W2 m c main_v3_0 := by
  rw [V2_outs]
  simp only [Gen.V2, Function.update_of_ne (StableHlo.devRef_ne_of_ne (by decide) : (Proc.devRef .tc main_v3_0 : DevRef τ sig) ≠ Proc.devRef .tc main_v3_2),
    Function.update_of_ne (StableHlo.devRef_ne_of_ne (by decide) : (Proc.devRef .tc main_v3_0 : DevRef τ sig) ≠ Proc.devRef .tc main_v3_1), Function.update_self]
  rfl
theorem V2_v3_1 (c : Dev nD) : Gen.V2 m (outs m) c main_v3_1 = W2 m c main_v3_1 := by
  rw [V2_outs]
  simp only [Gen.V2, Function.update_of_ne (StableHlo.devRef_ne_of_ne (by decide) : (Proc.devRef .tc main_v3_1 : DevRef τ sig) ≠ Proc.devRef .tc main_v3_2), Function.update_self]
  rfl
theorem V2_v3_2 (c : Dev nD) : Gen.V2 m (outs m) c main_v3_2 = W2 m c main_v3_2 := by
  rw [V2_outs]
  simp only [Gen.V2, Function.update_self]
  rfl

/-- At region 0's exit each of its arrays holds what the pipeline leaves: an input as entered, an output its write-backs. -/
theorem hF0 (c : Dev nD) (w : Fin cfg0.W) :
    (dat0 (E1 m) c).arrAt w cfg0.N = (fun b : Ref sig .tc => Gen.V2 m (outs m) c b) (Pipeline.arrRef spec0 w) := by
  fin_cases w
  · exact ((dat0 (E1 m) c).arrAt_in 0 rfl _).trans ((A_eq0 (E1 m) c 0).trans (Gen.V2_of m (outs m) c main_arg0 (by decide)).symm)
  · exact ((dat0 (E1 m) c).arrAt_in 1 rfl _).trans ((A_eq0 (E1 m) c 1).trans (Gen.V2_of m (outs m) c main_v1 (by decide)).symm)
  · exact ((dat0 (E1 m) c).arrAt_in 2 rfl _).trans ((A_eq0 (E1 m) c 2).trans (Gen.V2_of m (outs m) c main_v2 (by decide)).symm)
  · exact (W2_arr m c 3).symm.trans (V2_v3_0 m c).symm
  · exact (W2_arr m c 4).symm.trans (V2_v3_1 m c).symm
  · exact (W2_arr m c 5).symm.trans (V2_v3_2 m c).symm
/-- Every other unscoped buffer holds what it held at entry. -/
theorem hrest0 (c : Dev nD) : ∀ b : Ref sig .tc, b ∉ Finset.univ.image (Pipeline.arrRef spec0) →
    (fun b : Ref sig .tc => Gen.V2 m (outs m) c b) b = E1 m c b := fun b hb =>
  Gen.V2_of m (outs m) c b (by
    simp only [List.mem_cons, List.mem_nil_iff, or_false]
    rintro (rfl | rfl | rfl)
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩))

/-! ## Region 1's exit contents are the generated valuation after item 3 -/

theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem V4_v7 (c : Dev nD) : Gen.V4 m (outs m) c main_v7 = (dat1 (E3 m) c).arrAt 5 cfg1.N := by
  simp only [Gen.V4, Function.update_self]
  exact (outs_four m main_v7 c).trans (W4_arr m c 5)
theorem E3_eq (c : Dev nD) (b : Ref sig .tc) : Gen.V3 m (outs m) c b = E3 m c b := by rw [V3_outs]
theorem hF1 (c : Dev nD) (w : Fin cfg1.W) :
    (dat1 (E3 m) c).arrAt w cfg1.N = (fun b : Ref sig .tc => Gen.V4 m (outs m) c b) (Pipeline.arrRef spec1 w) := by
  fin_cases w
  · exact ((dat1 (E3 m) c).arrAt_in 0 rfl _).trans ((A_eq1 (E3 m) c 0).trans ((E3_eq m c main_v3_0).symm.trans (Gen.V4_of m (outs m) c main_v3_0 (by decide)).symm))
  · exact ((dat1 (E3 m) c).arrAt_in 1 rfl _).trans ((A_eq1 (E3 m) c 1).trans ((E3_eq m c main_v3_1).symm.trans (Gen.V4_of m (outs m) c main_v3_1 (by decide)).symm))
  · exact ((dat1 (E3 m) c).arrAt_in 2 rfl _).trans ((A_eq1 (E3 m) c 2).trans ((E3_eq m c main_v3_2).symm.trans (Gen.V4_of m (outs m) c main_v3_2 (by decide)).symm))
  · exact ((dat1 (E3 m) c).arrAt_in 3 rfl _).trans ((A_eq1 (E3 m) c 3).trans ((E3_eq m c main_v5).symm.trans (Gen.V4_of m (outs m) c main_v5 (by decide)).symm))
  · exact ((dat1 (E3 m) c).arrAt_in 4 rfl _).trans ((A_eq1 (E3 m) c 4).trans ((E3_eq m c main_v6).symm.trans (Gen.V4_of m (outs m) c main_v6 (by decide)).symm))
  · exact (V4_v7 m c).symm
theorem hrest1 (c : Dev nD) : ∀ b : Ref sig .tc, b ∉ Finset.univ.image (Pipeline.arrRef spec1) →
    (fun b : Ref sig .tc => Gen.V4 m (outs m) c b) b = E3 m c b := fun b hb =>
  (Gen.V4_of m (outs m) c b (by
    simp only [List.mem_cons, List.mem_nil_iff, or_false]
    rintro rfl
    exact hb (Finset.mem_image.mpr ⟨5, Finset.mem_univ _, rfl⟩))).trans (E3_eq m c b)

/-! ## The regions as segments -/

set_option backward.isDefEq.respectTransparency.types false in
/-- REGION 0 over the thread state: entered from every unscoped buffer at the contents after the first host stretch,
    left at those contents with its three output arrays at what the pipeline wrote back. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b : Ref sig .tc => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the contents after the second host stretch, left with its output
    array at what the pipeline wrote back. Its invariant carries the three scratch buffers between points; at the two
    ends it is the scoped rest and the generator register, like region 0's. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_outs]
    have hsplit := Pipeline.arrays_of_unscopedBufs (p := 1) (pcfgs (F := F)) Gen.adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (Gen.adm (F := F) 1).1 ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h.trans (hin1 (E3 m) c)
  hout c := by
    rw [Pipeline.ownSems0_none]
    have h : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (E3 m) c).trans h
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E3 m c) (fun b : Ref sig .tc => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run: @main's four segments from the launch to the return -/

abbrev Es : Fin 3 → Dev nD → sProp 𝕄 := fun _ c => R c

-- the launch theorem, applied at this conclusion
set_option backward.isDefEq.respectTransparency.types false in
/-- Every weakly fair execution of @main from memory `m` with zero counters terminates without a fault; the result
    array ends at what region 1's pipeline wrote back, block by block, and every argument array as launched. -/
theorem run : θ_run defs (onTc (τ := τ) (main (F := F))) ⟨m, fun _ => 0, ρ⟩ (fun r => ∀ c : Dev nD,
      r.2.mem ((c.tc : Thread nD τ).loc main_v7) = (dat1 (E3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm (pdats m) () cellOf_inj emb₁ defs₀ 𝒱₀ L lv m ρ main
    (Gen.segs m (outs m) 𝒱₀ L lv (Es (F := F)) () (pdats m) (reg0 m) (reg1 m))
    (fun c Q => by
      rewrite [main_chain c, Pipeline.Seg.run_eq_chain,
        show (Gen.segs m (outs m) 𝒱₀ L lv (Es (F := F)) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V4 m (outs m) c))
    (hch := fun c => ⟨.rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v7) = (dat1 (E3 m) c).arrAt 5 cfg1.N
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  unfold StableHlo.held
  iintro ⟨Hh, HSI⟩
  ihave Hr := (pointsTo_read_all (Pipeline.ucRefs τ sig) (fun b => ((c : Thread nD τ).1, b)) (Gen.V4 m (outs m) c) s') $$ [Hh HSI]
  · isplitl [Hh] <;> iassumption
  icases Hr with ⟨%h, HSI⟩
  imodintro
  isplitr
  · ipureintro
    exact ⟨(h (Proc.devRef .tc main_v7) (Finset.mem_filter.mpr ⟨StableHlo.devRef_mem_tcRefs main_v7, by decide⟩)).trans (V4_v7 m c),
      (h (Proc.devRef .tc main_arg0) (Finset.mem_filter.mpr ⟨StableHlo.devRef_mem_tcRefs main_arg0, by decide⟩)).trans (Gen.V4_main_arg0 m (outs m) c),
      (h (Proc.devRef .tc main_arg1) (Finset.mem_filter.mpr ⟨StableHlo.devRef_mem_tcRefs main_arg1, by decide⟩)).trans (Gen.V4_main_arg1 m (outs m) c),
      (h (Proc.devRef .tc main_arg2) (Finset.mem_filter.mpr ⟨StableHlo.devRef_mem_tcRefs main_arg2, by decide⟩)).trans (Gen.V4_main_arg2 m (outs m) c),
      (h (Proc.devRef .tc main_arg3) (Finset.mem_filter.mpr ⟨StableHlo.devRef_mem_tcRefs main_arg3, by decide⟩)).trans (Gen.V4_main_arg3 m (outs m) c),
      (h (Proc.devRef .tc main_arg4) (Finset.mem_filter.mpr ⟨StableHlo.devRef_mem_tcRefs main_arg4, by decide⟩)).trans (Gen.V4_main_arg4 m (outs m) c)⟩
  · iexact HSI

/-- The frame claim's post: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run m ρ)

end Cert.KernelIdeal.Hand

end
-- ==== Proof.KI.Blocks1.lean ====
import proofs.«144252_j90228672955012_2_alg».proof.Proof.KI.R1Runs
import Idealize.ShloMosaic.Lib.Pipeline.Value
import Idealize.ShloMosaic.Lib.ValueIdx
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
variable {F : FTy → Type} [FloatOps F]
-- the contents of the core's buffers when the region is entered: everything below is stated at them
variable (V : (c : Dev nD) → (b : Ref sig .tc) → Buf (Elt F) ((c : Thread nD τ).loc b))

-- each closed form below is a statement about all 256 points of the grid 4 x 4 x 16
set_option Elab.async false

/-! # REGION 1's windows, index by index

The grid is 4 x 4 x 16: point `t` has coordinates `(t / 64, t / 16 % 4, t % 16)` — batch, query tile, key tile. The
query block and the output block are rows `512 · i … 512 · i + 511` of batch `b`; the key and value blocks are rows
`128 · j … 128 · j + 127`; the projection weight and bias are whole.

## The index maps, decided over the grid -/

theorem lt_N1 (t : Fin cfg1.N) : t.val < 256 := by
  have h := t.isLt; have hN : cfg1.N = 256 := N_1; omega

/-- The query window's block index at point `t`. -/
theorem idx1_0 : ∀ t : Fin cfg1.N, win1_0.index t (0 : Fin 3) = t.val / 64 ∧ win1_0.index t (1 : Fin 3) = t.val / 16 % 4
    ∧ win1_0.index t (2 : Fin 3) = 0 :=
  (by decide +kernel : ∀ t : Fin grid1.N, _)
/-- The key window's. -/
theorem idx1_1 : ∀ t : Fin cfg1.N, win1_1.index t (0 : Fin 3) = t.val / 64 ∧ win1_1.index t (1 : Fin 3) = t.val % 16
    ∧ win1_1.index t (2 : Fin 3) = 0 :=
  (by decide +kernel : ∀ t : Fin grid1.N, _)
/-- The value window's. -/
theorem idx1_2 : ∀ t : Fin cfg1.N, win1_2.index t (0 : Fin 3) = t.val / 64 ∧ win1_2.index t (1 : Fin 3) = t.val % 16
    ∧ win1_2.index t (2 : Fin 3) = 0 :=
  (by decide +kernel : ∀ t : Fin grid1.N, _)
/-- The projection weight's: the one block. -/
theorem idx1_3 : ∀ t : Fin cfg1.N, win1_3.index t (0 : Fin 2) = 0 ∧ win1_3.index t (1 : Fin 2) = 0 :=
  (by decide +kernel : ∀ t : Fin grid1.N, _)
/-- The projection bias's: the one block. -/
theorem idx1_4 : ∀ t : Fin cfg1.N, win1_4.index t (0 : Fin 2) = 0 ∧ win1_4.index t (1 : Fin 2) = 0 :=
  (by decide +kernel : ∀ t : Fin grid1.N, _)
/-- The output window's: the query window's. -/
theorem idx1_5 : ∀ t : Fin cfg1.N, win1_5.index t (0 : Fin 3) = t.val / 64 ∧ win1_5.index t (1 : Fin 3) = t.val / 16 % 4
    ∧ win1_5.index t (2 : Fin 3) = 0 :=
  (by decide +kernel : ∀ t : Fin grid1.N, _)

/-- The point with coordinates `(b, i, j)`. -/
def pt1 (b : Fin 4) (i : Fin 4) (j : Fin 16) : Fin cfg1.N :=
  ⟨(b.val * 4 + i.val) * 16 + j.val, by have hN : cfg1.N = 256 := N_1; have := b.isLt; have := i.isLt; have := j.isLt; omega⟩
theorem pt1_val (b : Fin 4) (i : Fin 4) (j : Fin 16) : (pt1 b i j).val = (b.val * 4 + i.val) * 16 + j.val := rfl

/-! ## The input blocks as pieces of the arrays

An element of a block sits in the array, on each axis, at the block index times the block's size plus its own coordinate. -/

/-- The query block at point `t`: row `r` is row `512 · (t / 16 % 4) + r` of batch `t / 64`. -/
theorem iblk1_0_at (c : Dev nD) (t : Fin cfg1.N) (r : Fin 512) (cc : Fin 768) :
    iblk1 V c 0 t (ix3 (0 : Fin 1) r cc)
      = V c main_v3_0 (ix3 (⟨t.val / 64, by have := lt_N1 t; omega⟩ : Fin 4)
          (⟨512 * (t.val / 16 % 4) + r.val, by have := r.isLt; omega⟩ : Fin 2048) cc) := by
  obtain ⟨e0, e1, e2⟩ := idx1_0 t
  unfold iblk1
  rw [View.read_apply]
  show V c main_v3_0 _ = V c main_v3_0 _
  refine congrArg (V c main_v3_0) (funext fun a => Fin.ext ?_)
  match a with
  | ⟨0, _⟩ => show win1_0.index t (0 : Fin 3) * 1 + 1 * (0 : Nat) = t.val / 64; omega
  | ⟨1, _⟩ => show win1_0.index t (1 : Fin 3) * 512 + 1 * r.val = 512 * (t.val / 16 % 4) + r.val; omega
  | ⟨2, _⟩ => show win1_0.index t (2 : Fin 3) * 768 + 1 * cc.val = cc.val; omega

/-- The key block at point `t`: row `u` is row `128 · (t % 16) + u` of batch `t / 64`. -/
theorem iblk1_1_at (c : Dev nD) (t : Fin cfg1.N) (u : Fin 128) (cc : Fin 768) :
    iblk1 V c 1 t (ix3 (0 : Fin 1) u cc)
      = V c main_v3_1 (ix3 (⟨t.val / 64, by have := lt_N1 t; omega⟩ : Fin 4)
          (⟨128 * (t.val % 16) + u.val, by have := u.isLt; omega⟩ : Fin 2048) cc) := by
  obtain ⟨e0, e1, e2⟩ := idx1_1 t
  unfold iblk1
  rw [View.read_apply]
  show V c main_v3_1 _ = V c main_v3_1 _
  refine congrArg (V c main_v3_1) (funext fun a => Fin.ext ?_)
  match a with
  | ⟨0, _⟩ => show win1_1.index t (0 : Fin 3) * 1 + 1 * (0 : Nat) = t.val / 64; omega
  | ⟨1, _⟩ => show win1_1.index t (1 : Fin 3) * 128 + 1 * u.val = 128 * (t.val % 16) + u.val; omega
  | ⟨2, _⟩ => show win1_1.index t (2 : Fin 3) * 768 + 1 * cc.val = cc.val; omega

/-- The value block at point `t`: the same rows of the values. -/
theorem iblk1_2_at (c : Dev nD) (t : Fin cfg1.N) (u : Fin 128) (cc : Fin 768) :
    iblk1 V c 2 t (ix3 (0 : Fin 1) u cc)
      = V c main_v3_2 (ix3 (⟨t.val / 64, by have := lt_N1 t; omega⟩ : Fin 4)
          (⟨128 * (t.val % 16) + u.val, by have := u.isLt; omega⟩ : Fin 2048) cc) := by
  obtain ⟨e0, e1, e2⟩ := idx1_2 t
  unfold iblk1
  rw [View.read_apply]
  show V c main_v3_2 _ = V c main_v3_2 _
  refine congrArg (V c main_v3_2) (funext fun a => Fin.ext ?_)
  match a with
  | ⟨0, _⟩ => show win1_2.index t (0 : Fin 3) * 1 + 1 * (0 : Nat) = t.val / 64; omega
  | ⟨1, _⟩ => show win1_2.index t (1 : Fin 3) * 128 + 1 * u.val = 128 * (t.val % 16) + u.val; omega
  | ⟨2, _⟩ => show win1_2.index t (2 : Fin 3) * 768 + 1 * cc.val = cc.val; omega

/-- The projection weight's block is the whole array, at every point. -/
theorem iblk1_3_at (c : Dev nD) (t : Fin cfg1.N) (x y : Fin 768) :
    iblk1 V c 3 t (ix2 x y) = V c main_v5 (ix2 x y) := by
  obtain ⟨e0, e1⟩ := idx1_3 t
  unfold iblk1
  rw [View.read_apply]
  show V c main_v5 _ = V c main_v5 _
  refine congrArg (V c main_v5) (funext fun a => Fin.ext ?_)
  match a with
  | ⟨0, _⟩ => show win1_3.index t (0 : Fin 2) * 768 + 1 * x.val = x.val; omega
  | ⟨1, _⟩ => show win1_3.index t (1 : Fin 2) * 768 + 1 * y.val = y.val; omega

/-- The projection bias's block is the whole array, at every point. -/
theorem iblk1_4_at (c : Dev nD) (t : Fin cfg1.N) (y : Fin 768) :
    iblk1 V c 4 t (ix2 (0 : Fin 1) y) = V c main_v6 (ix2 (0 : Fin 1) y) := by
  obtain ⟨e0, e1⟩ := idx1_4 t
  unfold iblk1
  rw [View.read_apply]
  show V c main_v6 _ = V c main_v6 _
  refine congrArg (V c main_v6) (funext fun a => Fin.ext ?_)
  match a with
  | ⟨0, _⟩ => show win1_4.index t (0 : Fin 2) * 1 + 1 * (0 : Nat) = 0; omega
  | ⟨1, _⟩ => show win1_4.index t (1 : Fin 2) * 768 + 1 * y.val = y.val; omega

/-! ### The same at the point `(b, i, j)` -/

/-- At `(b, i, j)` the query block's row `r` is row `512 · i + r` of batch `b`, whatever `j`. -/
theorem iblk1_0_pt (c : Dev nD) (b : Fin 4) (i : Fin 4) (j : Fin 16) (r : Fin 512) (cc : Fin 768) :
    iblk1 V c 0 (pt1 b i j) (ix3 (0 : Fin 1) r cc)
      = V c main_v3_0 (ix3 b (⟨512 * i.val + r.val, by have := i.isLt; have := r.isLt; omega⟩ : Fin 2048) cc) := by
  refine (iblk1_0_at V c (pt1 b i j) r cc).trans (congrArg (V c main_v3_0) (funext fun a => Fin.ext ?_))
  have := b.isLt; have := i.isLt; have := j.isLt
  match a with
  | ⟨0, _⟩ => show ((b.val * 4 + i.val) * 16 + j.val) / 64 = b.val; omega
  | ⟨1, _⟩ => show 512 * (((b.val * 4 + i.val) * 16 + j.val) / 16 % 4) + r.val = 512 * i.val + r.val; omega
  | ⟨2, _⟩ => rfl

/-- At `(b, i, j)` the key block's row `u` is row `128 · j + u` of batch `b`, whatever `i`. -/
theorem iblk1_1_pt (c : Dev nD) (b : Fin 4) (i : Fin 4) (j : Fin 16) (u : Fin 128) (cc : Fin 768) :
    iblk1 V c 1 (pt1 b i j) (ix3 (0 : Fin 1) u cc)
      = V c main_v3_1 (ix3 b (⟨128 * j.val + u.val, by have := j.isLt; have := u.isLt; omega⟩ : Fin 2048) cc) := by
  refine (iblk1_1_at V c (pt1 b i j) u cc).trans (congrArg (V c main_v3_1) (funext fun a => Fin.ext ?_))
  have := b.isLt; have := i.isLt; have := j.isLt
  match a with
  | ⟨0, _⟩ => show ((b.val * 4 + i.val) * 16 + j.val) / 64 = b.val; omega
  | ⟨1, _⟩ => show 128 * (((b.val * 4 + i.val) * 16 + j.val) % 16) + u.val = 128 * j.val + u.val; omega
  | ⟨2, _⟩ => rfl

/-- At `(b, i, j)` the value block's row `u` is row `128 · j + u` of batch `b`, whatever `i`. -/
theorem iblk1_2_pt (c : Dev nD) (b : Fin 4) (i : Fin 4) (j : Fin 16) (u : Fin 128) (cc : Fin 768) :
    iblk1 V c 2 (pt1 b i j) (ix3 (0 : Fin 1) u cc)
      = V c main_v3_2 (ix3 b (⟨128 * j.val + u.val, by have := j.isLt; have := u.isLt; omega⟩ : Fin 2048) cc) := by
  refine (iblk1_2_at V c (pt1 b i j) u cc).trans (congrArg (V c main_v3_2) (funext fun a => Fin.ext ?_))
  have := b.isLt; have := i.isLt; have := j.isLt
  match a with
  | ⟨0, _⟩ => show ((b.val * 4 + i.val) * 16 + j.val) / 64 = b.val; omega
  | ⟨1, _⟩ => show 128 * (((b.val * 4 + i.val) * 16 + j.val) % 16) + u.val = 128 * j.val + u.val; omega
  | ⟨2, _⟩ => rfl

/-! ## The output array from its blocks

The output block is written back only at the last key tile of each `(b, i)`: the points with `t % 16 = 15`. Those sixteen
blocks are rows `512 · i … 512 · i + 511` of batch `b`: they cover the array, so each element ends holding what the one
point that covers it wrote back. Stated for any proof data over this pipeline: nothing here reads the body. -/

section Out
variable {c : Dev nD} (dat : Dat τ (Elt F) Unit ℕ (UR sig nD τ) ℕ cfg1 c)

/-- The point that writes row `n` of batch `b` back: the last key tile of the query tile `n / 512`. -/
def pt5 (b : Fin 4) (n : Fin 2048) : Fin cfg1.N :=
  ⟨(b.val * 4 + n.val / 512) * 16 + 15, by have hN : cfg1.N = 256 := N_1; have := b.isLt; have := n.isLt; omega⟩
theorem pt5_val (b : Fin 4) (n : Fin 2048) : (pt5 b n).val = (b.val * 4 + n.val / 512) * 16 + 15 := rfl

/-- The output array as one function: each element is what its covering point left in the output block. -/
def outArr : S4x2048x768.Idx → Elt F .f32 := fun idx =>
  dat.after 5 (pt5 (idx 0) (idx 1)) (ix3 (0 : Fin 1) (⟨(idx 1).val % 512, Nat.mod_lt _ (by decide)⟩ : Fin 512) (idx 2))

/-- An index of the array is in point `t`'s output block iff each coordinate is in the block's range on its axis. -/
theorem mem_blk1_5 (t : Fin cfg1.N) (idx : S4x2048x768.Idx) :
    idx ∈ ((cfg1.win 5).blk t).view.set
      ↔ ∀ a : Fin 3, win1_5.index t a * S1x512x768.size a ≤ (idx a).val
          ∧ (idx a).val < win1_5.index t a * S1x512x768.size a + S1x512x768.size a := by
  show idx ∈ ((View.whole main_v7).slice (win1_5.rect t)).set ↔ _
  rw [View.set_slice_whole, Rect.mem_set_unit]
  exact Iff.rfl

/-- What a flushing point writes back is its block of `outArr`: the point that covers an element of block `t` is `t`. -/
theorem flushed1_5_eq (t : Fin cfg1.N) (hf : (cfg1.win 5).flush t = true) :
    dat.flushed 5 t = ((cfg1.win 5).blk t).view.read (Elt F) (outArr dat) := by
  have h15 : t.val % 16 = 15 := (flush1_5 t).mp hf
  have hN := lt_N1 t
  obtain ⟨e0, e1, e2⟩ := idx1_5 t
  funext y
  obtain ⟨y0, r, o, rfl⟩ : ∃ (y0 : Fin 1) (r : Fin 512) (o : Fin 768), y = ix3 y0 r o :=
    ⟨y 0, y 1, y 2, eq_ix3 (n0 := 1) (n1 := 512) (n2 := 768) y⟩
  rw [View.read_apply]
  show dat.after 5 t (ix3 y0 r o) = outArr dat (((cfg1.win 5).blk t).view.emb (ix3 y0 r o))
  have key : ∀ (b : Fin 4) (n : Fin 2048) (o' : Fin 768), b.val = t.val / 64 → n.val = t.val / 16 % 4 * 512 + r.val →
      o'.val = o.val → outArr dat (ix3 b n o') = dat.after 5 t (ix3 y0 r o) := fun b n o' h0 h1 h2 => by
    have hr := r.isLt
    have ht : pt5 b n = t := Fin.ext (by rw [pt5_val, h0, h1]; omega)
    have hi : ix3 (0 : Fin 1) (⟨n.val % 512, Nat.mod_lt _ (by decide)⟩ : Fin 512) o' = ix3 y0 r o :=
      funext fun a => Fin.ext (by
        match a with
        | ⟨0, _⟩ => show (0 : Nat) = y0.val; have := y0.isLt; omega
        | ⟨1, _⟩ => show n.val % 512 = r.val; rw [h1]; omega
        | ⟨2, _⟩ => exact h2)
    show dat.after 5 (pt5 b n) (ix3 (0 : Fin 1) (⟨n.val % 512, Nat.mod_lt _ (by decide)⟩ : Fin 512) o') = _
    rw [ht, hi]
  have key' : ∀ e : S4x2048x768.Idx, (e 0).val = t.val / 64 → (e 1).val = t.val / 16 % 4 * 512 + r.val → (e 2).val = o.val →
      outArr dat e = dat.after 5 t (ix3 y0 r o) := fun e h0 h1 h2 =>
    (congrArg (outArr dat) (eq_ix3 e)).trans (key (e 0) (e 1) (e 2) h0 h1 h2)
  have hy0 := y0.isLt
  exact (key' _ (by show win1_5.index t (0 : Fin 3) * 1 + 1 * y0.val = t.val / 64; omega)
    (by show win1_5.index t (1 : Fin 3) * 512 + 1 * r.val = t.val / 16 % 4 * 512 + r.val; omega)
    (by show win1_5.index t (2 : Fin 3) * 768 + 1 * o.val = o.val; omega)).symm

/-- Every element of the array is in the block of the point that writes its row back. -/
theorem cover1_5 (idx : S4x2048x768.Idx) :
    ∃ t : Fin cfg1.N, (cfg1.win 5).flush t = true ∧ idx ∈ ((cfg1.win 5).blk t).view.set := by
  obtain ⟨b, n, o, rfl⟩ : ∃ (b : Fin 4) (n : Fin 2048) (o : Fin 768), idx = ix3 b n o := ⟨idx 0, idx 1, idx 2, eq_ix3 idx⟩
  have hb := b.isLt; have hn := n.isLt; have ho := o.isLt
  refine ⟨pt5 b n, (flush1_5 _).mpr (by rw [pt5_val]; omega), ?_⟩
  obtain ⟨e0, e1, e2⟩ := idx1_5 (pt5 b n)
  rw [pt5_val] at e0 e1
  rw [mem_blk1_5]
  intro a
  match a with
  | ⟨0, _⟩ =>
    show win1_5.index (pt5 b n) (0 : Fin 3) * 1 ≤ b.val ∧ b.val < win1_5.index (pt5 b n) (0 : Fin 3) * 1 + 1
    omega
  | ⟨1, _⟩ =>
    show win1_5.index (pt5 b n) (1 : Fin 3) * 512 ≤ n.val ∧ n.val < win1_5.index (pt5 b n) (1 : Fin 3) * 512 + 512
    omega
  | ⟨2, _⟩ =>
    show win1_5.index (pt5 b n) (2 : Fin 3) * 768 ≤ o.val ∧ o.val < win1_5.index (pt5 b n) (2 : Fin 3) * 768 + 768
    omega

/-- THE OUTPUT ARRAY after the region: `outArr`. -/
theorem final1_5_arr : dat.arrAt 5 cfg1.N = outArr dat :=
  dat.arrAt_eq_of_cover 5 (outArr dat) (flushed1_5_eq dat) cover1_5

/-- … index by index: row `n` of batch `b` is row `n % 512` of the block the last key tile of `(b, n / 512)` left. -/
theorem final1_5 (b : Fin 4) (n : Fin 2048) (o : Fin 768) :
    dat.arrAt 5 cfg1.N (ix3 b n o)
      = dat.after 5 (pt5 b n) (ix3 (0 : Fin 1) (⟨n.val % 512, Nat.mod_lt _ (by decide)⟩ : Fin 512) o) :=
  congrFun (final1_5_arr dat) (ix3 b n o)

end Out

end Cert.KernelIdeal.Hand
end
-- ==== Proof.KI.Q.lean ====
import proofs.«144252_j90228672955012_2_alg».proof.Proof.KI.R0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! # The projection's three output arrays in closed form, on extended reals

After the first pipeline, output `j` (`j` = 0, 1, 2) holds at (`b`, `n`, `o'`) the sum over `d` of the activations at
(`b`, `n`, `d`) times the transposed weights at (`d`, `768 j + o'`), plus the bias at `768 j + o'`. First the body's
product-plus-bias read at one entry; then each point's three blocks as parts of the arrays; then what each point writes
back as a block of one function of the arrays; then the blocks cover each output array. -/

/-- The dimension numbers of the body's one matrix product: rows by the shared axis against the shared axis by columns. -/
abbrev mmD := dot_S512x768_S768x2304_S512x2304_1_0_0_1_n_n

/-- Where the product reads its operands for output entry `i` and position `q` along the shared axis: the left operand
    at (row of `i`, `q`), the right operand at (`q`, column of `i`). -/
theorem mm_lhs0 (i : S512x2304.Idx) (q : mmD.contr.Idx) : (mmD.lhsIdx i q 0).val = (i 0).val := by
  unfold DotDims.lhsIdx
  rw [dif_neg (show ¬(0 : Fin S512x768.rank) ∈ mmD.lhsBatch by decide), dif_pos (show (0 : Fin S512x768.rank) ∈ mmD.lhsNonContracting by decide)]
  rfl
theorem mm_lhs1 (i : S512x2304.Idx) (q : mmD.contr.Idx) : (mmD.lhsIdx i q 1).val = (q ⟨0, by decide⟩).val :=
  mmD.lhsIdx_val_of_single rfl i q
theorem mm_rhs0 (i : S512x2304.Idx) (q : mmD.contr.Idx) : (mmD.rhsIdx i q 0).val = (q ⟨0, by decide⟩).val :=
  mmD.rhsIdx_val_of_single rfl i q
theorem mm_rhs1 (i : S512x2304.Idx) (q : mmD.contr.Idx) : (mmD.rhsIdx i q 1).val = (i 1).val := by
  unfold DotDims.rhsIdx
  rw [dif_neg (show ¬(1 : Fin S768x2304.rank) ∈ mmD.rhsBatch by decide), dif_pos (show (1 : Fin S768x2304.rank) ∈ mmD.rhsNonContracting by decide)]
  rfl

/-- The product-plus-bias at row `r`, column `o`: the row of the activations against the column of the weights,
    plus the bias at that column. The two format changes are the identity on extended reals, the accumulator the
    product starts from is zero, and the contraction runs over the one shared axis of extent 768. -/
theorem pay1_apply (x0 : FVec Ideal S1x512x768 .f32) (x1 : FVec Ideal S768x2304 .bf16) (x2 : FVec Ideal S1x2304 .f32)
    (r : Fin 512) (o : Fin 2304) :
    k0_pay1 (F := Ideal) x0 x1 x2 (ix2 r o)
      = (∑ d : Fin 768, x0 (ix3 (0 : Fin 1) r d) * x1 (ix2 d o)) + x2 (ix2 (0 : Fin 1) o) := by
  unfold k0_pay1
  rw [addf_apply, broadcastTo_1b_ab_apply, shapeCast_self, shapeCast_self]
  refine congrArg (· + x2 (ix2 (0 : Fin 1) o)) ?_
  refine (Ideal.matmul_constant_zero_apply mmD none _ _ (ix2 r o)).trans ?_
  rw [← Equiv.sum_comp (contrEquiv1 mmD 768 rfl rfl).symm]
  refine Finset.sum_congr rfl fun k _ => ?_
  have hk := contrEquiv1_symm_val mmD 768 rfl rfl k
  have el : mmD.lhsIdx (ix2 r o) ((contrEquiv1 mmD 768 rfl rfl).symm k) = ix2 r k := funext fun a => Fin.ext (by
    match a with
    | ⟨0, _⟩ => exact mm_lhs0 _ _
    | ⟨1, _⟩ => exact (mm_lhs1 _ _).trans hk)
  have er : mmD.rhsIdx (ix2 r o) ((contrEquiv1 mmD 768 rfl rfl).symm k) = ix2 k o := funext fun a => Fin.ext (by
    match a with
    | ⟨0, _⟩ => exact (mm_rhs0 _ _).trans hk
    | ⟨1, _⟩ => exact mm_rhs1 _ _)
  rw [el, er, truncf_apply, shapeCast_1ab_ab_apply]

/-! ## The three stored thirds at an index -/

/-- Each stored value at (`u`, `r`, `o'`) is the product-plus-bias at row `r` and column `o'` of its own third:
    a slice along the columns, a format change (the identity on extended reals) and a leading unit axis. -/
theorem pay2_apply (x0 : FVec Ideal S1x512x768 .f32) (x1 : FVec Ideal S768x2304 .bf16) (x2 : FVec Ideal S1x2304 .f32)
    (u : Fin 1) (r : Fin 512) (o' : Fin 768) :
    k0_pay2 (F := Ideal) x0 x1 x2 (ix3 u r o') = k0_pay1 (F := Ideal) x0 x1 x2 (ix2 r ⟨0 + o'.val, by omega⟩) := by
  unfold k0_pay2
  rw [shapeCast_ab_1ab_apply, truncf_apply, slice2_axis1_eq]
theorem pay3_apply (x0 : FVec Ideal S1x512x768 .f32) (x1 : FVec Ideal S768x2304 .bf16) (x2 : FVec Ideal S1x2304 .f32)
    (u : Fin 1) (r : Fin 512) (o' : Fin 768) :
    k0_pay3 (F := Ideal) x0 x1 x2 (ix3 u r o') = k0_pay1 (F := Ideal) x0 x1 x2 (ix2 r ⟨768 + o'.val, by omega⟩) := by
  unfold k0_pay3
  rw [shapeCast_ab_1ab_apply, truncf_apply, slice2_axis1_eq]
theorem pay4_apply (x0 : FVec Ideal S1x512x768 .f32) (x1 : FVec Ideal S768x2304 .bf16) (x2 : FVec Ideal S1x2304 .f32)
    (u : Fin 1) (r : Fin 512) (o' : Fin 768) :
    k0_pay4 (F := Ideal) x0 x1 x2 (ix3 u r o') = k0_pay1 (F := Ideal) x0 x1 x2 (ix2 r ⟨1536 + o'.val, by omega⟩) := by
  unfold k0_pay4
  rw [shapeCast_ab_1ab_apply, truncf_apply, slice2_axis1_eq]

/-! ## The closed form -/

/-- Entry (`b`, `n`, `o`) of the projection: row (`b`, `n`) of the activations against column `o` of the transposed
    weights, plus the bias at `o`. -/
def qkvE (x : FVec Ideal S4x2048x768 .f32) (w1 : FVec Ideal S768x2304 .bf16) (b2 : FVec Ideal S1x2304 .f32)
    (b : Fin 4) (n : Fin 2048) (o : Fin 2304) : EReal :=
  (∑ d : Fin 768, x (ix3 b n d) * w1 (ix2 d o)) + b2 (ix2 (0 : Fin 1) o)

/-- It depends on its three coordinates through their values only. -/
theorem qkvE_congr (x : FVec Ideal S4x2048x768 .f32) (w1 : FVec Ideal S768x2304 .bf16) (b2 : FVec Ideal S1x2304 .f32)
    {b b' : Fin 4} {n n' : Fin 2048} {o o' : Fin 2304} (hb : b.val = b'.val) (hn : n.val = n'.val) (ho : o.val = o'.val) :
    qkvE x w1 b2 b n o = qkvE x w1 b2 b' n' o' := by
  obtain rfl := Fin.ext hb; obtain rfl := Fin.ext hn; obtain rfl := Fin.ext ho; rfl

/-- The output array whose columns are columns `off … off + 767` of the projection. -/
def qkvG (off : ℕ) (h : off + 768 ≤ 2304) (x : FVec Ideal S4x2048x768 .f32) (w1 : FVec Ideal S768x2304 .bf16)
    (b2 : FVec Ideal S1x2304 .f32) : S4x2048x768.Idx → EReal :=
  fun i => qkvE x w1 b2 ⟨(i 0).val, (i 0).isLt⟩ ⟨(i 1).val, (i 1).isLt⟩
    ⟨off + (i 2).val, Nat.lt_of_lt_of_le (Nat.add_lt_add_left (i 2).isLt off) h⟩

/-- One entry of the third at column offset `off`, computed by the point with block coordinates (`bq`, `iq`) from
    its three blocks `x0`, `x1`, `x2`, which are rows `512 iq …` of slab `bq` of the activations, the whole weight
    matrix and the whole bias row. -/
theorem third_entry (x : FVec Ideal S4x2048x768 .f32) (w1 : FVec Ideal S768x2304 .bf16) (b2 : FVec Ideal S1x2304 .f32)
    (x0 : FVec Ideal S1x512x768 .f32) (x1 : FVec Ideal S768x2304 .bf16) (x2 : FVec Ideal S1x2304 .f32)
    (bq iq : Fin 4)
    (h0 : ∀ (u : Fin 1) (r : Fin 512) (d : Fin 768), x0 (ix3 u r d) = x (ix3 bq ⟨512 * iq.val + r.val, by omega⟩ d))
    (h1 : ∀ (d : Fin 768) (o : Fin 2304), x1 (ix2 d o) = w1 (ix2 d o))
    (h2 : ∀ (u : Fin 1) (o : Fin 2304), x2 (ix2 u o) = b2 (ix2 (0 : Fin 1) o))
    (r : Fin 512) (o : Fin 2304) :
    k0_pay1 (F := Ideal) x0 x1 x2 (ix2 r o) = qkvE x w1 b2 bq ⟨512 * iq.val + r.val, by omega⟩ o := by
  rw [pay1_apply, h2]
  unfold qkvE
  refine congrArg (· + b2 (ix2 (0 : Fin 1) o)) (Finset.sum_congr rfl fun d _ => ?_)
  rw [h0, h1]

/-! ## The windows' blocks as parts of the arrays -/

variable (V : (c : Dev nD) → (b : Ref sig .tc) → Buf (Elt Ideal) ((c : Thread nD τ).loc b))

/-- The index maps over the sixteen points, by evaluation: the activations' and the three outputs' blocks sit at
    (point / 4, point mod 4, 0); the weights' and the bias row's at the origin. -/
theorem idx_facts0 : ∀ t : Fin cfg0.N,
    (win0_0.index t (0 : Fin 3) = t.val / 4 ∧ win0_0.index t (1 : Fin 3) = t.val % 4 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0) :=
  (by decide +kernel : ∀ t : Fin grid0.N, _)

/-- Every point is below sixteen. -/
theorem lt16 (t : Fin cfg0.N) : t.val < 16 := lt_of_lt_of_eq t.isLt N_0

/-- The activations' block at the point with block coordinates (`bq`, `iq`) is rows `512 iq …` of slab `bq`. -/
theorem iblk0_0_apply (c : Dev nD) (t : Fin cfg0.N) (bq iq : Fin 4) (ht : t.val = 4 * bq.val + iq.val)
    (u : Fin 1) (r : Fin 512) (d : Fin 768) :
    (iblk0 V c 0 t : FVec Ideal S1x512x768 .f32) (ix3 u r d)
      = (V c main_arg0 : FVec Ideal S4x2048x768 .f32) (ix3 bq ⟨512 * iq.val + r.val, by omega⟩ d) := by
  obtain ⟨⟨e0, e1, e2⟩, -⟩ := idx_facts0 t
  unfold iblk0
  rw [View.read_apply]
  show V c main_arg0 _ = V c main_arg0 _
  refine congrArg _ (funext fun a => Fin.ext ?_)
  match a with
  | ⟨0, _⟩ => show win0_0.index t (0 : Fin 3) * 1 + 1 * u.val = bq.val; rw [e0]; omega
  | ⟨1, _⟩ => show win0_0.index t (1 : Fin 3) * 512 + 1 * r.val = 512 * iq.val + r.val; rw [e1]; omega
  | ⟨2, _⟩ => show win0_0.index t (2 : Fin 3) * 768 + 1 * d.val = d.val; rw [e2]; omega

/-- The weights' block is the whole matrix, at every point. -/
theorem iblk0_1_apply (c : Dev nD) (t : Fin cfg0.N) (d : Fin 768) (o : Fin 2304) :
    (iblk0 V c 1 t : FVec Ideal S768x2304 .bf16) (ix2 d o) = (V c main_v1 : FVec Ideal S768x2304 .bf16) (ix2 d o) := by
  obtain ⟨-, ⟨e0, e1⟩, -⟩ := idx_facts0 t
  unfold iblk0
  rw [View.read_apply]
  show V c main_v1 _ = V c main_v1 _
  refine congrArg _ (funext fun a => Fin.ext ?_)
  match a with
  | ⟨0, _⟩ => show win0_1.index t (0 : Fin 2) * 768 + 1 * d.val = d.val; rw [e0]; omega
  | ⟨1, _⟩ => show win0_1.index t (1 : Fin 2) * 2304 + 1 * o.val = o.val; rw [e1]; omega

/-- The bias block is the whole row, at every point. -/
theorem iblk0_2_apply (c : Dev nD) (t : Fin cfg0.N) (u : Fin 1) (o : Fin 2304) :
    (iblk0 V c 2 t : FVec Ideal S1x2304 .f32) (ix2 u o) = (V c main_v2 : FVec Ideal S1x2304 .f32) (ix2 (0 : Fin 1) o) := by
  obtain ⟨-, -, ⟨e0, e1⟩, -⟩ := idx_facts0 t
  unfold iblk0
  rw [View.read_apply]
  show V c main_v2 _ = V c main_v2 _
  refine congrArg _ (funext fun a => Fin.ext ?_)
  match a with
  | ⟨0, _⟩ => show win0_2.index t (0 : Fin 2) * 1 + 1 * u.val = 0; rw [e0]; omega
  | ⟨1, _⟩ => show win0_2.index t (1 : Fin 2) * 2304 + 1 * o.val = o.val; rw [e1]; omega

/-! ## Output 0: columns 0 … 767 of the projection -/

/-- One entry of what a point leaves in this output's buffer, from its three blocks as parts of the arrays. -/
theorem out3_at (x : FVec Ideal S4x2048x768 .f32) (w1 : FVec Ideal S768x2304 .bf16) (b2 : FVec Ideal S1x2304 .f32)
    (x0 : FVec Ideal S1x512x768 .f32) (x1 : FVec Ideal S768x2304 .bf16) (x2 : FVec Ideal S1x2304 .f32)
    (bq iq : Fin 4)
    (h0 : ∀ (u : Fin 1) (r : Fin 512) (d : Fin 768), x0 (ix3 u r d) = x (ix3 bq ⟨512 * iq.val + r.val, by omega⟩ d))
    (h1 : ∀ (d : Fin 768) (o : Fin 2304), x1 (ix2 d o) = w1 (ix2 d o))
    (h2 : ∀ (u : Fin 1) (o : Fin 2304), x2 (ix2 u o) = b2 (ix2 (0 : Fin 1) o))
    (u : Fin 1) (r : Fin 512) (o' : Fin 768) :
    k0_pay2 (F := Ideal) x0 x1 x2 (ix3 u r o')
      = qkvE x w1 b2 bq ⟨512 * iq.val + r.val, by omega⟩ ⟨0 + o'.val, by omega⟩ := by
  rw [pay2_apply]
  exact third_entry x w1 b2 x0 x1 x2 bq iq h0 h1 h2 r _

/-- What point `t` writes back to this output's array is block `t` of the closed form. -/
theorem flushed0_3_eq (c : Dev nD) (t : Fin cfg0.N) :
    (dat0 (F := Ideal) V c).flushed 3 t
      = ((cfg0.win 3).blk t).view.read (Elt Ideal) (qkvG 0 (by decide) (V c main_arg0) (V c main_v1) (V c main_v2)) := by
  have h16 := lt16 t
  obtain ⟨-, -, -, ⟨e0, e1, e2⟩, -⟩ := idx_facts0 t
  show (cfg0.win 3).cut (grid0.coords t) ((dat0 (F := Ideal) V c).after 3 t) = _
  rw [after0_3]
  funext j
  have hj0 : (j 0).val < 1 := (j 0).isLt
  have hj1 : (j 1).val < 512 := (j 1).isLt
  have hj2 : (j 2).val < 768 := (j 2).isLt
  have hy : (cfg0.win 3).xinj (grid0.coords t) j = ix3 (⟨(j 0).val, hj0⟩ : Fin 1) (⟨(j 1).val, hj1⟩ : Fin 512) (⟨(j 2).val, hj2⟩ : Fin 768) :=
    funext fun a => by match a with | ⟨0, _⟩ => rfl | ⟨1, _⟩ => rfl | ⟨2, _⟩ => rfl
  show k0_pay2 (F := Ideal) (iblk0 V c 0 t) (iblk0 V c 1 t) (iblk0 V c 2 t) ((cfg0.win 3).xinj (grid0.coords t) j) = _
  rw [hy, View.read_apply]
  refine (out3_at (V c main_arg0) (V c main_v1) (V c main_v2) _ _ _ ⟨t.val / 4, by omega⟩ ⟨t.val % 4, by omega⟩
    (iblk0_0_apply V c t _ _ (by show t.val = 4 * (t.val / 4) + t.val % 4; omega)) (iblk0_1_apply V c t) (iblk0_2_apply V c t) _ _ _).trans ?_
  show _ = qkvG 0 (by decide) (V c main_arg0) (V c main_v1) (V c main_v2) (((cfg0.win 3).blk t).view.emb j)
  unfold qkvG
  refine qkvE_congr _ _ _ ?_ ?_ ?_
  · show t.val / 4 = win0_3.index t (0 : Fin 3) * 1 + 1 * (j 0).val; rw [e0]; omega
  · show 512 * (t.val % 4) + (j 1).val = win0_3.index t (1 : Fin 3) * 512 + 1 * (j 1).val; rw [e1]; omega
  · show 0 + (j 2).val = 0 + (win0_3.index t (2 : Fin 3) * 768 + 1 * (j 2).val); rw [e2]; omega

/-- An index of the array is in point `t`'s block iff each coordinate is in the block's range on its axis. -/
theorem mem_blk0_3 (t : Fin cfg0.N) (i : S4x2048x768.Idx) :
    i ∈ ((cfg0.win 3).blk t).view.set ↔ ∀ a : Fin 3, win0_3.index t a * S1x512x768.size a ≤ (i a).val ∧ (i a).val < win0_3.index t a * S1x512x768.size a + S1x512x768.size a := by
  show i ∈ ((View.whole main_v3_0).slice (win0_3.rect t)).set ↔ _
  rw [View.set_slice_whole, Rect.mem_set_unit]
  exact Iff.rfl

/-- Every index of the array is in some point's block: row (`b`, `n`) is in the block of point `4 b + n / 512`. -/
theorem cover0_3 (i : S4x2048x768.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 768 := (i 2).isLt
  obtain ⟨t, ht⟩ : ∃ t : Fin cfg0.N, t.val = 4 * (i 0).val + (i 1).val / 512 :=
    ⟨⟨4 * (i 0).val + (i 1).val / 512, lt_of_lt_of_eq (show 4 * (i 0).val + (i 1).val / 512 < 16 by omega) N_0.symm⟩, rfl⟩
  obtain ⟨-, -, -, ⟨e0, e1, e2⟩, -⟩ := idx_facts0 t
  refine ⟨t, flush0_3 t, ?_⟩
  rw [mem_blk0_3]
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 512 ≤ (i 1).val ∧ (i 1).val < win0_3.index t (1 : Fin 3) * 512 + 512; rw [e1, ht]; omega
  | ⟨2, _⟩ => show win0_3.index t (2 : Fin 3) * 768 ≤ (i 2).val ∧ (i 2).val < win0_3.index t (2 : Fin 3) * 768 + 768; rw [e2]; omega

/-- So the array ends holding the closed form, at every index. -/
theorem arr0_3 (c : Dev nD) :
    (dat0 (F := Ideal) V c).arrAt 3 cfg0.N = qkvG 0 (by decide) (V c main_arg0) (V c main_v1) (V c main_v2) :=
  (dat0 (F := Ideal) V c).arrAt_eq_of_cover 3 _ (fun t _ => flushed0_3_eq V c t) cover0_3

/-- Entry (`b`, `n`, `o'`) of this output after the pipeline is entry (`b`, `n`, `o'`) of the projection. -/
theorem final0_3 (c : Dev nD) (b : Fin 4) (n : Fin 2048) (o' : Fin 768) :
    ((dat0 (F := Ideal) V c).arrAt 3 cfg0.N : S4x2048x768.Idx → EReal) (ix3 b n o')
      = qkvE (V c main_arg0) (V c main_v1) (V c main_v2) b n ⟨o'.val, by omega⟩ := by
  rw [arr0_3]
  exact qkvE_congr _ _ _ rfl rfl (Nat.zero_add _)

/-! ## Output 1: columns 768 … 1535 of the projection -/

/-- One entry of what a point leaves in this output's buffer, from its three blocks as parts of the arrays. -/
theorem out4_at (x : FVec Ideal S4x2048x768 .f32) (w1 : FVec Ideal S768x2304 .bf16) (b2 : FVec Ideal S1x2304 .f32)
    (x0 : FVec Ideal S1x512x768 .f32) (x1 : FVec Ideal S768x2304 .bf16) (x2 : FVec Ideal S1x2304 .f32)
    (bq iq : Fin 4)
    (h0 : ∀ (u : Fin 1) (r : Fin 512) (d : Fin 768), x0 (ix3 u r d) = x (ix3 bq ⟨512 * iq.val + r.val, by omega⟩ d))
    (h1 : ∀ (d : Fin 768) (o : Fin 2304), x1 (ix2 d o) = w1 (ix2 d o))
    (h2 : ∀ (u : Fin 1) (o : Fin 2304), x2 (ix2 u o) = b2 (ix2 (0 : Fin 1) o))
    (u : Fin 1) (r : Fin 512) (o' : Fin 768) :
    k0_pay3 (F := Ideal) x0 x1 x2 (ix3 u r o')
      = qkvE x w1 b2 bq ⟨512 * iq.val + r.val, by omega⟩ ⟨768 + o'.val, by omega⟩ := by
  rw [pay3_apply]
  exact third_entry x w1 b2 x0 x1 x2 bq iq h0 h1 h2 r _

/-- What point `t` writes back to this output's array is block `t` of the closed form. -/
theorem flushed0_4_eq (c : Dev nD) (t : Fin cfg0.N) :
    (dat0 (F := Ideal) V c).flushed 4 t
      = ((cfg0.win 4).blk t).view.read (Elt Ideal) (qkvG 768 (by decide) (V c main_arg0) (V c main_v1) (V c main_v2)) := by
  have h16 := lt16 t
  obtain ⟨-, -, -, -, ⟨e0, e1, e2⟩, -⟩ := idx_facts0 t
  show (cfg0.win 4).cut (grid0.coords t) ((dat0 (F := Ideal) V c).after 4 t) = _
  rw [after0_4]
  funext j
  have hj0 : (j 0).val < 1 := (j 0).isLt
  have hj1 : (j 1).val < 512 := (j 1).isLt
  have hj2 : (j 2).val < 768 := (j 2).isLt
  have hy : (cfg0.win 4).xinj (grid0.coords t) j = ix3 (⟨(j 0).val, hj0⟩ : Fin 1) (⟨(j 1).val, hj1⟩ : Fin 512) (⟨(j 2).val, hj2⟩ : Fin 768) :=
    funext fun a => by match a with | ⟨0, _⟩ => rfl | ⟨1, _⟩ => rfl | ⟨2, _⟩ => rfl
  show k0_pay3 (F := Ideal) (iblk0 V c 0 t) (iblk0 V c 1 t) (iblk0 V c 2 t) ((cfg0.win 4).xinj (grid0.coords t) j) = _
  rw [hy, View.read_apply]
  refine (out4_at (V c main_arg0) (V c main_v1) (V c main_v2) _ _ _ ⟨t.val / 4, by omega⟩ ⟨t.val % 4, by omega⟩
    (iblk0_0_apply V c t _ _ (by show t.val = 4 * (t.val / 4) + t.val % 4; omega)) (iblk0_1_apply V c t) (iblk0_2_apply V c t) _ _ _).trans ?_
  show _ = qkvG 768 (by decide) (V c main_arg0) (V c main_v1) (V c main_v2) (((cfg0.win 4).blk t).view.emb j)
  unfold qkvG
  refine qkvE_congr _ _ _ ?_ ?_ ?_
  · show t.val / 4 = win0_4.index t (0 : Fin 3) * 1 + 1 * (j 0).val; rw [e0]; omega
  · show 512 * (t.val % 4) + (j 1).val = win0_4.index t (1 : Fin 3) * 512 + 1 * (j 1).val; rw [e1]; omega
  · show 768 + (j 2).val = 768 + (win0_4.index t (2 : Fin 3) * 768 + 1 * (j 2).val); rw [e2]; omega

/-- An index of the array is in point `t`'s block iff each coordinate is in the block's range on its axis. -/
theorem mem_blk0_4 (t : Fin cfg0.N) (i : S4x2048x768.Idx) :
    i ∈ ((cfg0.win 4).blk t).view.set ↔ ∀ a : Fin 3, win0_4.index t a * S1x512x768.size a ≤ (i a).val ∧ (i a).val < win0_4.index t a * S1x512x768.size a + S1x512x768.size a := by
  show i ∈ ((View.whole main_v3_1).slice (win0_4.rect t)).set ↔ _
  rw [View.set_slice_whole, Rect.mem_set_unit]
  exact Iff.rfl

/-- Every index of the array is in some point's block: row (`b`, `n`) is in the block of point `4 b + n / 512`. -/
theorem cover0_4 (i : S4x2048x768.Idx) : ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 768 := (i 2).isLt
  obtain ⟨t, ht⟩ : ∃ t : Fin cfg0.N, t.val = 4 * (i 0).val + (i 1).val / 512 :=
    ⟨⟨4 * (i 0).val + (i 1).val / 512, lt_of_lt_of_eq (show 4 * (i 0).val + (i 1).val / 512 < 16 by omega) N_0.symm⟩, rfl⟩
  obtain ⟨-, -, -, -, ⟨e0, e1, e2⟩, -⟩ := idx_facts0 t
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; rw [e0, ht]; omega
  | ⟨1, _⟩ => show win0_4.index t (1 : Fin 3) * 512 ≤ (i 1).val ∧ (i 1).val < win0_4.index t (1 : Fin 3) * 512 + 512; rw [e1, ht]; omega
  | ⟨2, _⟩ => show win0_4.index t (2 : Fin 3) * 768 ≤ (i 2).val ∧ (i 2).val < win0_4.index t (2 : Fin 3) * 768 + 768; rw [e2]; omega

/-- So the array ends holding the closed form, at every index. -/
theorem arr0_4 (c : Dev nD) :
    (dat0 (F := Ideal) V c).arrAt 4 cfg0.N = qkvG 768 (by decide) (V c main_arg0) (V c main_v1) (V c main_v2) :=
  (dat0 (F := Ideal) V c).arrAt_eq_of_cover 4 _ (fun t _ => flushed0_4_eq V c t) cover0_4

/-- Entry (`b`, `n`, `o'`) of this output after the pipeline is entry (`b`, `n`, `768 + o'`) of the projection. -/
theorem final0_4 (c : Dev nD) (b : Fin 4) (n : Fin 2048) (o' : Fin 768) :
    ((dat0 (F := Ideal) V c).arrAt 4 cfg0.N : S4x2048x768.Idx → EReal) (ix3 b n o')
      = qkvE (V c main_arg0) (V c main_v1) (V c main_v2) b n ⟨768 + o'.val, by omega⟩ := by
  rw [arr0_4]
  exact qkvE_congr _ _ _ rfl rfl rfl

/-! ## Output 2: columns 1536 … 2303 of the projection -/

/-- One entry of what a point leaves in this output's buffer, from its three blocks as parts of the arrays. -/
theorem out5_at (x : FVec Ideal S4x2048x768 .f32) (w1 : FVec Ideal S768x2304 .bf16) (b2 : FVec Ideal S1x2304 .f32)
    (x0 : FVec Ideal S1x512x768 .f32) (x1 : FVec Ideal S768x2304 .bf16) (x2 : FVec Ideal S1x2304 .f32)
    (bq iq : Fin 4)
    (h0 : ∀ (u : Fin 1) (r : Fin 512) (d : Fin 768), x0 (ix3 u r d) = x (ix3 bq ⟨512 * iq.val + r.val, by omega⟩ d))
    (h1 : ∀ (d : Fin 768) (o : Fin 2304), x1 (ix2 d o) = w1 (ix2 d o))
    (h2 : ∀ (u : Fin 1) (o : Fin 2304), x2 (ix2 u o) = b2 (ix2 (0 : Fin 1) o))
    (u : Fin 1) (r : Fin 512) (o' : Fin 768) :
    k0_pay4 (F := Ideal) x0 x1 x2 (ix3 u r o')
      = qkvE x w1 b2 bq ⟨512 * iq.val + r.val, by omega⟩ ⟨1536 + o'.val, by omega⟩ := by
  rw [pay4_apply]
  exact third_entry x w1 b2 x0 x1 x2 bq iq h0 h1 h2 r _

/-- What point `t` writes back to this output's array is block `t` of the closed form. -/
theorem flushed0_5_eq (c : Dev nD) (t : Fin cfg0.N) :
    (dat0 (F := Ideal) V c).flushed 5 t
      = ((cfg0.win 5).blk t).view.read (Elt Ideal) (qkvG 1536 (by decide) (V c main_arg0) (V c main_v1) (V c main_v2)) := by
  have h16 := lt16 t
  obtain ⟨-, -, -, -, -, ⟨e0, e1, e2⟩⟩ := idx_facts0 t
  show (cfg0.win 5).cut (grid0.coords t) ((dat0 (F := Ideal) V c).after 5 t) = _
  rw [after0_5]
  funext j
  have hj0 : (j 0).val < 1 := (j 0).isLt
  have hj1 : (j 1).val < 512 := (j 1).isLt
  have hj2 : (j 2).val < 768 := (j 2).isLt
  have hy : (cfg0.win 5).xinj (grid0.coords t) j = ix3 (⟨(j 0).val, hj0⟩ : Fin 1) (⟨(j 1).val, hj1⟩ : Fin 512) (⟨(j 2).val, hj2⟩ : Fin 768) :=
    funext fun a => by match a with | ⟨0, _⟩ => rfl | ⟨1, _⟩ => rfl | ⟨2, _⟩ => rfl
  show k0_pay4 (F := Ideal) (iblk0 V c 0 t) (iblk0 V c 1 t) (iblk0 V c 2 t) ((cfg0.win 5).xinj (grid0.coords t) j) = _
  rw [hy, View.read_apply]
  refine (out5_at (V c main_arg0) (V c main_v1) (V c main_v2) _ _ _ ⟨t.val / 4, by omega⟩ ⟨t.val % 4, by omega⟩
    (iblk0_0_apply V c t _ _ (by show t.val = 4 * (t.val / 4) + t.val % 4; omega)) (iblk0_1_apply V c t) (iblk0_2_apply V c t) _ _ _).trans ?_
  show _ = qkvG 1536 (by decide) (V c main_arg0) (V c main_v1) (V c main_v2) (((cfg0.win 5).blk t).view.emb j)
  unfold qkvG
  refine qkvE_congr _ _ _ ?_ ?_ ?_
  · show t.val / 4 = win0_5.index t (0 : Fin 3) * 1 + 1 * (j 0).val; rw [e0]; omega
  · show 512 * (t.val % 4) + (j 1).val = win0_5.index t (1 : Fin 3) * 512 + 1 * (j 1).val; rw [e1]; omega
  · show 1536 + (j 2).val = 1536 + (win0_5.index t (2 : Fin 3) * 768 + 1 * (j 2).val); rw [e2]; omega

/-- An index of the array is in point `t`'s block iff each coordinate is in the block's range on its axis. -/
theorem mem_blk0_5 (t : Fin cfg0.N) (i : S4x2048x768.Idx) :
    i ∈ ((cfg0.win 5).blk t).view.set ↔ ∀ a : Fin 3, win0_5.index t a * S1x512x768.size a ≤ (i a).val ∧ (i a).val < win0_5.index t a * S1x512x768.size a + S1x512x768.size a := by
  show i ∈ ((View.whole main_v3_2).slice (win0_5.rect t)).set ↔ _
  rw [View.set_slice_whole, Rect.mem_set_unit]
  exact Iff.rfl

/-- Every index of the array is in some point's block: row (`b`, `n`) is in the block of point `4 b + n / 512`. -/
theorem cover0_5 (i : S4x2048x768.Idx) : ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 768 := (i 2).isLt
  obtain ⟨t, ht⟩ : ∃ t : Fin cfg0.N, t.val = 4 * (i 0).val + (i 1).val / 512 :=
    ⟨⟨4 * (i 0).val + (i 1).val / 512, lt_of_lt_of_eq (show 4 * (i 0).val + (i 1).val / 512 < 16 by omega) N_0.symm⟩, rfl⟩
  obtain ⟨-, -, -, -, -, ⟨e0, e1, e2⟩⟩ := idx_facts0 t
  refine ⟨t, flush0_5 t, ?_⟩
  rw [mem_blk0_5]
  intro a
  match a with
  | ⟨0, _⟩ => show win0_5.index t (0 : Fin 3) * 1 ≤ (i 0).val ∧ (i 0).val < win0_5.index t (0 : Fin 3) * 1 + 1; rw [e0, ht]; omega
  | ⟨1, _⟩ => show win0_5.index t (1 : Fin 3) * 512 ≤ (i 1).val ∧ (i 1).val < win0_5.index t (1 : Fin 3) * 512 + 512; rw [e1, ht]; omega
  | ⟨2, _⟩ => show win0_5.index t (2 : Fin 3) * 768 ≤ (i 2).val ∧ (i 2).val < win0_5.index t (2 : Fin 3) * 768 + 768; rw [e2]; omega

/-- So the array ends holding the closed form, at every index. -/
theorem arr0_5 (c : Dev nD) :
    (dat0 (F := Ideal) V c).arrAt 5 cfg0.N = qkvG 1536 (by decide) (V c main_arg0) (V c main_v1) (V c main_v2) :=
  (dat0 (F := Ideal) V c).arrAt_eq_of_cover 5 _ (fun t _ => flushed0_5_eq V c t) cover0_5

/-- Entry (`b`, `n`, `o'`) of this output after the pipeline is entry (`b`, `n`, `1536 + o'`) of the projection. -/
theorem final0_5 (c : Dev nD) (b : Fin 4) (n : Fin 2048) (o' : Fin 768) :
    ((dat0 (F := Ideal) V c).arrAt 5 cfg0.N : S4x2048x768.Idx → EReal) (ix3 b n o')
      = qkvE (V c main_arg0) (V c main_v1) (V c main_v2) b n ⟨1536 + o'.val, by omega⟩ := by
  rw [arr0_5]
  exact qkvE_congr _ _ _ rfl rfl rfl

end Cert.KernelIdeal.Hand

end
-- ==== Proof.Spec.lean ====
/-
  The mathematics that joins the two programs, over the real numbers.

  An attention row is a weighted mean of value entries, the weights the softmax of the row's
  scores. One program takes the scores in tiles and keeps, tile after tile, a running maximum
  `m`, a running denominator `l` and a running numerator `a`, each rescaled by `exp (m - m')`
  when the maximum moves from `m` to `m'` (the online-softmax recurrence); the other subtracts one
  number `M` from every score, exponentiates, and divides by the total. Both are the same real
  number, whatever the starting maximum `m₀` and whatever the subtracted number `M`:
  `exp (x - m) = exp (m' - m) * exp (x - m')`, so a change of the subtracted number multiplies
  numerator and denominator by one nonzero factor.

  Stated over abstract index types: `T` tiles, a finite nonempty lane type `κ`, scores
  `S : Fin T → κ → ℝ`, values `W : Fin T → κ → ℝ`.
-/
import Mathlib.Analysis.SpecialFunctions.Pow.Real
import Mathlib.Algebra.BigOperators.Fin
import Mathlib.Algebra.BigOperators.Field
import Mathlib.Data.Finset.Fold
import Mathlib.Data.Finset.Lattice.Fold

noncomputable section

namespace Cert.Attn

open scoped BigOperators

variable {κ : Type*} [Fintype κ] [Nonempty κ]

/-! ### The maximum of one tile -/

/-- The maximum of one tile's scores over its lanes: `Finset.univ.sup' Finset.univ_nonempty s`, the
    supremum of a nonempty finite family in the linear order `ℝ`. (A fold of `max` over the lanes
    started from the carried maximum `m` is `max m (tileMax s)`: `fold_max_eq`.) -/
def tileMax (s : κ → ℝ) : ℝ := Finset.univ.sup' Finset.univ_nonempty s

theorem tileMax_eq_sup' (s : κ → ℝ) : tileMax s = Finset.univ.sup' Finset.univ_nonempty s := rfl

theorem le_tileMax (s : κ → ℝ) (u : κ) : s u ≤ tileMax s :=
  Finset.le_sup' s (Finset.mem_univ u)

theorem tileMax_le {s : κ → ℝ} {c : ℝ} (h : ∀ u, s u ≤ c) : tileMax s ≤ c :=
  Finset.sup'_le _ _ fun u _ => h u

/-- The tile's maximum is attained at a lane. -/
theorem exists_eq_tileMax (s : κ → ℝ) : ∃ u, tileMax s = s u := by
  obtain ⟨u, _, hu⟩ := Finset.exists_mem_eq_sup' (s := Finset.univ) Finset.univ_nonempty s
  exact ⟨u, hu⟩

/-- The other spelling of the new maximum: the fold of `max` over the lanes from the carried `m`. -/
theorem fold_max_eq (m : ℝ) (s : κ → ℝ) : Finset.univ.fold max m s = max m (tileMax s) := by
  apply le_antisymm
  · exact (Finset.fold_max_le _).mpr ⟨le_max_left _ _, fun u _ => (le_tileMax s u).trans (le_max_right _ _)⟩
  · refine max_le ((Finset.le_fold_max _).mpr (Or.inl le_rfl)) (tileMax_le fun u => ?_)
    exact (Finset.le_fold_max _).mpr (Or.inr ⟨u, Finset.mem_univ u, le_rfl⟩)

/-! ### One tile's step, and the recurrence -/

/-- One tile's update of (maximum, denominator, numerator) from the tile's scores `s` and values `w`:
    `m' = max m (tileMax s)`, `l' = exp (m - m') * l + ∑ u, exp (s u - m')`,
    `a' = exp (m - m') * a + ∑ u, exp (s u - m') * w u`. -/
def step (m l a : ℝ) (s w : κ → ℝ) : ℝ × ℝ × ℝ :=
  (max m (tileMax s),
   Real.exp (m - max m (tileMax s)) * l + ∑ u, Real.exp (s u - max m (tileMax s)),
   Real.exp (m - max m (tileMax s)) * a + ∑ u, Real.exp (s u - max m (tileMax s)) * w u)

theorem step_m (m l a : ℝ) (s w : κ → ℝ) : (step m l a s w).1 = max m (tileMax s) := rfl
theorem step_l (m l a : ℝ) (s w : κ → ℝ) :
    (step m l a s w).2.1 = Real.exp (m - max m (tileMax s)) * l + ∑ u, Real.exp (s u - max m (tileMax s)) := rfl
theorem step_a (m l a : ℝ) (s w : κ → ℝ) :
    (step m l a s w).2.2
      = Real.exp (m - max m (tileMax s)) * a + ∑ u, Real.exp (s u - max m (tileMax s)) * w u := rfl

variable {T : ℕ}

/-- The state after the first `n` tiles, from `(m₀, 0, 0)`. -/
def online (m₀ : ℝ) (S W : Fin T → κ → ℝ) : (n : ℕ) → n ≤ T → ℝ × ℝ × ℝ
  | 0, _ => (m₀, 0, 0)
  | n + 1, h =>
    step (online m₀ S W n (Nat.le_of_succ_le h)).1 (online m₀ S W n (Nat.le_of_succ_le h)).2.1
      (online m₀ S W n (Nat.le_of_succ_le h)).2.2 (S ⟨n, Nat.lt_of_succ_le h⟩) (W ⟨n, Nat.lt_of_succ_le h⟩)

theorem online_zero (m₀ : ℝ) (S W : Fin T → κ → ℝ) (h : 0 ≤ T) : online m₀ S W 0 h = (m₀, 0, 0) := rfl

theorem online_succ (m₀ : ℝ) (S W : Fin T → κ → ℝ) (n : ℕ) (h : n + 1 ≤ T) :
    online m₀ S W (n + 1) h
      = step (online m₀ S W n (Nat.le_of_succ_le h)).1 (online m₀ S W n (Nat.le_of_succ_le h)).2.1
          (online m₀ S W n (Nat.le_of_succ_le h)).2.2 (S ⟨n, Nat.lt_of_succ_le h⟩) (W ⟨n, Nat.lt_of_succ_le h⟩) := rfl

/-- Moving the subtracted number from `m` to `m'` costs the factor `exp (m - m')`. -/
theorem exp_shift (x m m' : ℝ) : Real.exp (m - m') * Real.exp (x - m) = Real.exp (x - m') := by
  rw [← Real.exp_add]; congr 1; ring

/-- The running denominator is the sum, over the tiles taken so far, of `exp (score - running maximum)`. -/
theorem online_l (m₀ : ℝ) (S W : Fin T → κ → ℝ) (n : ℕ) (h : n ≤ T) :
    (online m₀ S W n h).2.1
      = ∑ t : Fin n, ∑ u, Real.exp (S (Fin.castLE h t) u - (online m₀ S W n h).1) := by
  induction n with
  | zero => simp [online]
  | succ n ih =>
    rw [online_succ, step_l, step_m, ih (Nat.le_of_succ_le h), Fin.sum_univ_castSucc, Finset.mul_sum]
    refine congrArg₂ (· + ·) (Finset.sum_congr rfl fun t _ => ?_) rfl
    rw [Finset.mul_sum]
    exact Finset.sum_congr rfl fun u _ => exp_shift _ _ _

/-- The running numerator is the same sum weighted by the values. -/
theorem online_a (m₀ : ℝ) (S W : Fin T → κ → ℝ) (n : ℕ) (h : n ≤ T) :
    (online m₀ S W n h).2.2
      = ∑ t : Fin n, ∑ u, Real.exp (S (Fin.castLE h t) u - (online m₀ S W n h).1) * W (Fin.castLE h t) u := by
  induction n with
  | zero => simp [online]
  | succ n ih =>
    rw [online_succ, step_a, step_m, ih (Nat.le_of_succ_le h), Fin.sum_univ_castSucc, Finset.mul_sum]
    refine congrArg₂ (· + ·) (Finset.sum_congr rfl fun t _ => ?_) rfl
    rw [Finset.mul_sum]
    exact Finset.sum_congr rfl fun u _ => by rw [← mul_assoc, exp_shift]; rfl

/-! ### The law -/

/-- Numerator over denominator does not depend on the number subtracted from the scores. -/
theorem ratio_shift (S W : Fin T → κ → ℝ) (m M : ℝ) :
    (∑ t, ∑ u, Real.exp (S t u - m) * W t u) / (∑ t, ∑ u, Real.exp (S t u - m))
      = (∑ t, ∑ u, Real.exp (S t u - M) * W t u) / (∑ t, ∑ u, Real.exp (S t u - M)) := by
  have hl : (∑ t, ∑ u, Real.exp (S t u - m)) = Real.exp (M - m) * ∑ t, ∑ u, Real.exp (S t u - M) := by
    rw [Finset.mul_sum]
    refine Finset.sum_congr rfl fun t _ => ?_
    rw [Finset.mul_sum]
    exact Finset.sum_congr rfl fun u _ => (exp_shift _ _ _).symm
  have ha : (∑ t, ∑ u, Real.exp (S t u - m) * W t u)
      = Real.exp (M - m) * ∑ t, ∑ u, Real.exp (S t u - M) * W t u := by
    rw [Finset.mul_sum]
    refine Finset.sum_congr rfl fun t _ => ?_
    rw [Finset.mul_sum]
    exact Finset.sum_congr rfl fun u _ => by rw [← mul_assoc, exp_shift]
  rw [hl, ha, mul_div_mul_left _ _ (Real.exp_ne_zero _)]

/-- The online-softmax recurrence over all `T` tiles, numerator over denominator, is the softmax-weighted
    mean of the values, the softmax taken with ANY real `M` subtracted from the scores (the true maximum, for
    one) and from any starting maximum `m₀`. -/
theorem online_eq_softmax (m₀ : ℝ) (S W : Fin T → κ → ℝ) (hT : 0 < T) (M : ℝ) :
    (online m₀ S W T le_rfl).2.2 / (online m₀ S W T le_rfl).2.1
      = ∑ t, ∑ u, (Real.exp (S t u - M) / ∑ t', ∑ u', Real.exp (S t' u' - M)) * W t u := by
  rw [online_a, online_l]
  simp only [Fin.castLE_refl]
  rw [ratio_shift S W _ M, Finset.sum_div]
  refine Finset.sum_congr rfl fun t _ => ?_
  rw [Finset.sum_div]
  exact Finset.sum_congr rfl fun u _ => by rw [div_mul_eq_mul_div]

/-! ### The denominators are positive -/

/-- A sum of exponentials over at least one tile is positive. -/
theorem sum_exp_pos (S : Fin T → κ → ℝ) (hT : 0 < T) (M : ℝ) : 0 < ∑ t, ∑ u, Real.exp (S t u - M) :=
  haveI : Nonempty (Fin T) := ⟨⟨0, hT⟩⟩
  Finset.sum_pos (fun _ _ => Finset.sum_pos (fun _ _ => Real.exp_pos _) Finset.univ_nonempty) Finset.univ_nonempty

/-- The running denominator is positive once a tile has been taken. -/
theorem online_l_pos (m₀ : ℝ) (S W : Fin T → κ → ℝ) (n : ℕ) (h : n ≤ T) (hn : 0 < n) :
    0 < (online m₀ S W n h).2.1 := by
  rw [online_l]
  exact sum_exp_pos (fun t => S (Fin.castLE h t)) hn _

/-! ### The keys in tiles -/

/-- Key `128 * t + u`: lane `u` of tile `t`, of 16 tiles of 128 keys. -/
def key (t : Fin 16) (u : Fin 128) : Fin 2048 := ⟨128 * t.val + u.val, by omega⟩

theorem key_val (t : Fin 16) (u : Fin 128) : (key t u).val = 128 * t.val + u.val := rfl

/-- The 2048 keys are the 16 tiles of 128 lanes. -/
def keyEquiv : Fin 16 × Fin 128 ≃ Fin 2048 where
  toFun p := key p.1 p.2
  invFun m := (⟨m.val / 128, by omega⟩, ⟨m.val % 128, Nat.mod_lt _ (by norm_num)⟩)
  left_inv p := by
    rcases p with ⟨t, u⟩
    refine Prod.ext (Fin.ext ?_) (Fin.ext ?_)
    · show (128 * t.val + u.val) / 128 = t.val
      omega
    · show (128 * t.val + u.val) % 128 = u.val
      omega
  right_inv m := by
    refine Fin.ext ?_
    show 128 * (m.val / 128) + m.val % 128 = m.val
    omega

/-- A sum over the keys is the sum over the tiles of the sums over the lanes. -/
theorem sum_key {A : Type*} [AddCommMonoid A] (f : Fin 2048 → A) :
    ∑ m, f m = ∑ t : Fin 16, ∑ u : Fin 128, f (key t u) :=
  (Fintype.sum_equiv keyEquiv (fun p => f (key p.1 p.2)) f fun _ => rfl).symm.trans
    (Fintype.sum_prod_type fun p : Fin 16 × Fin 128 => f (key p.1 p.2))

/-- The maximum over the keys is attained, so it is a real number above every key's value. -/
theorem le_keyMax (f : Fin 2048 → ℝ) (m : Fin 2048) : f m ≤ Finset.univ.sup' Finset.univ_nonempty f :=
  Finset.le_sup' f (Finset.mem_univ m)

/-! ### The scale -/

theorem sqrt_64 : Real.sqrt 64 = 8 := by
  rw [show (64 : ℝ) = 8 * 8 by norm_num, Real.sqrt_mul_self (by norm_num)]

/-- Dividing by `√64` is multiplying by `0.125`. -/
theorem eighth (x : ℝ) : x / Real.sqrt 64 = x * 0.125 := by
  rw [sqrt_64]; ring

end Cert.Attn

end
-- ==== Proof.Spec2.lean ====
/-
  The real-number law read at the extended reals.

  A program's float operations are, at the ideal values, the textbook operations of `EReal`. On
  entries that are (coerced) real numbers each of them is the coerced real operation: this module
  states that for every operation the attention programs use — exponential, difference, product,
  sum (binary and finite), maximum (binary and over a tile's lanes, folded from `-∞`), quotient by a
  nonzero real, square root of `64` — and for the float words the programs spell, so that one tile's
  update of (maximum, denominator, numerator) on coerced reals is the coerced `Cert.Attn.step`.
-/
import Idealize.ShloMosaic.PureOps.Ideal
import Idealize.ShloMosaic.PureOps.Ideal.Laws
import proofs.«144252_j90228672955012_2_alg».proof.Proof.Spec

noncomputable section

namespace Cert.Attn

open Idealize.ShloMosaic
open scoped BigOperators

/-! ### Operations on coerced reals -/

/-- The maximum of two coerced reals is the coerced maximum. -/
theorem coe_max (a b : ℝ) : ((max a b : ℝ) : EReal) = max (a : EReal) (b : EReal) :=
  Monotone.map_max fun _ _ h => EReal.coe_le_coe_iff.mpr h

/-- A finite sum of coerced reals is the coerced sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of coerced reals, the divisor not zero, is the coerced quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- `√64 = 8` at the extended reals. -/
theorem sqrt_coe_64 : Ideal.sqrt ((64 : ℝ) : EReal) = ((8 : ℝ) : EReal) := by
  rw [Ideal.sqrt_coe, if_neg (by norm_num), sqrt_64]

variable {κ : Type*} [Fintype κ] [Nonempty κ]

/-- A tile's maximum taken as a fold of `max` over the lanes from `-∞`, the lanes coerced reals, is the
    coerced `tileMax`. -/
theorem fold_max_bot_coe (s : κ → ℝ) :
    Finset.univ.fold max (⊥ : EReal) (fun u => ((s u : ℝ) : EReal)) = ((tileMax s : ℝ) : EReal) := by
  apply le_antisymm
  · exact (Finset.fold_max_le _).mpr ⟨bot_le, fun u _ => EReal.coe_le_coe_iff.mpr (le_tileMax s u)⟩
  · obtain ⟨u, hu⟩ := exists_eq_tileMax s
    exact (Finset.le_fold_max _).mpr (Or.inr ⟨u, Finset.mem_univ u, by rw [hu]⟩)

/-! ### One tile's update on coerced reals -/

/-- The new maximum: `max` of the carried one with the tile's fold from `-∞`. -/
theorem step_m_coe (m l a : ℝ) (s w : κ → ℝ) :
    max (m : EReal) (Finset.univ.fold max (⊥ : EReal) (fun u => ((s u : ℝ) : EReal)))
      = (((step m l a s w).1 : ℝ) : EReal) := by
  rw [fold_max_bot_coe, ← coe_max, step_m]

/-- The new denominator. -/
theorem step_l_coe (m l a : ℝ) (s w : κ → ℝ) :
    Ideal.exp ((m : EReal) - (((step m l a s w).1 : ℝ) : EReal)) * (l : EReal)
        + ∑ u, Ideal.exp (((s u : ℝ) : EReal) - (((step m l a s w).1 : ℝ) : EReal))
      = (((step m l a s w).2.1 : ℝ) : EReal) := by
  simp only [← EReal.coe_sub, Ideal.exp_coe, ← EReal.coe_mul, ← coe_finset_sum, ← EReal.coe_add]
  rfl

/-- The new numerator. -/
theorem step_a_coe (m l a : ℝ) (s w : κ → ℝ) :
    Ideal.exp ((m : EReal) - (((step m l a s w).1 : ℝ) : EReal)) * (a : EReal)
        + ∑ u, Ideal.exp (((s u : ℝ) : EReal) - (((step m l a s w).1 : ℝ) : EReal)) * ((w u : ℝ) : EReal)
      = (((step m l a s w).2.2 : ℝ) : EReal) := by
  simp only [← EReal.coe_sub, Ideal.exp_coe, ← EReal.coe_mul, ← coe_finset_sum, ← EReal.coe_add]
  rfl

/-! ### The float words the programs spell -/

/-- `0.125`, the kernel's folded scale `1 / √64`. -/
theorem ofBits_eighth : Ideal.ofBits .f32 0x3E000000#32 = ((0.125 : ℝ) : EReal) := by
  simp [Ideal.ofBits, Ideal.ieee, -EReal.coe_mul]; norm_num

/-- `64.0`, whose square root the reference divides by. -/
theorem ofBits_64 : Ideal.ofBits .f32 0x42800000#32 = ((64 : ℝ) : EReal) := by
  simp [Ideal.ofBits, Ideal.ieee, -EReal.coe_mul]; norm_num

/-- The real number the kernel starts its running maximum from (`-1e30` rounded to f32: `-13234890 · 2^76`). -/
def negInit : ℝ := -(13234890 * 2 ^ 76)

theorem ofBits_negInit : Ideal.ofBits .f32 0xF149F2CA#32 = ((negInit : ℝ) : EReal) := by
  simp [Ideal.ofBits, Ideal.ieee, -EReal.coe_mul, negInit]

/-- `+0.0`. -/
theorem ofBits_zero : Ideal.ofBits .f32 0x00000000#32 = ((0 : ℝ) : EReal) := by
  simp [Ideal.ofBits, Ideal.ieee]

/-- `-∞`, what a lane maximum is folded from. -/
theorem ofBits_neg_inf : Ideal.ofBits .f32 0xFF800000#32 = ⊥ := by
  simp [Ideal.ofBits, Ideal.ieee]

/-- `+∞`, the bound of the finiteness precondition. -/
theorem ofBits_pos_inf : Ideal.ofBits .f32 0x7F800000#32 = ⊤ := by
  simp [Ideal.ofBits, Ideal.ieee]

/-- The two spellings of the scale meet: dividing by `√64.0` is multiplying by `0.125`, at every extended real. -/
theorem div_sqrt_64_eq_mul_eighth (x : EReal) :
    Ideal.div x (Ideal.sqrt (Ideal.ofBits .f32 0x42800000#32)) = x * Ideal.ofBits .f32 0x3E000000#32 := by
  rw [ofBits_64, sqrt_coe_64, Ideal.div_coe (by norm_num), ofBits_eighth]
  norm_num

end Cert.Attn

end
-- ==== Proof.KI.StepCore.lean ====
/-
  One tile's update and the final normalisation, on entries that are real numbers.

  The scaled scores of a query row against a tile's 128 keys, the new running maximum, the rescaled running
  denominator and numerator, read as expressions of the extended reals in entries that are coerced reals, are
  the coerced components of `Cert.Attn.step`; the reset values are coerced reals; and the epilogue's quotient
  (numerator over a nonzero denominator) against the output weight plus the bias is a coerced real.
-/
import proofs.«144252_j90228672955012_2_alg».proof.Proof.Gen.KernelIdeal.Skeleton
import proofs.«144252_j90228672955012_2_alg».proof.Proof.Spec2
import Idealize.ShloMosaic.Lib.ValueIdx

noncomputable section

namespace Cert.KernelIdeal.StepLift

open Idealize.ShloMosaic Idealize.ShloMosaic.ValueIdx
open Cert.KernelIdeal Cert.KernelIdeal.Gen
open Cert.Attn
open scoped BigOperators

/-! ### The expressions, over the extended reals -/

section Core
variable (mr lr ar : ℝ) (s w : Fin 128 → ℝ)

/-- The scaled score of one key: the 64-lane dot product of coerced reals times the word `0.125`. -/
theorem score_coe (x y : Fin 64 → ℝ) :
    (∑ e : Fin 64, ((x e : ℝ) : EReal) * ((y e : ℝ) : EReal)) * Ideal.ofBits .f32 0x3E000000#32
      = (((∑ e : Fin 64, x e * y e) * 0.125 : ℝ) : EReal) := by
  rw [ofBits_eighth]
  simp only [← EReal.coe_mul, ← coe_finset_sum]

/-- The new maximum: the carried one against the fold of `max` over the tile's scores from the word `-∞`. -/
theorem max_coe :
    max ((mr : ℝ) : EReal) (Finset.univ.fold max (Ideal.ofBits .f32 0xFF800000#32) fun u : Fin 128 => ((s u : ℝ) : EReal))
      = (((step mr lr ar s w).1 : ℝ) : EReal) := by
  rw [ofBits_neg_inf]
  exact step_m_coe mr lr ar s w

/-- The new denominator. -/
theorem den_coe :
    Ideal.exp (((mr : ℝ) : EReal) - (((step mr lr ar s w).1 : ℝ) : EReal)) * ((lr : ℝ) : EReal)
        + ∑ u : Fin 128, Ideal.exp (((s u : ℝ) : EReal) - (((step mr lr ar s w).1 : ℝ) : EReal))
      = (((step mr lr ar s w).2.1 : ℝ) : EReal) :=
  step_l_coe mr lr ar s w

/-- The new numerator. -/
theorem num_coe :
    Ideal.exp (((mr : ℝ) : EReal) - (((step mr lr ar s w).1 : ℝ) : EReal)) * ((ar : ℝ) : EReal)
        + ∑ u : Fin 128, Ideal.exp (((s u : ℝ) : EReal) - (((step mr lr ar s w).1 : ℝ) : EReal)) * ((w u : ℝ) : EReal)
      = (((step mr lr ar s w).2.2 : ℝ) : EReal) :=
  step_a_coe mr lr ar s w

end Core

/-- The epilogue: each attended lane over its row's nonzero denominator, against the output weight, plus the bias. -/
theorem epilogue_coe (x : Fin 768 → ℝ) (y : Fin 768 → ℝ) (hy : ∀ c, y c ≠ 0) (p : Fin 768 → ℝ) (b : ℝ) :
    (∑ c : Fin 768, Ideal.div ((x c : ℝ) : EReal) ((y c : ℝ) : EReal) * ((p c : ℝ) : EReal)) + ((b : ℝ) : EReal)
      = (((∑ c : Fin 768, x c / y c * p c) + b : ℝ) : EReal) := by
  have h : ∀ c : Fin 768, Ideal.div ((x c : ℝ) : EReal) ((y c : ℝ) : EReal) * ((p c : ℝ) : EReal)
      = ((x c / y c * p c : ℝ) : EReal) := fun c => by rw [div_coe_coe _ (hy c), ← EReal.coe_mul]
  simp only [h, ← coe_finset_sum, ← EReal.coe_add]

end Cert.KernelIdeal.StepLift

end
-- ==== Proof.KI.Pay1.lean ====
/-
  The pure values the attention body computes from its loads, read at one index, at the extended reals.

  A block row of 768 columns is twelve heads of 64 lanes. For a query block `q`, a key block `k`, and the running
  maximum `m0` carried from the earlier key blocks, this module reads, at a head `h`, a query row `r` and a key row `u`:
  the scaled score `sE`, the new running maximum `mE`, the rescaling factor of the old sums, the unnormalised weights
  and their lane sum — each as a closed formula over coordinates. Every layout operation on the way (splitting a row
  into heads, swapping the first two axes, adding a unit axis, broadcasting a column) is read at an index by one
  small lemma; the batched product is read as a sum over the head's lanes.
-/
import proofs.«144252_j90228672955012_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PayRead

open Idealize.ShloMosaic Idealize.ShloMosaic.ValueIdx
open Cert.KernelIdeal Cert.KernelIdeal.Gen
open scoped BigOperators

/-! ## Layout operations at an index written by coordinates

A row of 768 columns is twelve heads of 64 lanes: column `64 * h + e` is lane `e` of head `h`. -/

section Layout
variable {α : Type}

/-- The column of lane `e` of head `h` in a row of 768. -/
abbrev col (h : Fin 12) (e : Fin 64) : Fin 768 := ⟨h.val * 64 + e.val, by omega⟩

/-- An `[n, 768]` array viewed `[n, 12, 64]` reads, at `(r, h, e)`, the operand at `(r, 64 h + e)`. -/
theorem shapeCast_split_apply {n : ℕ} (x : (⟨2, ![n, 768]⟩ : Shape).Idx → α)
    (hc : (⟨2, ![n, 768]⟩ : Shape).ShapeCasts ⟨3, ![n, 12, 64]⟩) (r : Fin n) (h : Fin 12) (e : Fin 64) :
    shapeCast ⟨3, ![n, 12, 64]⟩ x hc (ix3 r h e) = x (ix2 r (col h e)) :=
  shapeCast_apply x hc _ _ (by
    rw [Shape.rowMajor_val_two, Shape.rowMajor_val_three]
    show r.val * 768 + (h.val * 64 + e.val) = (r.val * 12 + h.val) * 64 + e.val
    omega)

/-- An `[n, 12, 64]` array viewed `[n, 768]` reads, at `(r, c)`, the operand at `(r, c / 64, c % 64)`. -/
theorem shapeCast_merge_apply {n : ℕ} (x : (⟨3, ![n, 12, 64]⟩ : Shape).Idx → α)
    (hc : (⟨3, ![n, 12, 64]⟩ : Shape).ShapeCasts ⟨2, ![n, 768]⟩) (r : Fin n) (c : Fin 768) :
    shapeCast ⟨2, ![n, 768]⟩ x hc (ix2 r c)
      = x (ix3 r (⟨c.val / 64, by omega⟩ : Fin 12) (⟨c.val % 64, by omega⟩ : Fin 64)) :=
  shapeCast_apply x hc _ _ (by
    rw [Shape.rowMajor_val_two, Shape.rowMajor_val_three]
    show (r.val * 12 + c.val / 64) * 64 + c.val % 64 = r.val * 768 + c.val
    omega)

/-- The permutation `[1, 0, 2]` swaps the first two axes: at `(j, i, e)` it reads the operand at `(i, j, e)`. -/
theorem transpose_ix3_102_apply {a b c : ℕ} (x : (⟨3, ![a, b, c]⟩ : Shape).Idx → α)
    (ht : (⟨3, ![a, b, c]⟩ : Shape).Transposes [1, 0, 2] ⟨3, ![b, a, c]⟩) (j : Fin b) (i : Fin a) (e : Fin c) :
    transpose ⟨3, ![b, a, c]⟩ [1, 0, 2] x ht (ix3 j i e) = x (ix3 i j e) :=
  transpose_apply _ x ht _ _ fun d => match d with | ⟨0, _⟩ => rfl | ⟨1, _⟩ => rfl | ⟨2, _⟩ => rfl

/-- An `[a, b]` array given a trailing unit axis reads, at `(i, j, u)`, the operand at `(i, j)`. -/
theorem shapeCast_ab_ab1_apply {a b : ℕ} (x : (⟨2, ![a, b]⟩ : Shape).Idx → α)
    (hc : (⟨2, ![a, b]⟩ : Shape).ShapeCasts ⟨3, ![a, b, 1]⟩) (i : Fin a) (j : Fin b) (u : Fin 1) :
    shapeCast ⟨3, ![a, b, 1]⟩ x hc (ix3 i j u) = x (ix2 i j) :=
  shapeCast_apply x hc _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` column broadcast along its last axis reads, at `(i, j, k)`, the operand at `(i, j, 0)`. -/
theorem broadcastTo_ab1_abc_apply {a b c : ℕ} (x : (⟨3, ![a, b, 1]⟩ : Shape).Idx → α)
    (hb : (⟨3, ![a, b, 1]⟩ : Shape).Broadcasts ⟨3, ![a, b, c]⟩) (i : Fin a) (j : Fin b) (k : Fin c) :
    broadcastTo ⟨3, ![a, b, c]⟩ x hb (ix3 i j k) = x (ix3 i j (0 : Fin 1)) := by
  refine broadcastTo_apply x hb (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if 1 = 1 then 0 else k.val
    rfl

end Layout

/-! ## The scores: `q kᵀ` per head, scaled -/

/-! The operand indices of the score product, axis by axis. -/
theorem qk_lhs_0 (i : S12x512x128.Idx) (q : dot_S12x512x64_S12x128x64_S12x512x128_2_2_1_1_0_0.contr.Idx) :
    (dot_S12x512x64_S12x128x64_S12x512x128_2_2_1_1_0_0.lhsIdx i q 0).val = (i 0).val := by
  unfold DotDims.lhsIdx
  rw [dif_pos (show (0 : Fin S12x512x64.rank) ∈ dot_S12x512x64_S12x128x64_S12x512x128_2_2_1_1_0_0.lhsBatch by decide)]
  rfl
theorem qk_lhs_1 (i : S12x512x128.Idx) (q : dot_S12x512x64_S12x128x64_S12x512x128_2_2_1_1_0_0.contr.Idx) :
    (dot_S12x512x64_S12x128x64_S12x512x128_2_2_1_1_0_0.lhsIdx i q 1).val = (i 1).val := by
  unfold DotDims.lhsIdx
  rw [dif_neg (show ¬(1 : Fin S12x512x64.rank) ∈ dot_S12x512x64_S12x128x64_S12x512x128_2_2_1_1_0_0.lhsBatch by decide), dif_pos (show (1 : Fin S12x512x64.rank) ∈ dot_S12x512x64_S12x128x64_S12x512x128_2_2_1_1_0_0.lhsNonContracting by decide)]
  rfl
theorem qk_lhs_2 (i : S12x512x128.Idx) (q : dot_S12x512x64_S12x128x64_S12x512x128_2_2_1_1_0_0.contr.Idx) :
    (dot_S12x512x64_S12x128x64_S12x512x128_2_2_1_1_0_0.lhsIdx i q 2).val = (q ⟨0, by decide⟩).val :=
  dot_S12x512x64_S12x128x64_S12x512x128_2_2_1_1_0_0.lhsIdx_val_of_single rfl i q
theorem qk_rhs_0 (i : S12x512x128.Idx) (q : dot_S12x512x64_S12x128x64_S12x512x128_2_2_1_1_0_0.contr.Idx) :
    (dot_S12x512x64_S12x128x64_S12x512x128_2_2_1_1_0_0.rhsIdx i q 0).val = (i 0).val := by
  unfold DotDims.rhsIdx
  rw [dif_pos (show (0 : Fin S12x128x64.rank) ∈ dot_S12x512x64_S12x128x64_S12x512x128_2_2_1_1_0_0.rhsBatch by decide)]
  rfl
theorem qk_rhs_1 (i : S12x512x128.Idx) (q : dot_S12x512x64_S12x128x64_S12x512x128_2_2_1_1_0_0.contr.Idx) :
    (dot_S12x512x64_S12x128x64_S12x512x128_2_2_1_1_0_0.rhsIdx i q 1).val = (i 2).val := by
  unfold DotDims.rhsIdx
  rw [dif_neg (show ¬(1 : Fin S12x128x64.rank) ∈ dot_S12x512x64_S12x128x64_S12x512x128_2_2_1_1_0_0.rhsBatch by decide), dif_pos (show (1 : Fin S12x128x64.rank) ∈ dot_S12x512x64_S12x128x64_S12x512x128_2_2_1_1_0_0.rhsNonContracting by decide)]
  rfl
theorem qk_rhs_2 (i : S12x512x128.Idx) (q : dot_S12x512x64_S12x128x64_S12x512x128_2_2_1_1_0_0.contr.Idx) :
    (dot_S12x512x64_S12x128x64_S12x512x128_2_2_1_1_0_0.rhsIdx i q 2).val = (q ⟨0, by decide⟩).val :=
  dot_S12x512x64_S12x128x64_S12x512x128_2_2_1_1_0_0.rhsIdx_val_of_single rfl i q

/-- The batched product contracting the last axis of both operands, into the zero accumulator: at `(h, r, u)` the sum
over the 64 lanes of head `h` of row `r` of the left operand times row `u` of the right. -/
theorem matmul_qk_apply (a : FVec Ideal S12x512x64 .bf16) (b : FVec Ideal S12x128x64 .bf16) (h : Fin 12) (r : Fin 512) (u : Fin 128) :
    matmul dot_S12x512x64_S12x128x64_S12x512x128_2_2_1_1_0_0 none a b (constant (F := Ideal) S12x512x128 .f32 0x00000000#32) (ix3 h r u)
      = ∑ k : Fin 64, a (ix3 h r k) * b (ix3 h u k) := by
  simp only [matmul]
  rw [Ideal.matmul_constant_zero_apply, ← Equiv.sum_comp (contrEquiv1 dot_S12x512x64_S12x128x64_S12x512x128_2_2_1_1_0_0 64 rfl rfl).symm]
  refine Finset.sum_congr rfl fun k _ => ?_
  have hk := contrEquiv1_symm_val dot_S12x512x64_S12x128x64_S12x512x128_2_2_1_1_0_0 64 rfl rfl k
  have el : dot_S12x512x64_S12x128x64_S12x512x128_2_2_1_1_0_0.lhsIdx (ix3 h r u) ((contrEquiv1 dot_S12x512x64_S12x128x64_S12x512x128_2_2_1_1_0_0 64 rfl rfl).symm k) = ix3 h r k :=
    funext fun ax => Fin.ext (by
      match ax with
      | ⟨0, _⟩ => exact qk_lhs_0 _ _
      | ⟨1, _⟩ => exact qk_lhs_1 _ _
      | ⟨2, _⟩ => exact (qk_lhs_2 _ _).trans hk)
  have er : dot_S12x512x64_S12x128x64_S12x512x128_2_2_1_1_0_0.rhsIdx (ix3 h r u) ((contrEquiv1 dot_S12x512x64_S12x128x64_S12x512x128_2_2_1_1_0_0 64 rfl rfl).symm k) = ix3 h u k :=
    funext fun ax => Fin.ext (by
      match ax with
      | ⟨0, _⟩ => exact qk_rhs_0 _ _
      | ⟨1, _⟩ => exact qk_rhs_1 _ _
      | ⟨2, _⟩ => exact (qk_rhs_2 _ _).trans hk)
  rw [el, er]

/-- A `[1, n, 768]` block split into heads, `[12, n, 64]`: at `(h, r, e)` it is the block at `(0, r, 64 h + e)`. -/
theorem heads_apply_512 (x : FVec Ideal S1x512x768 .bf16) (h : Fin 12) (r : Fin 512) (e : Fin 64) :
    transpose S12x512x64 [1, 0, 2]
        (shapeCast S512x12x64 (shapeCast S512x768 x shapeCasts_S1x512x768_S512x768) shapeCasts_S512x768_S512x12x64)
        transposes_S512x12x64_p1_0_2_S12x512x64 (ix3 h r e)
      = x (ix3 (0 : Fin 1) r (col h e)) :=
  (transpose_ix3_102_apply _ _ h r e).trans
    ((shapeCast_split_apply _ _ r h e).trans (shapeCast_1ab_ab_apply x _ r (col h e)))

theorem heads_apply_128 (x : FVec Ideal S1x128x768 .bf16) (h : Fin 12) (u : Fin 128) (e : Fin 64) :
    transpose S12x128x64 [1, 0, 2]
        (shapeCast S128x12x64 (shapeCast S128x768 x shapeCasts_S1x128x768_S128x768) shapeCasts_S128x768_S128x12x64)
        transposes_S128x12x64_p1_0_2_S12x128x64 (ix3 h u e)
      = x (ix3 (0 : Fin 1) u (col h e)) :=
  (transpose_ix3_102_apply _ _ h u e).trans
    ((shapeCast_split_apply _ _ u h e).trans (shapeCast_1ab_ab_apply x _ u (col h e)))

/-- The score of query row `r` against key row `u` in head `h`: the dot product over the head's 64 lanes, times the
scale word (`1/8`). -/
def sE (q : Vec Ideal S1x512x768 .bf16) (k : Vec Ideal S1x128x768 .bf16) (h : Fin 12) (r : Fin 512) (u : Fin 128) : EReal :=
  (∑ e : Fin 64, q (ix3 (0 : Fin 1) r (col h e)) * k (ix3 (0 : Fin 1) u (col h e))) * Ideal.ofBits .f32 0x3E000000#32

theorem k1_pay9_apply (q : Vec Ideal S1x512x768 .bf16) (k : Vec Ideal S1x128x768 .bf16) (h : Fin 12) (r : Fin 512) (u : Fin 128) :
    k1_pay9 (F := Ideal) q k (ix3 h r u) = sE q k h r u := by
  unfold k1_pay9 sE
  refine (mulf_apply _ _ _).trans ?_
  refine congrArg₂ (· * ·) ((matmul_qk_apply _ _ h r u).trans (Finset.sum_congr rfl fun e _ => ?_)) rfl
  exact congrArg₂ (· * ·) (heads_apply_512 q h r e) (heads_apply_128 k h u e)

/-! ## Lane reductions of a `[12, 512, 128]` array along its last axis, and the running maximum and weights -/

/-- The exponential at an index. -/
theorem exp_apply {s : Shape} {φ : FTy} (a : FVec Ideal s φ) (i : s.Idx) : exp a i = Ideal.exp (a i) := rfl

/-- The lane maximum, from the accumulator word (`-∞`), of row `(h, r)`. -/
theorem rowMax_apply (src : FVec Ideal S12x512x128 .f32) (hr : S12x512x128.Reduces [2] S12x512) (h : Fin 12) (r : Fin 512) :
    multiReduction (F := Ideal) .maximumf [2] S12x512 src 0xFF800000#32 hr (.inl rfl) rfl (ix2 h r)
      = (Finset.univ : Finset (Fin 128)).fold max (Ideal.ofBits .f32 0xFF800000#32) (fun u => src (ix3 h r u)) := by
  refine (Ideal.multiReduction_maximumf_single src _ hr _ _ (ix2 h r)).trans ?_
  have e : (src ∘ hr.lift (ix2 h r)) = fun u : Fin 128 => src (ix3 h r u) :=
    funext fun u => congrArg src (funext fun a => Fin.ext (by
      match a with
      | ⟨0, _⟩ => rfl
      | ⟨1, _⟩ => rfl
      | ⟨2, _⟩ => rfl))
  exact congrArg (fun f : Fin 128 → EReal => (Finset.univ : Finset (Fin 128)).fold max (Ideal.ofBits .f32 0xFF800000#32) f) e

/-- The lane sum of row `(h, r)`. -/
theorem rowSum_apply (src : FVec Ideal S12x512x128 .f32) (hr : S12x512x128.Reduces [2] S12x512) (h : Fin 12) (r : Fin 512) :
    multiReduction (F := Ideal) .add [2] S12x512 src 0x00000000#32 hr (.inl rfl) rfl (ix2 h r)
      = ∑ u : Fin 128, src (ix3 h r u) := by
  refine (Ideal.multiReduction_add_single src _ hr _ _ (ix2 h r)).trans ?_
  refine Finset.sum_congr rfl fun u _ => congrArg src (funext fun a => Fin.ext ?_)
  match a with
  | ⟨0, _⟩ => rfl
  | ⟨1, _⟩ => rfl
  | ⟨2, _⟩ => rfl

/-- The new running maximum of row `(h, r)`: the old one against the lane maximum of this block's scores. -/
def mE (q : Vec Ideal S1x512x768 .bf16) (k : Vec Ideal S1x128x768 .bf16) (m0 : Vec Ideal S12x512x1 .f32)
    (h : Fin 12) (r : Fin 512) : EReal :=
  max (m0 (ix3 h r (0 : Fin 1)))
    ((Finset.univ : Finset (Fin 128)).fold max (Ideal.ofBits .f32 0xFF800000#32) (fun u => sE q k h r u))

theorem k1_pay10_apply (q : Vec Ideal S1x512x768 .bf16) (k : Vec Ideal S1x128x768 .bf16) (m0 : Vec Ideal S12x512x1 .f32)
    (h : Fin 12) (r : Fin 512) :
    k1_pay10 (F := Ideal) q k m0 (ix3 h r (0 : Fin 1)) = mE q k m0 h r := by
  unfold k1_pay10 mE
  refine (maximumf_apply _ _ _).trans (congrArg (max _) ?_)
  refine (shapeCast_ab_ab1_apply _ _ h r 0).trans ?_
  refine (rowMax_apply _ _ h r).trans ?_
  exact congrArg (fun f : Fin 128 → EReal => (Finset.univ : Finset (Fin 128)).fold max (Ideal.ofBits .f32 0xFF800000#32) f)
    (funext fun u => k1_pay9_apply q k h r u)

/-- The stored running maximum is the computed one: a cast to the same shape. -/
theorem k1_pay3_eq (x : FVec Ideal S12x512x1 .f32) : k1_pay3 (F := Ideal) x = x := by
  unfold k1_pay3
  exact shapeCast_self _ _

/-- The rescaling factor of the old sums: `e` to the old maximum minus the new one. -/
theorem k1_pay11_apply (q : Vec Ideal S1x512x768 .bf16) (k : Vec Ideal S1x128x768 .bf16) (m0 m1 : Vec Ideal S12x512x1 .f32)
    (h : Fin 12) (r : Fin 512) :
    k1_pay11 (F := Ideal) q k m0 m1 (ix3 h r (0 : Fin 1))
      = Ideal.exp (m1 (ix3 h r (0 : Fin 1)) - mE q k m0 h r) := by
  unfold k1_pay11
  refine (exp_apply _ _).trans (congrArg Ideal.exp ?_)
  exact (subf_apply _ _ _).trans (congrArg (_ - ·) (k1_pay10_apply q k m0 h r))

/-- The unnormalised weights: `e` to the score minus the new running maximum. -/
theorem k1_pay12_apply (q : Vec Ideal S1x512x768 .bf16) (k : Vec Ideal S1x128x768 .bf16) (m0 : Vec Ideal S12x512x1 .f32)
    (h : Fin 12) (r : Fin 512) (u : Fin 128) :
    k1_pay12 (F := Ideal) q k m0 (ix3 h r u) = Ideal.exp (sE q k h r u - mE q k m0 h r) := by
  unfold k1_pay12
  refine (exp_apply _ _).trans (congrArg Ideal.exp ?_)
  refine (subf_apply _ _ _).trans ?_
  exact congrArg₂ (· - ·) (k1_pay9_apply q k h r u)
    ((broadcastTo_ab1_abc_apply _ _ h r u).trans (k1_pay10_apply q k m0 h r))

theorem k1_pay13_apply (q : Vec Ideal S1x512x768 .bf16) (k : Vec Ideal S1x128x768 .bf16) (m0 m1 l0 : Vec Ideal S12x512x1 .f32)
    (h : Fin 12) (r : Fin 512) :
    k1_pay13 (F := Ideal) q k m0 m1 l0 (ix3 h r (0 : Fin 1))
      = Ideal.exp (m1 (ix3 h r (0 : Fin 1)) - mE q k m0 h r) * l0 (ix3 h r (0 : Fin 1)) := by
  unfold k1_pay13
  exact (mulf_apply _ _ _).trans (congrArg (· * _) (k1_pay11_apply q k m0 m1 h r))

theorem k1_pay14_apply (q : Vec Ideal S1x512x768 .bf16) (k : Vec Ideal S1x128x768 .bf16) (m0 : Vec Ideal S12x512x1 .f32)
    (h : Fin 12) (r : Fin 512) :
    k1_pay14 (F := Ideal) q k m0 (ix3 h r (0 : Fin 1))
      = ∑ u : Fin 128, Ideal.exp (sE q k h r u - mE q k m0 h r) := by
  unfold k1_pay14
  refine (shapeCast_ab_ab1_apply _ _ h r 0).trans ?_
  refine (rowSum_apply _ _ h r).trans ?_
  exact Finset.sum_congr rfl fun u _ => k1_pay12_apply q k m0 h r u

theorem k1_pay1_apply (x y : FVec Ideal S12x512x1 .f32) (i : S12x512x1.Idx) :
    k1_pay1 (F := Ideal) x y i = x i + y i := by
  unfold k1_pay1
  exact (congrFun (shapeCast_self _ _) i).trans (addf_apply x y i)

/-- The three reset values: `-1e30` for the maximum, zero for the sum and for the accumulator. -/
theorem k1_pay5_apply (i : S12x512x1.Idx) : k1_pay5 (F := Ideal) i = Ideal.ofBits .f32 0xF149F2CA#32 := by
  unfold k1_pay5
  exact congrFun (shapeCast_self _ _) i

theorem k1_pay6_apply (i : S12x512x1.Idx) : k1_pay6 (F := Ideal) i = Ideal.ofBits .f32 0x00000000#32 := by
  unfold k1_pay6
  exact congrFun (shapeCast_self _ _) i

theorem k1_pay7_apply (i : S12x512x64.Idx) : k1_pay7 (F := Ideal) i = Ideal.ofBits .f32 0x00000000#32 := by
  unfold k1_pay7
  exact congrFun (shapeCast_self _ _) i

end Cert.KernelIdeal.PayRead

end
-- ==== Proof.KI.Pay1b.lean ====
/-
  The attention body's remaining pure values read at one index, at the extended reals: the value block split into
  heads, one step of the accumulator (the old entry rescaled plus the weights against the value rows), and the output
  block (the accumulator normalised by the sum of weights, its heads merged back into a row of 768 columns, through
  the projection matrix, plus the bias). The two matrix products are read as sums over their one contracted axis.
-/
import proofs.«144252_j90228672955012_2_alg».proof.Proof.Gen.KernelIdeal.Skeleton
import proofs.«144252_j90228672955012_2_alg».proof.Proof.KI.Pay1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PayRead

open Idealize.ShloMosaic Idealize.ShloMosaic.ValueIdx
open Cert.KernelIdeal Cert.KernelIdeal.Gen
open scoped BigOperators

/-! ## The value block by heads, and one step of the accumulator -/

/-- The value block split into heads: at `(h, u, e)` it is the block at `(0, u, 64 h + e)`. -/
theorem k1_pay8_apply (v : Vec Ideal S1x128x768 .bf16) (h : Fin 12) (u : Fin 128) (e : Fin 64) :
    k1_pay8 (F := Ideal) v (ix3 h u e) = v (ix3 (0 : Fin 1) u (col h e)) := by
  unfold k1_pay8
  exact heads_apply_128 v h u e

/-! The operand indices of the weights-times-values product, axis by axis. -/
theorem pv_lhs_0 (i : S12x512x64.Idx) (q : dot_S12x512x128_S12x128x64_S12x512x64_2_1_1_2_0_0.contr.Idx) :
    (dot_S12x512x128_S12x128x64_S12x512x64_2_1_1_2_0_0.lhsIdx i q 0).val = (i 0).val := by
  unfold DotDims.lhsIdx
  rw [dif_pos (show (0 : Fin S12x512x128.rank) ∈ dot_S12x512x128_S12x128x64_S12x512x64_2_1_1_2_0_0.lhsBatch by decide)]
  rfl
theorem pv_lhs_1 (i : S12x512x64.Idx) (q : dot_S12x512x128_S12x128x64_S12x512x64_2_1_1_2_0_0.contr.Idx) :
    (dot_S12x512x128_S12x128x64_S12x512x64_2_1_1_2_0_0.lhsIdx i q 1).val = (i 1).val := by
  unfold DotDims.lhsIdx
  rw [dif_neg (show ¬(1 : Fin S12x512x128.rank) ∈ dot_S12x512x128_S12x128x64_S12x512x64_2_1_1_2_0_0.lhsBatch by decide), dif_pos (show (1 : Fin S12x512x128.rank) ∈ dot_S12x512x128_S12x128x64_S12x512x64_2_1_1_2_0_0.lhsNonContracting by decide)]
  rfl
theorem pv_lhs_2 (i : S12x512x64.Idx) (q : dot_S12x512x128_S12x128x64_S12x512x64_2_1_1_2_0_0.contr.Idx) :
    (dot_S12x512x128_S12x128x64_S12x512x64_2_1_1_2_0_0.lhsIdx i q 2).val = (q ⟨0, by decide⟩).val :=
  dot_S12x512x128_S12x128x64_S12x512x64_2_1_1_2_0_0.lhsIdx_val_of_single rfl i q
theorem pv_rhs_0 (i : S12x512x64.Idx) (q : dot_S12x512x128_S12x128x64_S12x512x64_2_1_1_2_0_0.contr.Idx) :
    (dot_S12x512x128_S12x128x64_S12x512x64_2_1_1_2_0_0.rhsIdx i q 0).val = (i 0).val := by
  unfold DotDims.rhsIdx
  rw [dif_pos (show (0 : Fin S12x128x64.rank) ∈ dot_S12x512x128_S12x128x64_S12x512x64_2_1_1_2_0_0.rhsBatch by decide)]
  rfl
theorem pv_rhs_1 (i : S12x512x64.Idx) (q : dot_S12x512x128_S12x128x64_S12x512x64_2_1_1_2_0_0.contr.Idx) :
    (dot_S12x512x128_S12x128x64_S12x512x64_2_1_1_2_0_0.rhsIdx i q 1).val = (q ⟨0, by decide⟩).val :=
  dot_S12x512x128_S12x128x64_S12x512x64_2_1_1_2_0_0.rhsIdx_val_of_single rfl i q
theorem pv_rhs_2 (i : S12x512x64.Idx) (q : dot_S12x512x128_S12x128x64_S12x512x64_2_1_1_2_0_0.contr.Idx) :
    (dot_S12x512x128_S12x128x64_S12x512x64_2_1_1_2_0_0.rhsIdx i q 2).val = (i 2).val := by
  unfold DotDims.rhsIdx
  rw [dif_neg (show ¬(2 : Fin S12x128x64.rank) ∈ dot_S12x512x128_S12x128x64_S12x512x64_2_1_1_2_0_0.rhsBatch by decide), dif_pos (show (2 : Fin S12x128x64.rank) ∈ dot_S12x512x128_S12x128x64_S12x512x64_2_1_1_2_0_0.rhsNonContracting by decide)]
  rfl

/-- The batched product of weights and values, into the zero accumulator: at `(h, r, e)` the sum over the 128 key rows
of the weight of row `r` against key row `k` times lane `e` of value row `k`, in head `h`. -/
theorem matmul_pv_apply (a : FVec Ideal S12x512x128 .bf16) (b : FVec Ideal S12x128x64 .bf16) (h : Fin 12) (r : Fin 512) (e : Fin 64) :
    matmul dot_S12x512x128_S12x128x64_S12x512x64_2_1_1_2_0_0 none a b (constant (F := Ideal) S12x512x64 .f32 0x00000000#32) (ix3 h r e)
      = ∑ k : Fin 128, a (ix3 h r k) * b (ix3 h k e) := by
  simp only [matmul]
  rw [Ideal.matmul_constant_zero_apply, ← Equiv.sum_comp (contrEquiv1 dot_S12x512x128_S12x128x64_S12x512x64_2_1_1_2_0_0 128 rfl rfl).symm]
  refine Finset.sum_congr rfl fun k _ => ?_
  have hk := contrEquiv1_symm_val dot_S12x512x128_S12x128x64_S12x512x64_2_1_1_2_0_0 128 rfl rfl k
  have el : dot_S12x512x128_S12x128x64_S12x512x64_2_1_1_2_0_0.lhsIdx (ix3 h r e) ((contrEquiv1 dot_S12x512x128_S12x128x64_S12x512x64_2_1_1_2_0_0 128 rfl rfl).symm k) = ix3 h r k :=
    funext fun ax => Fin.ext (by
      match ax with
      | ⟨0, _⟩ => exact pv_lhs_0 _ _
      | ⟨1, _⟩ => exact pv_lhs_1 _ _
      | ⟨2, _⟩ => exact (pv_lhs_2 _ _).trans hk)
  have er : dot_S12x512x128_S12x128x64_S12x512x64_2_1_1_2_0_0.rhsIdx (ix3 h r e) ((contrEquiv1 dot_S12x512x128_S12x128x64_S12x512x64_2_1_1_2_0_0 128 rfl rfl).symm k) = ix3 h k e :=
    funext fun ax => Fin.ext (by
      match ax with
      | ⟨0, _⟩ => exact pv_rhs_0 _ _
      | ⟨1, _⟩ => exact (pv_rhs_1 _ _).trans hk
      | ⟨2, _⟩ => exact pv_rhs_2 _ _)
  rw [el, er]

/-- One step of the accumulator: the old entry rescaled, plus the weights of row `r` against the value rows. The
rounding of the weights to the narrower format is the identity at the extended reals. -/
theorem k1_pay2_apply (v : Vec Ideal S1x128x768 .bf16) (al : FVec Ideal S12x512x1 .f32) (p : FVec Ideal S12x512x128 .f32)
    (a0 : Vec Ideal S12x512x64 .f32) (h : Fin 12) (r : Fin 512) (e : Fin 64) :
    k1_pay2 (F := Ideal) (k1_pay8 (F := Ideal) v) al p a0 (ix3 h r e)
      = al (ix3 h r (0 : Fin 1)) * a0 (ix3 h r e) + ∑ u : Fin 128, p (ix3 h r u) * v (ix3 (0 : Fin 1) u (col h e)) := by
  unfold k1_pay2
  refine (congrFun (shapeCast_self _ _) _).trans ?_
  refine (addf_apply _ _ _).trans ?_
  refine congrArg₂ (· + ·) ?_ ?_
  · refine (mulf_apply _ _ _).trans ?_
    exact congrArg (· * _) (broadcastTo_ab1_abc_apply _ _ h r e)
  · refine (matmul_pv_apply _ _ h r e).trans (Finset.sum_congr rfl fun u _ => ?_)
    exact congrArg₂ (· * ·) (truncf_apply p _ (ix3 h r u)) (k1_pay8_apply v h u e)

/-! ## The output block: the normalised accumulator, heads merged, through the projection -/

/-! The operand indices of the projection, axis by axis. -/
theorem pr_lhs_0 (i : S512x768.Idx) (q : dot_S512x768_S768x768_S512x768_1_0_0_1_n_n.contr.Idx) :
    (dot_S512x768_S768x768_S512x768_1_0_0_1_n_n.lhsIdx i q 0).val = (i 0).val := by
  unfold DotDims.lhsIdx
  rw [dif_neg (show ¬(0 : Fin S512x768.rank) ∈ dot_S512x768_S768x768_S512x768_1_0_0_1_n_n.lhsBatch by decide), dif_pos (show (0 : Fin S512x768.rank) ∈ dot_S512x768_S768x768_S512x768_1_0_0_1_n_n.lhsNonContracting by decide)]
  rfl
theorem pr_lhs_1 (i : S512x768.Idx) (q : dot_S512x768_S768x768_S512x768_1_0_0_1_n_n.contr.Idx) :
    (dot_S512x768_S768x768_S512x768_1_0_0_1_n_n.lhsIdx i q 1).val = (q ⟨0, by decide⟩).val :=
  dot_S512x768_S768x768_S512x768_1_0_0_1_n_n.lhsIdx_val_of_single rfl i q
theorem pr_rhs_0 (i : S512x768.Idx) (q : dot_S512x768_S768x768_S512x768_1_0_0_1_n_n.contr.Idx) :
    (dot_S512x768_S768x768_S512x768_1_0_0_1_n_n.rhsIdx i q 0).val = (q ⟨0, by decide⟩).val :=
  dot_S512x768_S768x768_S512x768_1_0_0_1_n_n.rhsIdx_val_of_single rfl i q
theorem pr_rhs_1 (i : S512x768.Idx) (q : dot_S512x768_S768x768_S512x768_1_0_0_1_n_n.contr.Idx) :
    (dot_S512x768_S768x768_S512x768_1_0_0_1_n_n.rhsIdx i q 1).val = (i 1).val := by
  unfold DotDims.rhsIdx
  rw [dif_neg (show ¬(1 : Fin S768x768.rank) ∈ dot_S512x768_S768x768_S512x768_1_0_0_1_n_n.rhsBatch by decide), dif_pos (show (1 : Fin S768x768.rank) ∈ dot_S512x768_S768x768_S512x768_1_0_0_1_n_n.rhsNonContracting by decide)]
  rfl

/-- The output projection, into the zero accumulator: at `(r, o)` the sum over the 768 columns `k` of row `r` of the left
operand times entry `(k, o)` of the right. -/
theorem matmul_proj_apply (a : FVec Ideal S512x768 .bf16) (b : FVec Ideal S768x768 .bf16) (r : Fin 512) (o : Fin 768) :
    matmul dot_S512x768_S768x768_S512x768_1_0_0_1_n_n none a b (constant (F := Ideal) S512x768 .f32 0x00000000#32) (ix2 r o)
      = ∑ k : Fin 768, a (ix2 r k) * b (ix2 k o) := by
  simp only [matmul]
  rw [Ideal.matmul_constant_zero_apply, ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 r o) ((contrEquiv1 dot_S512x768_S768x768_S512x768_1_0_0_1_n_n 768 rfl rfl).symm k) = ix2 r k :=
    funext fun ax => Fin.ext (by
      match ax with
      | ⟨0, _⟩ => exact pr_lhs_0 _ _
      | ⟨1, _⟩ => exact (pr_lhs_1 _ _).trans hk)
  have er : dot_S512x768_S768x768_S512x768_1_0_0_1_n_n.rhsIdx (ix2 r o) ((contrEquiv1 dot_S512x768_S768x768_S512x768_1_0_0_1_n_n 768 rfl rfl).symm k) = ix2 k o :=
    funext fun ax => Fin.ext (by
      match ax with
      | ⟨0, _⟩ => exact (pr_rhs_0 _ _).trans hk
      | ⟨1, _⟩ => exact pr_rhs_1 _ _)
  rw [el, er]

/-- Rounding to the narrower format is the identity at the extended reals. -/
theorem truncf_bf16_apply {s : Shape} (x : FVec Ideal s .f32) (hlt : FTy.bits .bf16 < FTy.bits .f32) (i : s.Idx) :
    (truncf .bf16 x hlt : FVec Ideal s .bf16) i = x i := rfl

/-- The head of column `c` of a row of 768, and its lane within the head. -/
abbrev headOf (c : Fin 768) : Fin 12 := ⟨c.val / 64, by omega⟩
abbrev laneOf (c : Fin 768) : Fin 64 := ⟨c.val % 64, by omega⟩

/-- The output block at row `r`, column `o`: the accumulator divided by the sum of weights, column `c` read at head
`c / 64` and lane `c % 64`, against column `o` of the projection matrix, plus the bias. -/
theorem k1_pay4_apply (a : Vec Ideal S12x512x64 .f32) (l : Vec Ideal S12x512x1 .f32) (pw : Vec Ideal S768x768 .bf16)
    (pb : Vec Ideal S1x768 .f32) (r : Fin 512) (o : Fin 768) :
    k1_pay4 (F := Ideal) a l pw pb (ix3 (0 : Fin 1) r o)
      = (∑ c : Fin 768, Ideal.div (a (ix3 (headOf c) r (laneOf c))) (l (ix3 (headOf c) r (0 : Fin 1))) * pw (ix2 c o))
        + pb (ix2 (0 : Fin 1) o) := by
  unfold k1_pay4
  refine (shapeCast_ab_1ab_apply _ _ (0 : Fin 1) r o).trans ?_
  refine (addf_apply _ _ _).trans ?_
  refine congrArg₂ (· + ·) ?_ ?_
  · refine (matmul_proj_apply _ _ r o).trans (Finset.sum_congr rfl fun c _ => ?_)
    refine congrArg₂ (· * ·) ?_ (congrFun (shapeCast_self pw _) (ix2 c o))
    refine (shapeCast_merge_apply _ _ r c).trans ?_
    refine (transpose_ix3_102_apply _ _ r (headOf c) (laneOf c)).trans ?_
    refine (truncf_bf16_apply _ _ _).trans ?_
    refine (divf_apply _ _ _).trans ?_
    exact congrArg (Ideal.div _) (broadcastTo_ab1_abc_apply _ _ (headOf c) r (laneOf c))
  · refine (broadcastTo_1b_ab_apply _ _ r o).trans ?_
    exact congrFun (shapeCast_self pb _) (ix2 (0 : Fin 1) o)

end Cert.KernelIdeal.PayRead

end
-- ==== Proof.KI.StepLift.lean ====
/-
  One tile's update of the attention kernel's carried state, and its final normalisation and projection, on
  entries that are real numbers.

  When the query block, the key and value tiles and the carried (maximum, denominator, numerator) hold coerced
  reals at the indices read, the three stored values of one grid point are the coerced components of
  `Cert.Attn.step` — at the scores `sR` (the 64-lane dot product of the query row with each key row of head `h`,
  times `0.125`) and the values `wR` (lane `e` of head `h` of each value row). The reset values are coerced reals.
  The epilogue, numerator over a nonzero denominator against the output weight plus the bias, is a coerced real.
-/
import proofs.«144252_j90228672955012_2_alg».proof.Proof.KI.StepCore
import proofs.«144252_j90228672955012_2_alg».proof.Proof.KI.Pay1
import proofs.«144252_j90228672955012_2_alg».proof.Proof.KI.Pay1b

noncomputable section

namespace Cert.KernelIdeal.StepLift

open Idealize.ShloMosaic Idealize.ShloMosaic.ValueIdx
open Cert.KernelIdeal Cert.KernelIdeal.Gen Cert.KernelIdeal.PayRead
open Cert.Attn
open scoped BigOperators

/-- The scaled scores of query row `r` against the tile's keys, in head `h`. -/
abbrev sR (qr : Fin 512 → Fin 768 → ℝ) (kr : Fin 128 → Fin 768 → ℝ) (h : Fin 12) (r : Fin 512) : Fin 128 → ℝ :=
  fun u => (∑ e' : Fin 64, qr r (col h e') * kr u (col h e')) * 0.125

/-- Lane `e` of head `h` of the tile's values. -/
abbrev wR (vr : Fin 128 → Fin 768 → ℝ) (h : Fin 12) (e : Fin 64) : Fin 128 → ℝ := fun u => vr u (col h e)

section Step
variable (q : Vec Ideal S1x512x768 .bf16) (k v : Vec Ideal S1x128x768 .bf16) (m0 l0 : Vec Ideal S12x512x1 .f32)
  (a0 : Vec Ideal S12x512x64 .f32)
  (qr : Fin 512 → Fin 768 → ℝ) (kr vr : Fin 128 → Fin 768 → ℝ)
  (hq : ∀ r cc, q (ix3 (0 : Fin 1) r cc) = ((qr r cc : ℝ) : EReal))
  (hk : ∀ u cc, k (ix3 (0 : Fin 1) u cc) = ((kr u cc : ℝ) : EReal))
  (hv : ∀ u cc, v (ix3 (0 : Fin 1) u cc) = ((vr u cc : ℝ) : EReal))

include hq hk in
/-- A score is the coerced real score. -/
theorem sE_coe (h : Fin 12) (r : Fin 512) (u : Fin 128) : sE q k h r u = ((sR qr kr h r u : ℝ) : EReal) := by
  unfold sE
  simp only [hq, hk]
  exact score_coe (fun e' => qr r (col h e')) (fun e' => kr u (col h e'))

include hq hk in
/-- The new maximum is the coerced first component of the step (whatever the step's other arguments). -/
theorem mE_coe (h : Fin 12) (r : Fin 512) (mr lr ar : ℝ) (w : Fin 128 → ℝ)
    (hm : m0 (ix3 h r (0 : Fin 1)) = ((mr : ℝ) : EReal)) :
    mE q k m0 h r = (((step mr lr ar (sR qr kr h r) w).1 : ℝ) : EReal) := by
  unfold mE
  rw [hm]
  simp only [sE_coe q k qr kr hq hk]
  exact max_coe mr lr ar (sR qr kr h r) w

include hq hk in
theorem stepM_lift (h : Fin 12) (r : Fin 512) (mr lr ar : ℝ) (w : Fin 128 → ℝ)
    (hm : m0 (ix3 h r (0 : Fin 1)) = ((mr : ℝ) : EReal)) :
    k1_pay3 (k1_pay10 q k m0) (ix3 h r (0 : Fin 1)) = (((step mr lr ar (sR qr kr h r) w).1 : ℝ) : EReal) := by
  rw [k1_pay3_eq, k1_pay10_apply]
  exact mE_coe q k m0 qr kr hq hk h r mr lr ar w hm

include hq hk in
theorem stepL_lift (h : Fin 12) (r : Fin 512) (mr lr ar : ℝ) (w : Fin 128 → ℝ)
    (hm : m0 (ix3 h r (0 : Fin 1)) = ((mr : ℝ) : EReal)) (hl : l0 (ix3 h r (0 : Fin 1)) = ((lr : ℝ) : EReal)) :
    k1_pay1 (k1_pay13 q k m0 m0 l0) (k1_pay14 q k m0) (ix3 h r (0 : Fin 1))
      = (((step mr lr ar (sR qr kr h r) w).2.1 : ℝ) : EReal) := by
  rw [k1_pay1_apply, k1_pay13_apply, k1_pay14_apply, hm, hl, mE_coe q k m0 qr kr hq hk h r mr lr ar w hm]
  simp only [sE_coe q k qr kr hq hk]
  exact den_coe mr lr ar (sR qr kr h r) w

include hq hk hv in
theorem stepA_lift (h : Fin 12) (r : Fin 512) (e : Fin 64) (mr lr ar : ℝ)
    (hm : m0 (ix3 h r (0 : Fin 1)) = ((mr : ℝ) : EReal)) (ha : a0 (ix3 h r e) = ((ar : ℝ) : EReal)) :
    k1_pay2 (k1_pay8 v) (k1_pay11 q k m0 m0) (k1_pay12 q k m0) a0 (ix3 h r e)
      = (((step mr lr ar (sR qr kr h r) (wR vr h e)).2.2 : ℝ) : EReal) := by
  rw [k1_pay2_apply, k1_pay11_apply, hm, ha, mE_coe q k m0 qr kr hq hk h r mr lr ar (wR vr h e) hm]
  simp only [k1_pay12_apply, hv, sE_coe q k qr kr hq hk, mE_coe q k m0 qr kr hq hk h r mr lr ar (wR vr h e) hm]
  exact num_coe mr lr ar (sR qr kr h r) (wR vr h e)

include hq hk hv in
/-- One grid point's three stored values, at row `r` of head `h` (and lane `e` for the numerator), are the coerced
    components of one `step` from the carried reals. -/
theorem step_lift (h : Fin 12) (r : Fin 512) (e : Fin 64) (mr lr ar : ℝ)
    (hm : m0 (ix3 h r (0 : Fin 1)) = ((mr : ℝ) : EReal)) (hl : l0 (ix3 h r (0 : Fin 1)) = ((lr : ℝ) : EReal))
    (ha : a0 (ix3 h r e) = ((ar : ℝ) : EReal)) :
    k1_pay3 (k1_pay10 q k m0) (ix3 h r (0 : Fin 1)) = (((step mr lr ar (sR qr kr h r) (wR vr h e)).1 : ℝ) : EReal)
      ∧ k1_pay1 (k1_pay13 q k m0 m0 l0) (k1_pay14 q k m0) (ix3 h r (0 : Fin 1))
          = (((step mr lr ar (sR qr kr h r) (wR vr h e)).2.1 : ℝ) : EReal)
      ∧ k1_pay2 (k1_pay8 v) (k1_pay11 q k m0 m0) (k1_pay12 q k m0) a0 (ix3 h r e)
          = (((step mr lr ar (sR qr kr h r) (wR vr h e)).2.2 : ℝ) : EReal) :=
  ⟨stepM_lift q k m0 qr kr hq hk h r mr lr ar (wR vr h e) hm,
   stepL_lift q k m0 l0 qr kr hq hk h r mr lr ar (wR vr h e) hm hl,
   stepA_lift q k v m0 a0 qr kr vr hq hk hv h r e mr lr ar hm ha⟩

end Step

/-! ### The reset values -/

theorem pay5_lift (i : S12x512x1.Idx) : k1_pay5 (F := Ideal) i = ((negInit : ℝ) : EReal) := by
  rw [k1_pay5_apply, ofBits_negInit]

theorem pay6_lift (i : S12x512x1.Idx) : k1_pay6 (F := Ideal) i = ((0 : ℝ) : EReal) := by
  rw [k1_pay6_apply, ofBits_zero]

theorem pay7_lift (i : S12x512x64.Idx) : k1_pay7 (F := Ideal) i = ((0 : ℝ) : EReal) := by
  rw [k1_pay7_apply, ofBits_zero]

/-! ### The epilogue -/

/-- The output block at `(r, o)`: over the 768 columns `c` (lane `laneOf c` of head `headOf c`), numerator over the row's
    nonzero denominator against the output weight, plus the bias. -/
theorem out_lift (a : Vec Ideal S12x512x64 .f32) (l : Vec Ideal S12x512x1 .f32) (pw : Vec Ideal S768x768 .bf16)
    (pb : Vec Ideal S1x768 .f32)
    (ar : Fin 12 → Fin 512 → Fin 64 → ℝ) (lr : Fin 12 → Fin 512 → ℝ) (hpos : ∀ h r, lr h r ≠ 0)
    (pwr : Fin 768 → Fin 768 → ℝ) (pbr : Fin 768 → ℝ)
    (ha : ∀ h r e, a (ix3 h r e) = ((ar h r e : ℝ) : EReal)) (hl : ∀ h r, l (ix3 h r (0 : Fin 1)) = ((lr h r : ℝ) : EReal))
    (hpw : ∀ c o, pw (ix2 c o) = ((pwr c o : ℝ) : EReal)) (hpb : ∀ o, pb (ix2 (0 : Fin 1) o) = ((pbr o : ℝ) : EReal))
    (r : Fin 512) (o : Fin 768) :
    k1_pay4 a l pw pb (ix3 (0 : Fin 1) r o)
      = (((∑ c : Fin 768, ar (headOf c) r (laneOf c) / lr (headOf c) r * pwr c o) + pbr o : ℝ) : EReal) := by
  rw [k1_pay4_apply]
  simp only [ha, hl, hpw, hpb]
  exact epilogue_coe (fun c : Fin 768 => ar (headOf c) r (laneOf c)) (fun c : Fin 768 => lr (headOf c) r)
    (fun c => hpos _ _) (fun c => pwr c o) (pbr o)

end Cert.KernelIdeal.StepLift

end
-- ==== Proof.Ref1.lean ====
import proofs.«144252_j90228672955012_2_alg».proof.Proof.Gen.ReferenceIdeal.Read

noncomputable section

namespace Cert.RefRead

open Idealize.ShloMosaic Idealize.ShloMosaic.ValueIdx
open Cert.ReferenceIdeal Cert.ReferenceIdeal.Gen Cert.ReferenceIdeal.Read
open scoped BigOperators

/-! ## The reference as a closed function of its five argument arrays

Multi-head self-attention on `x : [4, 2048, 768]`: one fused projection to `3 · 768` columns (queries, keys, values), split into
12 heads of 64 lanes, scaled dot-product scores, a softmax over the key position, the weighted sum of the values, the heads
laid side by side again, and an output projection. Every definition is over curried `Fin` coordinates and the extended reals. -/

/-- The fused column of head `h`, lane `e` among the queries (columns `0 … 767`). -/
def qcol (h : Fin 12) (e : Fin 64) : Fin 2304 := ⟨h.val * 64 + e.val, by have := h.isLt; have := e.isLt; omega⟩
/-- … among the keys (columns `768 … 1535`). -/
def kcol (h : Fin 12) (e : Fin 64) : Fin 2304 := ⟨768 + (h.val * 64 + e.val), by have := h.isLt; have := e.isLt; omega⟩
/-- … among the values (columns `1536 … 2303`). -/
def vcol (h : Fin 12) (e : Fin 64) : Fin 2304 := ⟨1536 + (h.val * 64 + e.val), by have := h.isLt; have := e.isLt; omega⟩

/-- The fused projection: row `(b, n)` of `x` against row `o` of the weight, plus the bias. -/
def qkv (a0 : FVec Ideal S4x2048x768 .f32) (a1 : FVec Ideal S2304x768 .f32) (a2 : FVec Ideal S2304 .f32)
    (b : Fin 4) (n : Fin 2048) (o : Fin 2304) : EReal :=
  (∑ d : Fin 768, a0 (ix3 b n d) * a1 (ix2 o d)) + a2 (ix1 o)

/-- The score of query position `n` against key position `m` in head `h`: the 64-lane dot product divided by the square
    root of the head width (the word `0x42800000` is 64). -/
def sc (a0 : FVec Ideal S4x2048x768 .f32) (a1 : FVec Ideal S2304x768 .f32) (a2 : FVec Ideal S2304 .f32)
    (b : Fin 4) (h : Fin 12) (n m : Fin 2048) : EReal :=
  Ideal.div (∑ e : Fin 64, qkv a0 a1 a2 b n (qcol h e) * qkv a0 a1 a2 b m (kcol h e))
    (Ideal.sqrt (Ideal.ofBits .f32 0x42800000#32))

/-- The row maximum the softmax subtracts: the fold of `max` over the key positions from the word `0xFF800000` (minus
    infinity), and once more the maximum with that word. -/
def mx (a0 : FVec Ideal S4x2048x768 .f32) (a1 : FVec Ideal S2304x768 .f32) (a2 : FVec Ideal S2304 .f32)
    (b : Fin 4) (h : Fin 12) (n : Fin 2048) : EReal :=
  max (Ideal.ofBits .f32 0xFF800000#32)
    ((Finset.univ : Finset (Fin 2048)).fold max (Ideal.ofBits .f32 0xFF800000#32) fun m => sc a0 a1 a2 b h n m)

/-- The exponential of a score less its row maximum. -/
def ex (a0 : FVec Ideal S4x2048x768 .f32) (a1 : FVec Ideal S2304x768 .f32) (a2 : FVec Ideal S2304 .f32)
    (b : Fin 4) (h : Fin 12) (n m : Fin 2048) : EReal :=
  Ideal.exp (sc a0 a1 a2 b h n m - mx a0 a1 a2 b h n)

/-- The softmax's denominator: the zero word plus the sum of the exponentials over the key positions. -/
def z (a0 : FVec Ideal S4x2048x768 .f32) (a1 : FVec Ideal S2304x768 .f32) (a2 : FVec Ideal S2304 .f32)
    (b : Fin 4) (h : Fin 12) (n : Fin 2048) : EReal :=
  Ideal.ofBits .f32 0x00000000#32 + ∑ m : Fin 2048, ex a0 a1 a2 b h n m

/-- The attention weight of key position `m` for query position `n`. -/
def p (a0 : FVec Ideal S4x2048x768 .f32) (a1 : FVec Ideal S2304x768 .f32) (a2 : FVec Ideal S2304 .f32)
    (b : Fin 4) (h : Fin 12) (n m : Fin 2048) : EReal :=
  Ideal.div (ex a0 a1 a2 b h n m) (z a0 a1 a2 b h n)

/-- The attended value: the weights against lane `e` of the values of head `h`. -/
def att (a0 : FVec Ideal S4x2048x768 .f32) (a1 : FVec Ideal S2304x768 .f32) (a2 : FVec Ideal S2304 .f32)
    (b : Fin 4) (h : Fin 12) (n : Fin 2048) (e : Fin 64) : EReal :=
  ∑ m : Fin 2048, p a0 a1 a2 b h n m * qkv a0 a1 a2 b m (vcol h e)

/-- The result: the heads side by side (column `c` is lane `c % 64` of head `c / 64`) against row `o` of the output
    weight, plus the output bias. -/
def refOut (a0 : FVec Ideal S4x2048x768 .f32) (a1 : FVec Ideal S2304x768 .f32) (a2 : FVec Ideal S2304 .f32)
    (a3 : FVec Ideal S768x768 .f32) (a4 : FVec Ideal S768 .f32) (b : Fin 4) (n : Fin 2048) (o : Fin 768) : EReal :=
  (∑ c : Fin 768, att a0 a1 a2 b ⟨c.val / 64, by have := c.isLt; omega⟩ n ⟨c.val % 64, by omega⟩ * a3 (ix2 o c))
    + a4 (ix1 o)

/-! ## The fused projection and the three heads, read at an index -/

section Heads
variable (x0 : FVec Ideal S4x2048x768 .f32) (x1 : FVec Ideal S2304x768 .f32) (x2 : FVec Ideal S2304 .f32)

/-- The projection plus its broadcast bias at `(b, n, o)`: the contraction runs over the last axis of both operands, and the
    bias is read at the column. -/
theorem v3_at (b : Fin 4) (n : Fin 2048) (o : Fin 2304) :
    val_main_v3 (F := Ideal) x0 x1 x2 (ix3 b n o) = qkv x0 x1 x2 b n o := by
  rw [val_main_v3_apply, val_main_v0_apply, val_main_v2_apply, val_main_v1_apply]
  have el : ∀ k : Fin 768, lidx_main_v0 (ix3 b n o) k = ix3 b n k := fun k => funext fun a => by
    match a with | ⟨0, _⟩ => rfl | ⟨1, _⟩ => rfl | ⟨2, _⟩ => rfl
  have er : ∀ k : Fin 768, ridx_main_v0 (ix3 b n o) k = ix2 o k := fun k => funext fun a => by
    match a with | ⟨0, _⟩ => rfl | ⟨1, _⟩ => rfl
  have eb : idx_main_v1 (idx_main_v2 (ix3 b n o)) = ix1 o := funext fun a => by
    match a with | ⟨0, _⟩ => rfl
  simp only [el, er, eb]
  rfl

/-- Row-major position `((b · 2048 + n) · 12 + h) · 64 + e` of the `[4, 2048, 12, 64]` view is position
    `(b, n, h · 64 + e)` of the `[4, 2048, 768]` one: the three coordinates. -/
theorem split_b (b : Fin 4) (h : Fin 12) (n : Fin 2048) (e : Fin 64) :
    (((b.val * 2048 + n.val) * 12 + h.val) * 64 + e.val) / 1572864 = b.val := by
  have := b.isLt; have := h.isLt; have := n.isLt; have := e.isLt; omega
theorem split_n (b : Fin 4) (h : Fin 12) (n : Fin 2048) (e : Fin 64) :
    (((b.val * 2048 + n.val) * 12 + h.val) * 64 + e.val) / 768 % 2048 = n.val := by
  have := b.isLt; have := h.isLt; have := n.isLt; have := e.isLt; omega
theorem split_c (b : Fin 4) (h : Fin 12) (n : Fin 2048) (e : Fin 64) :
    (((b.val * 2048 + n.val) * 12 + h.val) * 64 + e.val) % 768 = h.val * 64 + e.val := by
  have := b.isLt; have := h.isLt; have := n.isLt; have := e.isLt; omega

/-- The queries in heads: `(b, h, n, e)` of the transposed reshaped slice is the projection at column `h · 64 + e`. -/
theorem v8_at (b : Fin 4) (h : Fin 12) (n : Fin 2048) (e : Fin 64) :
    val_main_v8 (F := Ideal) x0 x1 x2 (ix4 b h n e) = qkv x0 x1 x2 b n (qcol h e) := by
  rw [val_main_v8_apply, val_main_v7_apply, val_main_v4_apply]
  have ei : idx_main_v4 (idx_main_v7 (idx_main_v8 (ix4 b h n e))) = ix3 b n (qcol h e) := funext fun a => Fin.ext (by
    match a with
    | ⟨0, _⟩ => exact split_b b h n e
    | ⟨1, _⟩ => exact split_n b h n e
    | ⟨2, _⟩ => exact split_c b h n e)
  rw [ei, v3_at]

/-- The keys in heads: the same at column `768 + h · 64 + e`. -/
theorem v10_at (b : Fin 4) (h : Fin 12) (n : Fin 2048) (e : Fin 64) :
    val_main_v10 (F := Ideal) x0 x1 x2 (ix4 b h n e) = qkv x0 x1 x2 b n (kcol h e) := by
  rw [val_main_v10_apply, val_main_v9_apply, val_main_v5_apply]
  have ei : idx_main_v5 (idx_main_v9 (idx_main_v10 (ix4 b h n e))) = ix3 b n (kcol h e) := funext fun a => Fin.ext (by
    match a with
    | ⟨0, _⟩ => exact split_b b h n e
    | ⟨1, _⟩ => exact split_n b h n e
    | ⟨2, _⟩ => exact congrArg (768 + ·) (split_c b h n e))
  rw [ei, v3_at]

/-- The values in heads: the same at column `1536 + h · 64 + e`. -/
theorem v12_at (b : Fin 4) (h : Fin 12) (n : Fin 2048) (e : Fin 64) :
    val_main_v12 (F := Ideal) x0 x1 x2 (ix4 b h n e) = qkv x0 x1 x2 b n (vcol h e) := by
  rw [val_main_v12_apply, val_main_v11_apply, val_main_v6_apply]
  have ei : idx_main_v6 (idx_main_v11 (idx_main_v12 (ix4 b h n e))) = ix3 b n (vcol h e) := funext fun a => Fin.ext (by
    match a with
    | ⟨0, _⟩ => exact split_b b h n e
    | ⟨1, _⟩ => exact split_n b h n e
    | ⟨2, _⟩ => exact congrArg (1536 + ·) (split_c b h n e))
  rw [ei, v3_at]

end Heads

/-! ## The words -/

/-- The word `0xFF800000` is minus infinity. -/
theorem ofBits_negInf : Ideal.ofBits .f32 0xFF800000#32 = ⊥ := by simp [Ideal.ofBits, Ideal.ieee]

end Cert.RefRead

end
-- ==== Proof.RefLift.lean ====
/-
  The reference's closed formula on real inputs is the same formula over the real numbers.

  When every entry of the five argument arrays is a (coerced) real number, every intermediate of the
  reference's attention — the fused projection, the scaled scores, the row maximum, the exponentials, the
  softmax's denominator (positive, so the quotient is the real quotient), the attended values, the output
  projection — is a coerced real, namely the same expression over `ℝ`. The attended value is then restated over
  the 16 tiles of 128 keys, which is the form the online-softmax law `Cert.Attn.online_eq_softmax` ends in.
-/
import proofs.«144252_j90228672955012_2_alg».proof.Proof.Ref1
import proofs.«144252_j90228672955012_2_alg».proof.Proof.Spec2

noncomputable section

namespace Cert.RefLift

open Idealize.ShloMosaic Idealize.ShloMosaic.ValueIdx
open Cert.ReferenceIdeal
open Cert.RefRead Cert.Attn
open scoped BigOperators

/-! ### The formula over the reals -/

section Real
variable (x' : Fin 4 → Fin 2048 → Fin 768 → ℝ) (w' : Fin 2304 → Fin 768 → ℝ) (bq' : Fin 2304 → ℝ)
  (pw' : Fin 768 → Fin 768 → ℝ) (pb' : Fin 768 → ℝ)

/-- The fused projection. -/
def qkvR (b : Fin 4) (n : Fin 2048) (o : Fin 2304) : ℝ := (∑ d : Fin 768, x' b n d * w' o d) + bq' o

/-- The scaled score: the 64-lane dot product times `0.125` (`= 1 / √64`). -/
def scR (b : Fin 4) (h : Fin 12) (n m : Fin 2048) : ℝ :=
  (∑ e : Fin 64, qkvR x' w' bq' b n (qcol h e) * qkvR x' w' bq' b m (kcol h e)) * 0.125

/-- The row maximum over the 2048 keys. -/
def mxR (b : Fin 4) (h : Fin 12) (n : Fin 2048) : ℝ :=
  Finset.univ.sup' Finset.univ_nonempty fun m : Fin 2048 => scR x' w' bq' b h n m

def exR (b : Fin 4) (h : Fin 12) (n m : Fin 2048) : ℝ := Real.exp (scR x' w' bq' b h n m - mxR x' w' bq' b h n)

def zR (b : Fin 4) (h : Fin 12) (n : Fin 2048) : ℝ := ∑ m : Fin 2048, exR x' w' bq' b h n m

/-- The softmax weight. -/
def pR (b : Fin 4) (h : Fin 12) (n m : Fin 2048) : ℝ := exR x' w' bq' b h n m / zR x' w' bq' b h n

/-- The attended value. -/
def attR (b : Fin 4) (h : Fin 12) (n : Fin 2048) (e : Fin 64) : ℝ :=
  ∑ m : Fin 2048, pR x' w' bq' b h n m * qkvR x' w' bq' b m (vcol h e)

/-- The result. -/
def outR (b : Fin 4) (n : Fin 2048) (o : Fin 768) : ℝ :=
  (∑ c : Fin 768, attR x' w' bq' b ⟨c.val / 64, by have := c.isLt; omega⟩ n ⟨c.val % 64, by omega⟩ * pw' o c) + pb' o

theorem zR_pos (b : Fin 4) (h : Fin 12) (n : Fin 2048) : 0 < zR x' w' bq' b h n :=
  Finset.sum_pos (fun _ _ => Real.exp_pos _) Finset.univ_nonempty

/-- The attended value over the 16 tiles of 128 keys (key `128 * t + u`). -/
theorem attR_tiles (b : Fin 4) (h : Fin 12) (n : Fin 2048) (e : Fin 64) :
    attR x' w' bq' b h n e
      = ∑ t : Fin 16, ∑ u : Fin 128,
          (Real.exp (scR x' w' bq' b h n (key t u) - mxR x' w' bq' b h n)
            / ∑ t' : Fin 16, ∑ u' : Fin 128, Real.exp (scR x' w' bq' b h n (key t' u') - mxR x' w' bq' b h n))
          * qkvR x' w' bq' b (key t u) (vcol h e) := by
  unfold attR pR zR exR
  rw [sum_key, sum_key fun m => Real.exp (scR x' w' bq' b h n m - mxR x' w' bq' b h n)]

/-- … which is what the online-softmax recurrence over those tiles computes, from any starting maximum. -/
theorem attR_eq_online (m₀ : ℝ) (b : Fin 4) (h : Fin 12) (n : Fin 2048) (e : Fin 64) :
    attR x' w' bq' b h n e
      = (online m₀ (fun (t : Fin 16) (u : Fin 128) => scR x' w' bq' b h n (key t u))
            (fun (t : Fin 16) (u : Fin 128) => qkvR x' w' bq' b (key t u) (vcol h e)) 16 le_rfl).2.2
        / (online m₀ (fun (t : Fin 16) (u : Fin 128) => scR x' w' bq' b h n (key t u))
            (fun (t : Fin 16) (u : Fin 128) => qkvR x' w' bq' b (key t u) (vcol h e)) 16 le_rfl).2.1 := by
  rw [attR_tiles, online_eq_softmax m₀ _ _ (by norm_num) (mxR x' w' bq' b h n)]

end Real

/-! ### The arrays' entries are those reals -/

/-- Every entry of the five argument arrays is the coerced entry of a real array. -/
structure Lifts (a0 : FVec Ideal S4x2048x768 .f32) (a1 : FVec Ideal S2304x768 .f32) (a2 : FVec Ideal S2304 .f32)
    (a3 : FVec Ideal S768x768 .f32) (a4 : FVec Ideal S768 .f32)
    (x' : Fin 4 → Fin 2048 → Fin 768 → ℝ) (w' : Fin 2304 → Fin 768 → ℝ) (bq' : Fin 2304 → ℝ)
    (pw' : Fin 768 → Fin 768 → ℝ) (pb' : Fin 768 → ℝ) : Prop where
  h0 : ∀ b n d, a0 (ix3 b n d) = ((x' b n d : ℝ) : EReal)
  h1 : ∀ o d, a1 (ix2 o d) = ((w' o d : ℝ) : EReal)
  h2 : ∀ o, a2 (ix1 o) = ((bq' o : ℝ) : EReal)
  h3 : ∀ o c, a3 (ix2 o c) = ((pw' o c : ℝ) : EReal)
  h4 : ∀ o, a4 (ix1 o) = ((pb' o : ℝ) : EReal)

section Lift
variable {a0 : FVec Ideal S4x2048x768 .f32} {a1 : FVec Ideal S2304x768 .f32} {a2 : FVec Ideal S2304 .f32}
  {a3 : FVec Ideal S768x768 .f32} {a4 : FVec Ideal S768 .f32}
  {x' : Fin 4 → Fin 2048 → Fin 768 → ℝ} {w' : Fin 2304 → Fin 768 → ℝ} {bq' : Fin 2304 → ℝ}
  {pw' : Fin 768 → Fin 768 → ℝ} {pb' : Fin 768 → ℝ}

theorem qkv_coe (L : Lifts a0 a1 a2 a3 a4 x' w' bq' pw' pb') (b : Fin 4) (n : Fin 2048) (o : Fin 2304) :
    qkv a0 a1 a2 b n o = ((qkvR x' w' bq' b n o : ℝ) : EReal) := by
  unfold qkv qkvR
  simp only [L.h0, L.h1, L.h2, ← EReal.coe_mul, ← coe_finset_sum, ← EReal.coe_add]

theorem sc_coe (L : Lifts a0 a1 a2 a3 a4 x' w' bq' pw' pb') (b : Fin 4) (h : Fin 12) (n m : Fin 2048) :
    sc a0 a1 a2 b h n m = ((scR x' w' bq' b h n m : ℝ) : EReal) := by
  unfold sc scR
  rw [div_sqrt_64_eq_mul_eighth, ofBits_eighth]
  simp only [qkv_coe L, ← EReal.coe_mul, ← coe_finset_sum]

theorem mx_coe (L : Lifts a0 a1 a2 a3 a4 x' w' bq' pw' pb') (b : Fin 4) (h : Fin 12) (n : Fin 2048) :
    mx a0 a1 a2 b h n = ((mxR x' w' bq' b h n : ℝ) : EReal) := by
  unfold mx mxR
  simp only [sc_coe L, ofBits_neg_inf]
  rw [fold_max_bot_coe, max_bot_left]
  rfl

theorem ex_coe (L : Lifts a0 a1 a2 a3 a4 x' w' bq' pw' pb') (b : Fin 4) (h : Fin 12) (n m : Fin 2048) :
    ex a0 a1 a2 b h n m = ((exR x' w' bq' b h n m : ℝ) : EReal) := by
  unfold ex exR
  rw [sc_coe L, mx_coe L, ← EReal.coe_sub, Ideal.exp_coe]

theorem z_coe (L : Lifts a0 a1 a2 a3 a4 x' w' bq' pw' pb') (b : Fin 4) (h : Fin 12) (n : Fin 2048) :
    z a0 a1 a2 b h n = ((zR x' w' bq' b h n : ℝ) : EReal) := by
  unfold z zR
  simp only [ex_coe L, ← coe_finset_sum]
  rw [ofBits_zero, EReal.coe_zero, zero_add]

theorem p_coe (L : Lifts a0 a1 a2 a3 a4 x' w' bq' pw' pb') (b : Fin 4) (h : Fin 12) (n m : Fin 2048) :
    p a0 a1 a2 b h n m = ((pR x' w' bq' b h n m : ℝ) : EReal) := by
  unfold p pR
  rw [ex_coe L, z_coe L, div_coe_coe _ (zR_pos x' w' bq' b h n).ne']

theorem att_coe (L : Lifts a0 a1 a2 a3 a4 x' w' bq' pw' pb') (b : Fin 4) (h : Fin 12) (n : Fin 2048) (e : Fin 64) :
    att a0 a1 a2 b h n e = ((attR x' w' bq' b h n e : ℝ) : EReal) := by
  unfold att attR
  simp only [p_coe L, qkv_coe L, ← EReal.coe_mul, ← coe_finset_sum]

/-- The reference's result at `(b, n, o)` is the coerced real result. -/
theorem refOut_coe (L : Lifts a0 a1 a2 a3 a4 x' w' bq' pw' pb') (b : Fin 4) (n : Fin 2048) (o : Fin 768) :
    refOut a0 a1 a2 a3 a4 b n o = ((outR x' w' bq' pw' pb' b n o : ℝ) : EReal) := by
  unfold refOut outR
  simp only [att_coe L, L.h3, L.h4, ← EReal.coe_mul, ← coe_finset_sum, ← EReal.coe_add]

/-- Arrays whose every entry is a real number have real arrays behind them. -/
theorem exists_lifts (r0 : ∀ i, ∃ r : ℝ, a0 i = (r : EReal)) (r1 : ∀ i, ∃ r : ℝ, a1 i = (r : EReal))
    (r2 : ∀ i, ∃ r : ℝ, a2 i = (r : EReal)) (r3 : ∀ i, ∃ r : ℝ, a3 i = (r : EReal)) (r4 : ∀ i, ∃ r : ℝ, a4 i = (r : EReal)) :
    ∃ (x' : Fin 4 → Fin 2048 → Fin 768 → ℝ) (w' : Fin 2304 → Fin 768 → ℝ) (bq' : Fin 2304 → ℝ)
      (pw' : Fin 768 → Fin 768 → ℝ) (pb' : Fin 768 → ℝ), Lifts a0 a1 a2 a3 a4 x' w' bq' pw' pb' := by
  choose f0 hf0 using r0
  choose f1 hf1 using r1
  choose f2 hf2 using r2
  choose f3 hf3 using r3
  choose f4 hf4 using r4
  exact ⟨fun b n d => f0 (ix3 b n d), fun o d => f1 (ix2 o d), fun o => f2 (ix1 o), fun o c => f3 (ix2 o c),
    fun o => f4 (ix1 o), ⟨fun b n d => hf0 _, fun o d => hf1 _, fun o => hf2 _, fun o c => hf3 _, fun o => hf4 _⟩⟩

end Lift

end Cert.RefLift

end
-- ==== Proof.Fin.lean ====
/-
  Finiteness of the inputs, from the precondition.

  The precondition is the conjunction, over the five argument arrays, of "every entry's absolute value is below
  `+∞`". At the extended reals the absolute value of `x` is `max x (-x)` and the bound's word `0x7F800000` is `⊤`;
  `max x (-x) < ⊤` fails at both infinities, so every entry of every array is a (coerced) real number.
-/
import proofs.«144252_j90228672955012_2_alg».proof.Pre_finite_inputs
import proofs.«144252_j90228672955012_2_alg».proof.Proof.Gen.Pre_finite_inputs
import Idealize.ShloMosaic.Lib.ReduceAll
import Idealize.ShloMosaic.Lib.ValueIdx
import Idealize.ShloMosaic.PureOps.Ideal

noncomputable section

namespace Cert.FinIn

open Idealize.ShloMosaic
open Cert.Pre_finite_inputs

/-- The rank-0 shape has one index. -/
instance : Subsingleton S_.Idx := ⟨fun a b => funext fun d => d.elim0⟩

/-- An extended real whose absolute value compares below the word `0x7F800000` (`+∞`) is a real number. -/
theorem real_of_lt_inf (x : EReal)
    (h : FloatOps.cmpf (F := Ideal) (φ := .f32) .olt (FloatOps.hostAbsf x) (FloatOps.ofBits .f32 0x7F800000#32) = 1#1) :
    ∃ r : ℝ, x = (r : EReal) := by
  have hw : Ideal.ofBits .f32 0x7F800000#32 = ⊤ := by simp [Ideal.ofBits, Ideal.ieee]
  change Ideal.cmp .olt (max x (-x)) (Ideal.ofBits .f32 0x7F800000#32) = 1#1 at h
  rw [hw] at h
  induction x using EReal.rec with
  | bot => simp [Ideal.cmp] at h
  | top => simp [Ideal.cmp] at h
  | coe r => exact ⟨r, rfl⟩

/-- One array's conjunct: `jnp.all (|a| < +∞)` is 1, so every entry of `a` is a real number. -/
theorem real_of_all {s : Shape} {axes : List (Fin s.rank)} (a : FVec Ideal s .f32) (hb : S_.BroadcastsInDim s (![] : Fin 0 → Fin s.rank))
    (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1)
    (i : s.Idx) : ∃ r : ℝ, a i = (r : EReal) :=
  real_of_lt_inf (a i) (Host.reduce_andi_all _ _ hr hu ValueIdx.ix0 e i)

/-- The precondition holds only of arrays of real numbers. -/
theorem real_of_pre [Facts] (a0 : FVec Ideal S4x2048x768 .f32) (a1 : FVec Ideal S2304x768 .f32) (a2 : FVec Ideal S2304 .f32)
    (a3 : FVec Ideal S768x768 .f32) (a4 : FVec Ideal S768 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3,
    real_of_all a4 _ _ _ e4⟩

/-- The same with the real arrays named. -/
theorem exists_real_fn {ι : Type*} {a : ι → EReal} (h : ∀ i, ∃ r : ℝ, a i = (r : EReal)) :
    ∃ f : ι → ℝ, ∀ i, a i = ((f i : ℝ) : EReal) :=
  ⟨fun i => (h i).choose, fun i => (h i).choose_spec⟩

end Cert.FinIn

end
-- ==== Proof.KI.Host.lean ====
import proofs.«144252_j90228672955012_2_alg».proof.Proof.KI.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen

variable (m : (ℓ : Loc nD τ sig) → Buf (Elt Ideal) ℓ) (c : Dev nD)

/-! # What each pipeline finds in its arrays, entry by entry, on extended reals

Before the first pipeline the weight matrix is transposed and narrowed, and the bias becomes a one-row matrix; the
activations are untouched. Before the second, the same is done to the output projection's weights and bias, and the
three arrays the first pipeline wrote are read as it left them. Narrowing is the identity on extended reals. -/

/-! ## The first pipeline's inputs -/

/-- The activations are as launched. -/
theorem E1_arg0 : E1 m c main_arg0 = m ((c : Thread nD τ).loc main_arg0) := Gen.V1_of m c main_arg0 (by decide)

/-- The weights at (`d`, `o`) are the launched matrix at (`o`, `d`). -/
theorem E1_v1_at (d : Fin 768) (o : Fin 2304) :
    (E1 m c main_v1 : S768x2304.Idx → EReal) (ix2 d o) = (m ((c : Thread nD τ).loc main_arg1) : S2304x768.Idx → EReal) (ix2 o d) := by
  have e : (E1 m c main_v1 : S768x2304.Idx → EReal)
      = truncf (F := Ideal) .bf16 (transpose S768x2304 [1, 0] (m ((c : Thread nD τ).loc main_arg1) : FVec Ideal S2304x768 .f32) transposes_S2304x768_S768x2304_1_0) bitsLt_bf16_f32 := by
    dsimp only [E1, Gen.V1, Gen.hostOps0]; after_results
  rw [e, truncf_apply]
  exact transpose_apply [1, 0] _ transposes_S2304x768_S768x2304_1_0 (ix2 d o) (ix2 o d) (fun b => by fin_cases b <;> rfl)

/-- The bias row at (0, `o`) is the launched bias at `o`. -/
theorem E1_v2_at (o : Fin 2304) :
    (E1 m c main_v2 : S1x2304.Idx → EReal) (ix2 (0 : Fin 1) o) = (m ((c : Thread nD τ).loc main_arg2) : S2304.Idx → EReal) (ix1 o) := by
  have e : (E1 m c main_v2 : S1x2304.Idx → EReal)
      = shapeCast S1x2304 (m ((c : Thread nD τ).loc main_arg2) : FVec Ideal S2304 .f32) shapeCasts_S2304_S1x2304 := by
    dsimp only [E1, Gen.V1, Gen.hostOps0]; after_results; rfl
  rw [e]
  exact shapeCast_a_1a_apply _ shapeCasts_S2304_S1x2304 (0 : Fin 1) o

/-! ## The second pipeline's inputs -/

/-- The three arrays the first pipeline wrote are read as it left them: no operation in between writes them. -/
theorem E3_v3_0 : E3 m c main_v3_0 = (dat0 (E1 m) c).arrAt 3 cfg0.N :=
  (Gen.V3_of m (outs0 m) c main_v3_0 (by decide)).trans
    ((congrFun (V2_outs m c) _).symm.trans ((V2_v3_0 m c).trans (W2_arr m c 3)))
theorem E3_v3_1 : E3 m c main_v3_1 = (dat0 (E1 m) c).arrAt 4 cfg0.N :=
  (Gen.V3_of m (outs0 m) c main_v3_1 (by decide)).trans
    ((congrFun (V2_outs m c) _).symm.trans ((V2_v3_1 m c).trans (W2_arr m c 4)))
theorem E3_v3_2 : E3 m c main_v3_2 = (dat0 (E1 m) c).arrAt 5 cfg0.N :=
  (Gen.V3_of m (outs0 m) c main_v3_2 (by decide)).trans
    ((congrFun (V2_outs m c) _).symm.trans ((V2_v3_2 m c).trans (W2_arr m c 5)))

/-- An argument the first pipeline does not write is still as launched when the second stretch of host operations
    reads it. -/
theorem V2_arg3 : Gen.V2 m (outs0 m) c main_arg3 = m ((c : Thread nD τ).loc main_arg3) :=
  (Gen.V2_of m (outs0 m) c main_arg3 (by decide)).trans (Gen.V1_of m c main_arg3 (by decide))
theorem V2_arg4 : Gen.V2 m (outs0 m) c main_arg4 = m ((c : Thread nD τ).loc main_arg4) :=
  (Gen.V2_of m (outs0 m) c main_arg4 (by decide)).trans (Gen.V1_of m c main_arg4 (by decide))

/-- The output projection's weights at (`x`, `o`) are the launched matrix at (`o`, `x`). -/
theorem E3_v5_at (x o : Fin 768) :
    (E3 m c main_v5 : S768x768.Idx → EReal) (ix2 x o) = (m ((c : Thread nD τ).loc main_arg3) : S768x768.Idx → EReal) (ix2 o x) := by
  have e : (E3 m c main_v5 : S768x768.Idx → EReal)
      = truncf (F := Ideal) .bf16 (transpose S768x768 [1, 0] (Gen.V2 m (outs0 m) c main_arg3 : FVec Ideal S768x768 .f32) transposes_S768x768_S768x768_1_0) bitsLt_bf16_f32 := by
    dsimp only [E3, Gen.V3, Gen.hostOps1]; after_results
  rw [e, truncf_apply, V2_arg3]
  exact transpose_apply [1, 0] _ transposes_S768x768_S768x768_1_0 (ix2 x o) (ix2 o x) (fun b => by fin_cases b <;> rfl)

/-- Its bias row at (0, `o`) is the launched bias at `o`. -/
theorem E3_v6_at (o : Fin 768) :
    (E3 m c main_v6 : S1x768.Idx → EReal) (ix2 (0 : Fin 1) o) = (m ((c : Thread nD τ).loc main_arg4) : S768.Idx → EReal) (ix1 o) := by
  have e : (E3 m c main_v6 : S1x768.Idx → EReal)
      = shapeCast S1x768 (Gen.V2 m (outs0 m) c main_arg4 : FVec Ideal S768 .f32) shapeCasts_S768_S1x768 := by
    dsimp only [E3, Gen.V3, Gen.hostOps1]; after_results; rfl
  rw [e, V2_arg4]
  exact shapeCast_a_1a_apply _ shapeCasts_S768_S1x768 (0 : Fin 1) o

end Cert.KernelIdeal.Hand

end
-- ==== Proof.KI.Value.lean ====
/-
  The value of the kernel program's result array, at the exact instance, under the precondition.

  Region 1 walks, for every batch b and query tile i, over 16 key tiles j. Its three accumulators — the running
  maximum m, the running denominator l and the running numerator a, one entry per head and query row (and value
  column) — are reset at j = 0 and updated at every j from the key and value blocks of tile j. Reading the body's
  arithmetic index by index and the blocks as pieces of the arrays the region was entered with, an induction over j
  identifies the accumulators after tile j with the online-softmax recurrence on the REAL numbers after j + 1 tiles,
  for scores s = (q·k)·0.125 and values v that are real because the inputs are. At j = 15 the body divides a by l,
  merges the heads, multiplies by the transposed projection matrix and adds the bias; the pipeline writes that block
  back, and the blocks of the 16 query tiles cover the result array. The quotient a/l is the plain softmax-weighted
  sum (the online recurrence and the plain softmax agree on the reals), so each entry is the reference's formula.

  The arrays region 1 is entered with are region 0's outputs — the projection x·Wᵀ + b, its three column thirds —
  and the transposed projection matrix and the bias row that the host operations between the regions prepare.
-/
import proofs.«144252_j90228672955012_2_alg».proof.Proof.KI.Frame
import proofs.«144252_j90228672955012_2_alg».proof.Proof.KI.Blocks1
import proofs.«144252_j90228672955012_2_alg».proof.Proof.KI.Q
import proofs.«144252_j90228672955012_2_alg».proof.Proof.KI.StepLift
import proofs.«144252_j90228672955012_2_alg».proof.Proof.RefLift
import proofs.«144252_j90228672955012_2_alg».proof.Proof.Fin
import proofs.«144252_j90228672955012_2_alg».proof.Proof.KI.Host
set_option maxRecDepth 16384
noncomputable section

namespace Cert.KernelIdeal.Hand

open Idealize.ShloMosaic Idealize.ShloMosaic.TcCoe Idealize.ShloMosaic.ValueIdx
open Idealize.ShloMosaic.Pipeline (Dat)
open Cert.KernelIdeal Cert.KernelIdeal.Gen Cert.Attn
open Cert.KernelIdeal.PayRead Cert.KernelIdeal.StepLift

/-! ## The carried accumulators are the online recurrence's state -/

section Lift
variable (V : (c : Dev nD) → (b : Ref sig .tc) → Buf (Elt Ideal) ((c : Thread nD τ).loc b)) (c : Dev nD)
variable (qR kR vR : Fin 4 → Fin 2048 → Fin 768 → ℝ)
  (hq : ∀ b n cc, (V c main_v3_0 : S4x2048x768.Idx → EReal) (ix3 b n cc) = ((qR b n cc : ℝ) : EReal))
  (hk : ∀ b n cc, (V c main_v3_1 : S4x2048x768.Idx → EReal) (ix3 b n cc) = ((kR b n cc : ℝ) : EReal))
  (hv : ∀ b n cc, (V c main_v3_2 : S4x2048x768.Idx → EReal) (ix3 b n cc) = ((vR b n cc : ℝ) : EReal))

/-- The scores of query row `512 i + r` of head `h` against all keys, tile by tile: the scaled inner products. -/
def Sc (b i : Fin 4) (h : Fin 12) (r : Fin 512) : Fin 16 → Fin 128 → ℝ :=
  fun t u => (∑ e' : Fin 64, qR b ⟨512 * i.val + r.val, by omega⟩ (col h e') * kR b (key t u) (col h e')) * 0.125
/-- Column `e` of head `h` of the values, tile by tile. -/
def Wv (b : Fin 4) (h : Fin 12) (e : Fin 64) : Fin 16 → Fin 128 → ℝ := fun t u => vR b (key t u) (col h e)

include hq hk hv in
/-- After the body at key tile `j` of query tile `(b, i)`, the three accumulators hold, at row `r` of head `h`
    (and column `e`), the online recurrence's running maximum, denominator and numerator after `j + 1` tiles:
    the first tile starts from the reset values, every later tile from what the tile before left. -/
theorem scr1_lift (b i : Fin 4) (h : Fin 12) (r : Fin 512) (e : Fin 64) : ∀ (j : ℕ) (hj : j < 16),
    (scr1 V c (pt1 b i ⟨j, hj⟩).val (pt1 b i ⟨j, hj⟩).isLt).1 (ix3 h r (0 : Fin 1)) = (((online negInit (Sc qR kR b i h r) (Wv vR b h e) (j + 1) (by omega)).1 : ℝ) : EReal)
    ∧ (scr1 V c (pt1 b i ⟨j, hj⟩).val (pt1 b i ⟨j, hj⟩).isLt).2.1 (ix3 h r (0 : Fin 1)) = (((online negInit (Sc qR kR b i h r) (Wv vR b h e) (j + 1) (by omega)).2.1 : ℝ) : EReal)
    ∧ (scr1 V c (pt1 b i ⟨j, hj⟩).val (pt1 b i ⟨j, hj⟩).isLt).2.2 (ix3 h r e) = (((online negInit (Sc qR kR b i h r) (Wv vR b h e) (j + 1) (by omega)).2.2 : ℝ) : EReal) := by
  intro j
  induction j with
  | zero =>
    intro hj
    have h0 : (pt1 b i ⟨0, hj⟩).val % 16 = 0 := by rw [pt1_val]; dsimp only; omega
    rw [scr1_first V c (pt1 b i ⟨0, hj⟩) h0]
    exact step_lift _ _ _ _ _ _ (fun r cc => qR b ⟨512 * i.val + r.val, by omega⟩ cc) (fun u cc => kR b (key ⟨0, hj⟩ u) cc) (fun u cc => vR b (key ⟨0, hj⟩ u) cc)
      (fun r cc => (iblk1_0_pt V c b i ⟨0, hj⟩ r cc).trans (hq b _ cc)) (fun u cc => (iblk1_1_pt V c b i ⟨0, hj⟩ u cc).trans (hk b _ cc)) (fun u cc => (iblk1_2_pt V c b i ⟨0, hj⟩ u cc).trans (hv b _ cc))
      h r e negInit 0 0 (pay5_lift _) (pay6_lift _) (pay7_lift _)
  | succ j ih =>
    intro hj
    have hn : ¬ (pt1 b i ⟨j + 1, hj⟩).val % 16 = 0 := by rw [pt1_val]; dsimp only; omega
    obtain ⟨ihm, ihl, iha⟩ := ih (by omega)
    rw [scr1_next V c (pt1 b i ⟨j + 1, hj⟩) hn]
    have hj' : j < 16 := by omega
    have hp : (pt1 b i ⟨j + 1, hj⟩).val - 1 = (pt1 b i ⟨j, hj'⟩).val := by rw [pt1_val, pt1_val]; dsimp only; omega
    simp only [hp]
    exact step_lift _ _ _ _ _ _ (fun r cc => qR b ⟨512 * i.val + r.val, by omega⟩ cc) (fun u cc => kR b (key ⟨j + 1, hj⟩ u) cc) (fun u cc => vR b (key ⟨j + 1, hj⟩ u) cc)
      (fun r cc => (iblk1_0_pt V c b i ⟨j + 1, hj⟩ r cc).trans (hq b _ cc)) (fun u cc => (iblk1_1_pt V c b i ⟨j + 1, hj⟩ u cc).trans (hk b _ cc)) (fun u cc => (iblk1_2_pt V c b i ⟨j + 1, hj⟩ u cc).trans (hv b _ cc))
      h r e _ _ _ ihm ihl iha
end Lift

/-! ## What the second region finds, as real numbers -/

section Value
open Cert.RefLift Cert.RefRead

variable (m : (ℓ : Loc nD τ sig) → Buf (Elt Ideal) ℓ) (c : Dev nD)
variable {x' : Fin 4 → Fin 2048 → Fin 768 → ℝ} {w' : Fin 2304 → Fin 768 → ℝ} {bq' : Fin 2304 → ℝ} {pw' : Fin 768 → Fin 768 → ℝ} {pb' : Fin 768 → ℝ}
variable (L : Lifts (m ((c : Thread nD τ).loc main_arg0)) (m ((c : Thread nD τ).loc main_arg1)) (m ((c : Thread nD τ).loc main_arg2))
  (m ((c : Thread nD τ).loc main_arg3)) (m ((c : Thread nD τ).loc main_arg4)) x' w' bq' pw' pb')

include L in
/-- The projection x·Wᵀ + b of real inputs is real, entry by entry. -/
theorem qkvE_lift (b : Fin 4) (n : Fin 2048) (o : Fin 2304) :
    qkvE (E1 m c main_arg0) (E1 m c main_v1) (E1 m c main_v2) b n o = ((qkvR x' w' bq' b n o : ℝ) : EReal) := by
  unfold qkvE qkvR
  rw [EReal.coe_add, coe_finset_sum]
  congr 1
  · refine Finset.sum_congr rfl (fun d _ => ?_)
    rw [EReal.coe_mul, E1_arg0, E1_v1_at, L.h0, L.h1]
  · rw [E1_v2_at, L.h2]

include L in
theorem entry_q (b : Fin 4) (n : Fin 2048) (cc : Fin 768) :
    (E3 m c main_v3_0 : S4x2048x768.Idx → EReal) (ix3 b n cc) = ((qkvR x' w' bq' b n ⟨cc.val, by omega⟩ : ℝ) : EReal) := by
  rw [E3_v3_0 m c]; exact (final0_3 (E1 m) c b n cc).trans (qkvE_lift m c L b n _)
include L in
theorem entry_k (b : Fin 4) (n : Fin 2048) (cc : Fin 768) :
    (E3 m c main_v3_1 : S4x2048x768.Idx → EReal) (ix3 b n cc) = ((qkvR x' w' bq' b n ⟨768 + cc.val, by omega⟩ : ℝ) : EReal) := by
  rw [E3_v3_1 m c]; exact (final0_4 (E1 m) c b n cc).trans (qkvE_lift m c L b n _)
include L in
theorem entry_v (b : Fin 4) (n : Fin 2048) (cc : Fin 768) :
    (E3 m c main_v3_2 : S4x2048x768.Idx → EReal) (ix3 b n cc) = ((qkvR x' w' bq' b n ⟨1536 + cc.val, by omega⟩ : ℝ) : EReal) := by
  rw [E3_v3_2 m c]; exact (final0_5 (E1 m) c b n cc).trans (qkvE_lift m c L b n _)

/-! ## One query tile's output block -/

include L in
/-- At the last key tile of query tile `(b, i)` the body's output block is, row by row, the reference's formula:
    the accumulators hold the online recurrence's state after all 16 tiles; their quotient is the softmax-weighted
    sum of the values (the online recurrence and the plain softmax agree on the reals); the projection and the
    bias are the reference's. -/
theorem tile_value (b i : Fin 4) (r : Fin 512) (o : Fin 768) :
    outO (scr1 (E3 m) c (pt1 b i ⟨15, by norm_num⟩).val (pt1 b i ⟨15, by norm_num⟩).isLt).2.2 (scr1 (E3 m) c (pt1 b i ⟨15, by norm_num⟩).val (pt1 b i ⟨15, by norm_num⟩).isLt).2.1
        (iblk1 (E3 m) c 3 (pt1 b i ⟨15, by norm_num⟩)) (iblk1 (E3 m) c 4 (pt1 b i ⟨15, by norm_num⟩)) (ix3 (0 : Fin 1) r o)
      = ((outR x' w' bq' pw' pb' b ⟨512 * i.val + r.val, by omega⟩ o : ℝ) : EReal) := by
  have HL := fun (h : Fin 12) (r : Fin 512) (e : Fin 64) =>
    scr1_lift (E3 m) c (fun b n cc => qkvR x' w' bq' b n ⟨cc.val, by omega⟩) (fun b n cc => qkvR x' w' bq' b n ⟨768 + cc.val, by omega⟩)
      (fun b n cc => qkvR x' w' bq' b n ⟨1536 + cc.val, by omega⟩) (entry_q m c L) (entry_k m c L) (entry_v m c L) b i h r e 15 (by norm_num)
  have hpos : ∀ (h : Fin 12) (r : Fin 512),
      (online negInit (Sc (fun b n cc => qkvR x' w' bq' b n ⟨cc.val, by omega⟩) (fun b n cc => qkvR x' w' bq' b n ⟨768 + cc.val, by omega⟩) b i h r)
        (Wv (fun b n cc => qkvR x' w' bq' b n ⟨1536 + cc.val, by omega⟩) b h 0) 16 le_rfl).2.1 ≠ 0 :=
    fun h r => (online_l_pos negInit _ _ 16 le_rfl (by norm_num)).ne'
  have hle : ∀ (h : Fin 12) (r : Fin 512) (e : Fin 64),
      (online negInit (Sc (fun b n cc => qkvR x' w' bq' b n ⟨cc.val, by omega⟩) (fun b n cc => qkvR x' w' bq' b n ⟨768 + cc.val, by omega⟩) b i h r)
        (Wv (fun b n cc => qkvR x' w' bq' b n ⟨1536 + cc.val, by omega⟩) b h e) 16 le_rfl).2.1
      = (online negInit (Sc (fun b n cc => qkvR x' w' bq' b n ⟨cc.val, by omega⟩) (fun b n cc => qkvR x' w' bq' b n ⟨768 + cc.val, by omega⟩) b i h r)
        (Wv (fun b n cc => qkvR x' w' bq' b n ⟨1536 + cc.val, by omega⟩) b h 0) 16 le_rfl).2.1 :=
    fun h r e => EReal.coe_injective (((HL h r e).2.1).symm.trans (HL h r 0).2.1)
  show k1_pay4 _ _ _ _ _ = _
  refine (out_lift _ _ _ _
    (fun h r e => (online negInit (Sc (fun b n cc => qkvR x' w' bq' b n ⟨cc.val, by omega⟩) (fun b n cc => qkvR x' w' bq' b n ⟨768 + cc.val, by omega⟩) b i h r)
      (Wv (fun b n cc => qkvR x' w' bq' b n ⟨1536 + cc.val, by omega⟩) b h e) 16 le_rfl).2.2)
    (fun h r => (online negInit (Sc (fun b n cc => qkvR x' w' bq' b n ⟨cc.val, by omega⟩) (fun b n cc => qkvR x' w' bq' b n ⟨768 + cc.val, by omega⟩) b i h r)
      (Wv (fun b n cc => qkvR x' w' bq' b n ⟨1536 + cc.val, by omega⟩) b h 0) 16 le_rfl).2.1)
    hpos (fun cc o => pw' o cc) pb'
    (fun h r e => (HL h r e).2.2) (fun h r => (HL h r 0).2.1)
    (fun cc o => (iblk1_3_at (E3 m) c _ cc o).trans ((E3_v5_at m c cc o).trans (L.h3 o cc)))
    (fun o => (iblk1_4_at (E3 m) c _ o).trans ((E3_v6_at m c o).trans (L.h4 o))) r o).trans ?_
  refine congrArg _ ?_
  unfold outR
  refine congrArg (· + pb' o) (Finset.sum_congr rfl (fun cidx _ => ?_))
  refine congrArg (· * pw' o cidx) ?_
  rw [attR_eq_online x' w' bq' negInit b (headOf cidx) ⟨512 * i.val + r.val, by omega⟩ (laneOf cidx), ← hle (headOf cidx) r (laneOf cidx)]
  rfl
end Value

/-! ## The result array -/

section Result
open Cert.RefLift Cert.RefRead

/-- THE KERNEL'S VALUE. Under the precondition (every input a real number), the array region 1's pipeline leaves in
    the result buffer is, index by index, the reference's formula of the argument arrays. -/
theorem kernel_value [Cert.Pre_finite_inputs.Facts] (m : (ℓ : Loc nD τ sig) → Buf (Elt Ideal) ℓ) (c : Dev nD)
    (hpre : Cert.Pre_finite_inputs.fn (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun _ => 1#1)
    (b : Fin 4) (n : Fin 2048) (o : Fin 768) :
    ((dat1 (F := Ideal) (E3 m) c).arrAt 5 cfg1.N : S4x2048x768.Idx → EReal) (ix3 b n o)
      = refOut (m ((c : Thread nD τ).loc main_arg0)) (m ((c : Thread nD τ).loc main_arg1)) (m ((c : Thread nD τ).loc main_arg2))
          (m ((c : Thread nD τ).loc main_arg3)) (m ((c : Thread nD τ).loc main_arg4)) b n o := by
  obtain ⟨r0, r1, r2, r3, r4⟩ := Cert.FinIn.real_of_pre _ _ _ _ _ hpre
  obtain ⟨x', w', bq', pw', pb', L⟩ := exists_lifts r0 r1 r2 r3 r4
  rw [refOut_coe L b n o, final1_5 (dat1 (E3 m) c) b n o, after1_5]
  have hp : pt5 b n = pt1 b ⟨n.val / 512, by omega⟩ ⟨15, by norm_num⟩ := Fin.ext rfl
  have hn : (⟨512 * (n.val / 512) + n.val % 512, by omega⟩ : Fin 2048) = n := Fin.ext (Nat.div_add_mod n.val 512)
  rw [hp]
  have ht := tile_value m c L b ⟨n.val / 512, by omega⟩ ⟨n.val % 512, by omega⟩ o
  rw [hn] at ht
  exact ht
end Result

end Cert.KernelIdeal.Hand
end
-- ==== Proof.Ref2.lean ====
import proofs.«144252_j90228672955012_2_alg».proof.Proof.Gen.ReferenceIdeal.Read
import proofs.«144252_j90228672955012_2_alg».proof.Proof.Ref1

noncomputable section

namespace Cert.RefRead

open Idealize.ShloMosaic Idealize.ShloMosaic.ValueIdx
open Cert.ReferenceIdeal Cert.ReferenceIdeal.Gen Cert.ReferenceIdeal.Read
open scoped BigOperators

/-! ## Scores and the softmax, read at an index -/

section Scores
variable (x0 : FVec Ideal S4x2048x768 .f32) (x1 : FVec Ideal S2304x768 .f32) (x2 : FVec Ideal S2304 .f32)

/-- The scaled score at `(b, h, n, m)`: queries at position `n` against keys at position `m` over the 64 lanes, divided by the
    square root of the splat word. -/
theorem v16_at (b : Fin 4) (h : Fin 12) (n m : Fin 2048) :
    val_main_v16 (F := Ideal) x0 x1 x2 (ix4 b h n m) = sc x0 x1 x2 b h n m := by
  rw [val_main_v16_apply, val_main_v13_apply, val_main_v15_apply, val_main_v14_apply, val_main_cst_apply]
  have el : ∀ k : Fin 64, lidx_main_v13 (ix4 b h n m) k = ix4 b h n k := fun k => funext fun a => by
    match a with | ⟨0, _⟩ => rfl | ⟨1, _⟩ => rfl | ⟨2, _⟩ => rfl | ⟨3, _⟩ => rfl
  have er : ∀ k : Fin 64, ridx_main_v13 (ix4 b h n m) k = ix4 b h m k := fun k => funext fun a => by
    match a with | ⟨0, _⟩ => rfl | ⟨1, _⟩ => rfl | ⟨2, _⟩ => rfl | ⟨3, _⟩ => rfl
  simp only [el, er, v8_at, v10_at]
  rfl

/-- The max-reduce over the key axis at `(b, h, n)`: for a commutative associative body the fold, from the initial word,
    over the key positions of the scores of that row. -/
theorem v17_at (b : Fin 4) (h : Fin 12) (n : Fin 2048) :
    val_main_v17 (F := Ideal) x0 x1 x2 (ix3 b h n)
      = (Finset.univ : Finset (Fin 2048)).fold max (Ideal.ofBits .f32 0xFF800000#32) fun m => sc x0 x1 x2 b h n m := by
  have hy : ∀ m : Fin 2048, val_main_v16 (F := Ideal) x0 x1 x2 (ix4 b h n m) = sc x0 x1 x2 b h n m := v16_at x0 x1 x2 b h n
  unfold val_main_v17
  generalize val_main_v16 (F := Ideal) x0 x1 x2 = y at hy ⊢
  have hr : S4x12x2048x2048.Reduces [3] S4x12x2048 := by decide
  rw [Host.reduce_eq_fold_single _ _ _ reducesTo_S4x12x2048x2048_S4x12x2048_d3 hr]
  show (Finset.univ : Finset (Fin 2048)).fold max (Ideal.ofBits .f32 0xFF800000#32) (fun k => y (hr.lift (ix3 b h n) k)) = _
  refine congrArg (fun f => (Finset.univ : Finset (Fin 2048)).fold max (Ideal.ofBits .f32 0xFF800000#32) f) (funext fun k => ?_)
  exact (congrArg y (funext fun a => Fin.ext (by
    match a with | ⟨0, _⟩ => rfl | ⟨1, _⟩ => rfl | ⟨2, _⟩ => rfl | ⟨3, _⟩ => rfl))).trans (hy k)

/-- The row maximum: the maximum of the minus-infinity splat and the reduce. -/
theorem v19_at (b : Fin 4) (h : Fin 12) (n : Fin 2048) :
    val_main_v19 (F := Ideal) x0 x1 x2 (ix3 b h n) = mx x0 x1 x2 b h n := by
  rw [val_main_v19_apply, val_main_v18_apply, val_main_cst_1_apply, v17_at]
  rfl

/-- The row maximum broadcast along the key axis. -/
theorem v21_at (b : Fin 4) (h : Fin 12) (n m : Fin 2048) :
    val_main_v21 (F := Ideal) x0 x1 x2 (ix4 b h n m) = mx x0 x1 x2 b h n := by
  rw [val_main_v21_apply, val_main_v20_apply]
  have ei : idx_main_v20 (idx_main_v21 (ix4 b h n m)) = ix3 b h n := funext fun a => by
    match a with | ⟨0, _⟩ => rfl | ⟨1, _⟩ => rfl | ⟨2, _⟩ => rfl
  rw [ei, v19_at]

/-- The exponential of the shifted score. -/
theorem v23_at (b : Fin 4) (h : Fin 12) (n m : Fin 2048) :
    val_main_v23 (F := Ideal) x0 x1 x2 (ix4 b h n m) = ex x0 x1 x2 b h n m := by
  rw [val_main_v23_apply, val_main_v22_apply, v16_at, v21_at]
  rfl

/-- The sum-reduce over the key axis: the initial word plus the sum of the row's exponentials. -/
theorem v24_at (b : Fin 4) (h : Fin 12) (n : Fin 2048) :
    val_main_v24 (F := Ideal) x0 x1 x2 (ix3 b h n) = z x0 x1 x2 b h n := by
  rw [val_main_v24_apply, val_main_cst_2_apply]
  have ei : ∀ k : Fin 2048, idx_main_v24 (ix3 b h n) k = ix4 b h n k := fun k => funext fun a => by
    match a with | ⟨0, _⟩ => rfl | ⟨1, _⟩ => rfl | ⟨2, _⟩ => rfl | ⟨3, _⟩ => rfl
  simp only [ei, v23_at]
  rfl

/-- The denominator broadcast along the key axis. -/
theorem v26_at (b : Fin 4) (h : Fin 12) (n m : Fin 2048) :
    val_main_v26 (F := Ideal) x0 x1 x2 (ix4 b h n m) = z x0 x1 x2 b h n := by
  rw [val_main_v26_apply, val_main_v25_apply]
  have ei : idx_main_v25 (idx_main_v26 (ix4 b h n m)) = ix3 b h n := funext fun a => by
    match a with | ⟨0, _⟩ => rfl | ⟨1, _⟩ => rfl | ⟨2, _⟩ => rfl
  rw [ei, v24_at]

/-- The attention weight. -/
theorem v27_at (b : Fin 4) (h : Fin 12) (n m : Fin 2048) :
    val_main_v27 (F := Ideal) x0 x1 x2 (ix4 b h n m) = p x0 x1 x2 b h n m := by
  rw [val_main_v27_apply, v23_at, v26_at]
  rfl

end Scores

end Cert.RefRead

end
-- ==== Proof.Ref.lean ====
import proofs.«144252_j90228672955012_2_alg».proof.Proof.Gen.ReferenceIdeal.Read
import proofs.«144252_j90228672955012_2_alg».proof.Proof.Ref2

noncomputable section

namespace Cert.RefRead

open Idealize.ShloMosaic Idealize.ShloMosaic.ValueIdx
open Cert.ReferenceIdeal Cert.ReferenceIdeal.Gen Cert.ReferenceIdeal.Read
open scoped BigOperators

/-! ## The weighted values, the heads side by side, the output projection -/

section Tail
variable (x0 : FVec Ideal S4x2048x768 .f32) (x1 : FVec Ideal S2304x768 .f32) (x2 : FVec Ideal S2304 .f32)
  (x3 : FVec Ideal S768x768 .f32) (x4 : FVec Ideal S768 .f32)

/-- The attended value at `(b, h, n, e)`: the weights of row `n` against lane `e` of the head's values over the key
    positions. -/
theorem v28_at (b : Fin 4) (h : Fin 12) (n : Fin 2048) (e : Fin 64) :
    val_main_v28 (F := Ideal) x0 x1 x2 (ix4 b h n e) = att x0 x1 x2 b h n e := by
  rw [val_main_v28_apply]
  have el : ∀ k : Fin 2048, lidx_main_v28 (ix4 b h n e) k = ix4 b h n k := fun k => funext fun a => by
    match a with | ⟨0, _⟩ => rfl | ⟨1, _⟩ => rfl | ⟨2, _⟩ => rfl | ⟨3, _⟩ => rfl
  have er : ∀ k : Fin 2048, ridx_main_v28 (ix4 b h n e) k = ix4 b h k e := fun k => funext fun a => by
    match a with | ⟨0, _⟩ => rfl | ⟨1, _⟩ => rfl | ⟨2, _⟩ => rfl | ⟨3, _⟩ => rfl
  simp only [el, er, v27_at, v12_at]
  rfl

/-- Row-major position `(b · 2048 + n) · 768 + c` of the `[4, 2048, 768]` view is position `(b, n, c / 64, c % 64)` of
    the `[4, 2048, 12, 64]` one: the four coordinates. -/
theorem join_b (b : Fin 4) (n : Fin 2048) (c : Fin 768) : ((b.val * 2048 + n.val) * 768 + c.val) / 1572864 = b.val := by
  have := b.isLt; have := n.isLt; have := c.isLt; omega
theorem join_n (b : Fin 4) (n : Fin 2048) (c : Fin 768) : ((b.val * 2048 + n.val) * 768 + c.val) / 768 % 2048 = n.val := by
  have := b.isLt; have := n.isLt; have := c.isLt; omega
theorem join_h (b : Fin 4) (n : Fin 2048) (c : Fin 768) : ((b.val * 2048 + n.val) * 768 + c.val) / 64 % 12 = c.val / 64 := by
  have := b.isLt; have := n.isLt; have := c.isLt; omega
theorem join_e (b : Fin 4) (n : Fin 2048) (c : Fin 768) : ((b.val * 2048 + n.val) * 768 + c.val) % 64 = c.val % 64 := by
  have := b.isLt; have := n.isLt; have := c.isLt; omega

/-- The heads side by side: column `c` at `(b, n)` is lane `c % 64` of head `c / 64`. -/
theorem v30_at (b : Fin 4) (n : Fin 2048) (c : Fin 768) :
    val_main_v30 (F := Ideal) x0 x1 x2 (ix3 b n c)
      = att x0 x1 x2 b ⟨c.val / 64, by have := c.isLt; omega⟩ n ⟨c.val % 64, by omega⟩ := by
  rw [val_main_v30_apply, val_main_v29_apply]
  have ei : idx_main_v29 (idx_main_v30 (ix3 b n c))
      = ix4 b (⟨c.val / 64, by have := c.isLt; omega⟩ : Fin 12) n (⟨c.val % 64, by omega⟩ : Fin 64) :=
    funext fun a => Fin.ext (by
      match a with
      | ⟨0, _⟩ => exact join_b b n c
      | ⟨1, _⟩ => exact join_h b n c
      | ⟨2, _⟩ => exact join_n b n c
      | ⟨3, _⟩ => exact join_e b n c)
  rw [ei, v28_at]

/-- THE REFERENCE READ AT AN INDEX: the last stage of the reference's run at `(b, n, o)` is `refOut` there. -/
theorem ref_read (b : Fin 4) (n : Fin 2048) (o : Fin 768) :
    val_main_v34 (F := Ideal) x0 x1 x2 x3 x4 (ix3 b n o) = refOut x0 x1 x2 x3 x4 b n o := by
  rw [val_main_v34_apply, val_main_v31_apply, val_main_v33_apply, val_main_v32_apply]
  have el : ∀ k : Fin 768, lidx_main_v31 (ix3 b n o) k = ix3 b n k := fun k => funext fun a => by
    match a with | ⟨0, _⟩ => rfl | ⟨1, _⟩ => rfl | ⟨2, _⟩ => rfl
  have er : ∀ k : Fin 768, ridx_main_v31 (ix3 b n o) k = ix2 o k := fun k => funext fun a => by
    match a with | ⟨0, _⟩ => rfl | ⟨1, _⟩ => rfl
  have eb : idx_main_v32 (idx_main_v33 (ix3 b n o)) = ix1 o := funext fun a => by
    match a with | ⟨0, _⟩ => rfl
  simp only [el, er, eb, v30_at]
  rfl

/-- The same as an equation of arrays: the last stage is `refOut` at each index's three coordinates. -/
theorem ref_read_fun :
    val_main_v34 (F := Ideal) x0 x1 x2 x3 x4 = fun i => refOut x0 x1 x2 x3 x4 (i 0) (i 1) (i 2) := by
  funext i
  obtain ⟨b, n, o, rfl⟩ : ∃ (b : Fin 4) (n : Fin 2048) (o : Fin 768), i = ix3 b n o := ⟨i 0, i 1, i 2, eq_ix3 i⟩
  exact ref_read x0 x1 x2 x3 x4 b n o

end Tail

end Cert.RefRead

end
-- ==== Proof.lean ====
/-
  Attention in two kernels against its plain reference, over the extended reals.

  The program projects the activations to queries, keys and values in one kernel (x·Wᵀ + b, written as three arrays),
  and in a second kernel forms, for every head and every tile of 512 queries, the softmax-weighted sum of the values
  by the ONLINE recurrence over 16 tiles of 128 keys — a running maximum m, a running denominator l and a running
  numerator a, rescaled by exp(m_old − m_new) at every tile, starting from a finite stand-in for −∞ — and, at the last
  key tile, divides, merges the heads and applies the output projection. The reference computes the same projection,
  the scores divided by √64, the plain softmax (subtract the row maximum, exponentiate, normalise), the weighted sum
  and the same output projection.

  At the exact instance every change of float format is the identity, √64 is 8 and the kernel's scale 0.125 is 1/8.
  For real scores the quotient Σ exp(sⱼ − m)·vⱼ / Σ exp(sⱼ − m) does not depend on the real number m subtracted, so the
  online recurrence — whose final m is the maximum of the scores and of the finite start value — and the plain softmax
  give the same number. That needs the scores to be real, which is where the precondition (every input finite) is used.

  The three frames: each program runs to the end without a fault and leaves its argument arrays unchanged — for the two
  kernel programs from the run of their two regions (the second region carries its three accumulators between grid
  points), for the reference from its run of host operations. The idealization rewrote no operation.
-/
import proofs.«144252_j90228672955012_2_alg».proof.Defs
import proofs.«144252_j90228672955012_2_alg».proof.Proof.Gen.Kernel
import proofs.«144252_j90228672955012_2_alg».proof.Proof.Gen.KernelIdeal
import proofs.«144252_j90228672955012_2_alg».proof.Proof.Gen.ReferenceIdeal
import proofs.«144252_j90228672955012_2_alg».proof.Proof.Gen.ReferenceIdeal.Run
import proofs.«144252_j90228672955012_2_alg».proof.Proof.Gen.ReferenceIdeal.Read
import proofs.«144252_j90228672955012_2_alg».proof.Proof.Gen.Pre_finite_inputs
import proofs.«144252_j90228672955012_2_alg».proof.Proof.K.Frame
import proofs.«144252_j90228672955012_2_alg».proof.Proof.KI.Frame
import proofs.«144252_j90228672955012_2_alg».proof.Proof.KI.Value
import proofs.«144252_j90228672955012_2_alg».proof.Proof.Ref
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its arguments unchanged. -/
theorem frame_p [hKernel : Cert.Kernel.Facts] [hPre_finite_inputs : Cert.Pre_finite_inputs.Facts] : Cert.frame_Kernel :=
  fun m ρ _ => Cert.Kernel.Hand.frame (F := Bits) m ρ

/-- So does the idealized kernel program. -/
theorem frame_pi [hKernelIdeal : Cert.KernelIdeal.Facts] [hPre_finite_inputs : Cert.Pre_finite_inputs.Facts] : Cert.frame_KernelIdeal :=
  fun m ρ _ => Cert.KernelIdeal.Hand.frame (F := Ideal) m ρ

/-- And the reference: its run of host operations, with the result dropped. -/
theorem frame_ri [hReferenceIdeal : Cert.ReferenceIdeal.Facts] [hPre_finite_inputs : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments both idealized programs end with the same result array: the kernel's is
    what its second region wrote back, which is the reference's formula index by index; the reference's run ends at
    that formula of its own arguments. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' hpre hagree
  refine ⟨fun c => (Cert.KernelIdeal.Hand.dat1 (F := Ideal) (Cert.KernelIdeal.Hand.E3 m) c).arrAt 5 Cert.KernelIdeal.cfg1.N, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.RefRead.ref_read_fun, (hagree c).1, (hagree c).2.1, (hagree c).2.2.1, (hagree c).2.2.2.1, (hagree c).2.2.2.2]
  funext idx
  obtain ⟨b, n, o, rfl⟩ : ∃ (b : Fin 4) (n : Fin 2048) (o : Fin 768), idx = ix3 b n o := ⟨idx 0, idx 1, idx 2, eq_ix3 idx⟩
  exact (Cert.KernelIdeal.Hand.kernel_value m c (hpre c) b n o).symm

theorem claim : Cert.Claim :=
  ⟨Cert.Kernel.Gen.facts, Cert.KernelIdeal.Gen.facts, Cert.ReferenceIdeal.Gen.facts, Cert.Pre_finite_inputs.Gen.facts,
    frame_p (hKernel := Cert.Kernel.Gen.facts) (hPre_finite_inputs := Cert.Pre_finite_inputs.Gen.facts),
    frame_pi (hKernelIdeal := Cert.KernelIdeal.Gen.facts) (hPre_finite_inputs := Cert.Pre_finite_inputs.Gen.facts),
    frame_ri (hReferenceIdeal := Cert.ReferenceIdeal.Gen.facts) (hPre_finite_inputs := Cert.Pre_finite_inputs.Gen.facts),
    trivial,
    algebraic (hKernelIdeal := Cert.KernelIdeal.Gen.facts) (hReferenceIdeal := Cert.ReferenceIdeal.Gen.facts) (hPre_finite_inputs := Cert.Pre_finite_inputs.Gen.facts)⟩

end Cert.Proof

end
